-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S4096x2048 : Shape := ⟨2, ![4096, 2048]⟩
abbrev S4096 : Shape := ⟨1, ![4096]⟩
abbrev S4096x4096 : Shape := ⟨2, ![4096, 4096]⟩
abbrev S1024x2048 : Shape := ⟨2, ![1024, 2048]⟩
abbrev S1024x1024 : Shape := ⟨2, ![1024, 1024]⟩
abbrev S4096x1 : Shape := ⟨2, ![4096, 1]⟩
abbrev S1x4096 : Shape := ⟨2, ![1, 4096]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S1x1 : Shape := ⟨2, ![1, 1]⟩
abbrev S256x4096 : Shape := ⟨2, ![256, 4096]⟩
abbrev S256x1 : Shape := ⟨2, ![256, 1]⟩
abbrev S256 : Shape := ⟨1, ![256]⟩

abbrev nBuf : Space → Nat
  | .hbm => 81
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S4096x2048, .bf16⟩
  | .hbm, ⟨3, _⟩ => ⟨S4096x4096, .f32⟩
  | .hbm, ⟨4, _⟩ => ⟨S4096, .i32⟩
  | .hbm, ⟨5, _⟩ => ⟨S4096x1, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i32⟩
  | .hbm, ⟨17, _⟩ => ⟨S_, .i1⟩
  | .hbm, ⟨18, _⟩ => ⟨S_, .i32⟩
  | .hbm, ⟨19, _⟩ => ⟨S4096, .i1⟩
  | .hbm, ⟨20, _⟩ => ⟨S4096, .i32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S4096x1x1, .i32⟩
  | .hbm, ⟨30, _⟩ => ⟨S1, .i32⟩
  | .hbm, ⟨31, _⟩ => ⟨S_, .i32⟩
  | .hbm, ⟨32, _⟩ => ⟨S4096x1x1, .i32⟩
  | .hbm, ⟨33, _⟩ => ⟨S4096x1x1, .i1⟩
  | .hbm, ⟨34, _⟩ => ⟨S1x1x1, .i32⟩
  | .hbm, ⟨35, _⟩ => ⟨S4096x1x1, .i32⟩
  | .hbm, ⟨36, _⟩ => ⟨S4096x1x1, .i1⟩
  | .hbm, ⟨37, _⟩ => ⟨S4096x1x1, .i1⟩
  | .hbm, ⟨38, _⟩ => ⟨S_, .i1⟩
  | .hbm, ⟨39, _⟩ => ⟨S4096x1, .i1⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S1x1, .i32⟩
  | .hbm, ⟨57, _⟩ => ⟨S4096x1, .i32⟩
  | .hbm, ⟨58, _⟩ => ⟨S4096x1, .i1⟩
  | .hbm, ⟨59, _⟩ => ⟨S4096x1, .i1⟩
  | .hbm, ⟨60, _⟩ => ⟨S_, .i1⟩
  | .hbm, ⟨61, _⟩ => ⟨S4096, .i1⟩
  | .hbm, ⟨62, _⟩ => ⟨S4096x4096, .f32⟩
  | .hbm, ⟨63, _⟩ => ⟨S4096x4096, .i1⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x1, .i32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x1, .i32⟩
  | .local _ .vmem, ⟨11, _⟩ => ⟨S256x1, .i32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | .local _ .vmem, ⟨16, _⟩ => ⟨S256x1, .f32⟩
  | .local _ .vmem, ⟨17, _⟩ => ⟨S256x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_call0_v0 : Ref sig .tc := ⟨.hbm, 16, rfl⟩
abbrev main_call0_c : Ref sig .tc := ⟨.hbm, 17, rfl⟩
abbrev main_call0_c_0 : Ref sig .tc := ⟨.hbm, 18, rfl⟩
abbrev main_call0_v1_0 : Ref sig .tc := ⟨.hbm, 19, rfl⟩
abbrev main_v14 : Ref sig .tc := ⟨.hbm, 20, rfl⟩
abbrev main_v15 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v16 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v17 : Ref sig .tc := ⟨.hbm, 66, rfl⟩
abbrev main_v18 : Ref sig .tc := ⟨.hbm, 67, rfl⟩
abbrev main_v19_0 : Ref sig .tc := ⟨.hbm, 68, rfl⟩
abbrev main_v19_1 : Ref sig .tc := ⟨.hbm, 69, rfl⟩
abbrev main_cst : Ref sig .tc := ⟨.hbm, 70, rfl⟩
abbrev main_v20 : Ref sig .tc := ⟨.hbm, 71, rfl⟩
abbrev main_cst_0 : Ref sig .tc := ⟨.hbm, 72, rfl⟩
abbrev main_v21 : Ref sig .tc := ⟨.hbm, 73, rfl⟩
abbrev main_cst_1 : Ref sig .tc := ⟨.hbm, 74, rfl⟩
abbrev main_v22 : Ref sig .tc := ⟨.hbm, 75, rfl⟩
abbrev main_cst_2 : Ref sig .tc := ⟨.hbm, 76, rfl⟩
abbrev main_v23 : Ref sig .tc := ⟨.hbm, 77, rfl⟩
abbrev main_cst_3 : Ref sig .tc := ⟨.hbm, 78, rfl⟩
abbrev main_v24 : Ref sig .tc := ⟨.hbm, 79, rfl⟩
abbrev main_v25 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  bcast_S_S4096 : S_.BroadcastsInDim S4096 (![] : Fin 0 → Fin S4096.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x4096_0 : S4096.BroadcastsInDim S4096x4096 (![0] : Fin 1 → Fin S4096x4096.rank)
  bcast_S_S4096x4096 : S_.BroadcastsInDim S4096x4096 (![] : Fin 0 → Fin S4096x4096.rank)
  iota_S256x1_d0_w32 : S256x1.Iotas .tc 32 [0]
  iota_S1x4096_d1_w32 : S1x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  broadcasts_S1x4096_S256x4096 : S1x4096.Broadcasts S256x4096
  broadcasts_S256x1_S256x4096 : S256x1.Broadcasts S256x4096
  reduces_S256x4096_S256 : S256x4096.Reduces [1] S256
  shapeCasts_S256_S256x1 : S256.ShapeCasts S256x1
  reducesTo_S4096x1_S_d0_1 : S4096x1.ReducesTo [0, 1] S_
  dot_S1024x2048_S1024x2048_S1024x1024_1_1_0_0_n_n_wf : DotDims.WF S1024x2048 S1024x2048 S1024x1024 [1] [1] [0] [0] [] []
  gather_S4096x4096_S4096x1x1_S4096x1_n_1_0_0_1_2_11_wf : GatherDims.WF S4096x4096 S4096x1x1 S4096x1 [] [1] [0] [1] [0] 2 ![1, 1]
  gather_S4096x4096_S4096x1_S4096x4096_1_0_n_n_0_1_14096_wf : GatherDims.WF S4096x4096 S4096x1 S4096x4096 [1] [0] [] [0] [] 1 ![1, 4096]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x2048.size a
  hwx0_1 : ∀ i : grid0.Coords, EltTy.bits .bf16 = 32 ∨ (Rect.block (s := S4096x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .i32 = 32 ∨ (Rect.block (s := S4096x1) S256x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S4096x1.size a
  hwx1_4 : ∀ i : grid1.Coords, EltTy.bits .f32 = 32 ∨ (Rect.block (s := S4096x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x4096_S4096x1x1_S4096x1_n_1_0_0_1_2_11 : GatherDims S4096x4096 S4096x1x1 S4096x1 where
  offsetDims := []
  collapsedSliceDims := [1]
  operandBatchingDims := [0]
  startIndicesBatchingDims := [0]
  startIndexMap := [1]
  indexVectorDim := 2
  sliceSizes := ![1, 1]
  wf := gather_S4096x4096_S4096x1x1_S4096x1_n_1_0_0_1_2_11_wf
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S256x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048x4096 : Shape := ⟨2, ![2048, 4096]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩
abbrev S4096x2 : Shape := ⟨2, ![4096, 2]⟩

abbrev nBuf : Space → Nat
  | .hbm => 133
  | .vmem => 0
  | .smem => 0
  | _ => 0

abbrev hbmTy0_0 (i : Nat) : BufTy := match i % 128 with
  | 0 => ⟨S4096x2048, .f32⟩
  | 1 => ⟨S4096, .i32⟩
  | 2 => ⟨S4096, .i32⟩
  | 3 => ⟨S2048x4096, .f32⟩
  | 4 => ⟨S4096x4096, .f32⟩
  | 5 => ⟨S_, .f32⟩
  | 6 => ⟨S4096x4096, .f32⟩
  | 7 => ⟨S4096x4096, .f32⟩
  | 8 => ⟨S4096x1, .i32⟩
  | 9 => ⟨S1x4096, .i32⟩
  | 10 => ⟨S4096x4096, .i32⟩
  | 11 => ⟨S4096x4096, .i32⟩
  | 12 => ⟨S4096x4096, .i1⟩
  | 13 => ⟨S4096x1, .i32⟩
  | 14 => ⟨S1x4096, .i32⟩
  | 15 => ⟨S4096x4096, .i32⟩
  | 16 => ⟨S4096x4096, .i32⟩
  | 17 => ⟨S4096x4096, .i1⟩
  | 18 => ⟨S4096x4096, .i1⟩
  | 19 => ⟨S4096x4096, .i32⟩
  | 20 => ⟨S_, .i1⟩
  | 21 => ⟨S_, .i32⟩
  | 22 => ⟨S4096, .i1⟩
  | 23 => ⟨S4096, .i32⟩
  | 24 => ⟨S_, .i32⟩
  | 25 => ⟨S4096, .i32⟩
  | 26 => ⟨S4096, .i1⟩
  | 27 => ⟨S_, .i32⟩
  | 28 => ⟨S4096, .i32⟩
  | 29 => ⟨S4096, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x1, .i32⟩
  | 40 => ⟨S4096x2, .i32⟩
  | 41 => ⟨S4096, .f32⟩
  | 42 => ⟨S_, .i1⟩
  | 43 => ⟨S4096x4096, .i1⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S4096x1, .i32⟩
  | 59 => ⟨S4096x1, .i32⟩
  | 60 => ⟨S4096x2, .i32⟩
  | 61 => ⟨S_, .i1⟩
  | 62 => ⟨S4096, .i1⟩
  | 63 => ⟨S4096x4096, .i1⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x2, .i32⟩
  | 81 => ⟨S_, .i1⟩
  | 82 => ⟨S4096, .i1⟩
  | 83 => ⟨S4096x4096, .i1⟩
  | 84 => ⟨S4096x1, .f32⟩
  | 85 => ⟨S4096x4096, .f32⟩
  | 86 => ⟨S4096x4096, .f32⟩
  | 87 => ⟨S4096x4096, .f32⟩
  | 88 => ⟨S_, .f32⟩
  | 89 => ⟨S_, .f32⟩
  | 90 => ⟨S4096x4096, .f32⟩
  | 91 => ⟨S4096x4096, .f32⟩
  | 92 => ⟨S_, .f32⟩
  | 93 => ⟨S4096, .f32⟩
  | 94 => ⟨S4096, .f32⟩
  | 95 => ⟨S_, .i32⟩
  | 96 => ⟨S4096, .i32⟩
  | 97 => ⟨S4096, .i1⟩
  | 98 => ⟨S_, .i32⟩
  | 99 => ⟨S4096, .i32⟩
  | 100 => ⟨S4096, .i32⟩
  | 101 => ⟨S4096, .i32⟩
  | 102 => ⟨S4096x1, .i32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S_, .f32⟩
  | 109 => ⟨S4096, .f32⟩
  | 110 => ⟨S4096, .f32⟩
  | 111 => ⟨S4096x1, .f32⟩
  | 112 => ⟨S4096x4096, .f32⟩
  | 113 => ⟨S4096x4096, .f32⟩
  | 114 => ⟨S4096x4096, .f32⟩
  | 115 => ⟨S_, .f32⟩
  | 116 => ⟨S_, .f32⟩
  | 117 => ⟨S4096x4096, .f32⟩
  | 118 => ⟨S4096x4096, .f32⟩
  | 119 => ⟨S_, .f32⟩
  | 120 => ⟨S4096, .f32⟩
  | 121 => ⟨S4096, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_c : Ref sig .tc := ⟨.hbm, 20, rfl⟩
abbrev main_call0_c_0 : Ref sig .tc := ⟨.hbm, 21, rfl⟩
abbrev main_call0_v1_0 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_3 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_v37 : Ref sig .tc := ⟨.hbm, 52, rfl⟩
abbrev main_v38 : Ref sig .tc := ⟨.hbm, 53, rfl⟩
abbrev main_c_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_call1_v0 : Ref sig .tc := ⟨.hbm, 89, rfl⟩
abbrev main_call1_v1 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_c_17 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_call2_v0 : Ref sig .tc := ⟨.hbm, 116, rfl⟩
abbrev main_call2_v1 : Ref sig .tc := ⟨.hbm, 117, rfl⟩
abbrev main_v85 : Ref sig .tc := ⟨.hbm, 118, rfl⟩
abbrev main_cst_21 : Ref sig .tc := ⟨.hbm, 119, rfl⟩
abbrev main_v86 : Ref sig .tc := ⟨.hbm, 120, rfl⟩
abbrev main_v87 : Ref sig .tc := ⟨.hbm, 121, rfl⟩
abbrev main_cst_22 : Ref sig .tc := ⟨.hbm, 122, rfl⟩
abbrev main_v88 : Ref sig .tc := ⟨.hbm, 123, rfl⟩
abbrev main_cst_23 : Ref sig .tc := ⟨.hbm, 124, rfl⟩
abbrev main_v89 : Ref sig .tc := ⟨.hbm, 125, rfl⟩
abbrev main_cst_24 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_cst_26 : Ref sig .tc := ⟨.hbm, 130, rfl⟩
abbrev main_v92 : Ref sig .tc := ⟨.hbm, 131, rfl⟩
abbrev main_v93 : Ref sig .tc := ⟨.hbm, 132, rfl⟩

abbrev nD : Nat := 1
abbrev τ : Topo := Topo.v7x

variable {F : FTy → Type} [FloatOps F]

class Facts₀ : Prop where
  transposes_S4096x2048_S2048x4096_1_0 : S4096x2048.Transposes [1, 0] S2048x4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  concatenates_S4096x1_S4096x1_S4096x2_d1 : Shape.Concatenates [S4096x1, S4096x1] S4096x2 1
  reducesTo_S4096_S_d0 : S4096.ReducesTo [0] S_
  dot_S4096x2048_S2048x4096_S4096x4096_1_0_0_1_n_n_wf : DotDims.WF S4096x2048 S2048x4096 S4096x4096 [1] [0] [0] [1] [] []
  gather_S4096x4096_S4096x2_S4096_n_01_n_n_01_1_11_wf : GatherDims.WF S4096x4096 S4096x2 S4096 [] [0, 1] [] [0, 1] [] 1 ![1, 1]
  scatter_S4096x4096_S4096x2_S4096_n_01_01_1_wf : ScatterDims.WF S4096x4096 S4096x2 S4096 [] [0, 1] [0, 1] 1
  gather_S4096x4096_S4096x1_S4096x4096_1_0_n_n_0_1_14096_wf : GatherDims.WF S4096x4096 S4096x1 S4096x4096 [1] [0] [] [0] [] 1 ![1, 4096]

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S4096x4096_S4096x2_S4096_n_01_n_n_01_1_11 : GatherDims S4096x4096 S4096x2 S4096 where
  offsetDims := []
  collapsedSliceDims := [0, 1]
  operandBatchingDims := []
  startIndicesBatchingDims := []
  startIndexMap := [0, 1]
  indexVectorDim := 1
  sliceSizes := ![1, 1]
  wf := gather_S4096x4096_S4096x2_S4096_n_01_n_n_01_1_11_wf
def scatter_S4096x4096_S4096x2_S4096_n_01_01_1 : ScatterDims S4096x4096 S4096x2 S4096 where
  updateWindowDims := []
  insertedWindowDims := [0, 1]
  scatterDimsToOperandDims := [0, 1]
  indexVectorDim := 1
  wf := scatter_S4096x4096_S4096x2_S4096_n_01_01_1_wf
def gather_S4096x4096_S4096x1_S4096x4096_1_0_n_n_0_1_14096 : GatherDims S4096x4096 S4096x1 S4096x4096 where
  offsetDims := [1]
  collapsedSliceDims := [0]
  operandBatchingDims := []
  startIndicesBatchingDims := []
  startIndexMap := [0]
  indexVectorDim := 1
  sliceSizes := ![1, 4096]
  wf := gather_S4096x4096_S4096x1_S4096x4096_1_0_n_n_0_1_14096_wf

class Facts : Prop extends Facts₀ where

variable [Facts]
-- ==== Proof.KB.Region0.lean ====
/-
  Region 0 of the kernel program: the similarity matrix W = (x · xᵀ) · γ, computed block by block on a
  4 × 4 grid.  Both input windows read ONE array (the bf16 copy of the embeddings): window 0 its row block
  `i0`, window 1 its row block `i1`; the output window writes block `(i0, i1)` of W.

  Everything here is stated at a parameter `V` — the TensorCore's buffer contents when the region is entered —
  and is generic in the float instance.  The two input windows hold the halves of the shared array's share.
-/
import proofs.«117435_j26147760898822_1_alg».proof.Proof.Gen.Kernel.Launch
import proofs.«117435_j26147760898822_1_alg».proof.Proof.Gen.Kernel.Skeleton
import proofs.«117435_j26147760898822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its row block at every point.  It is fetched only when the
    first grid coordinate moves; where it is not fetched its block index has not moved either, and the buffer
    still holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its row block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x2048.size inb_S1024x2048_S1024x2048_0_0
abbrev r0_1 : Rect S1024x1024 := Rect.unit (s := S1024x1024) ![0, 0] S1024x1024.size inb_S1024x1024_S1024x1024_0_0

/-! ## What the body leaves in the output window's buffer -/

/-- The output window's staging buffer after the body, from the two input blocks: its one store. -/
def out0_2 (x0 x1 : Vec F S1024x2048 .bf16) : Vec F S1024x1024 .f32 :=
  View.canon [⟨r0_1, k0_pay1 (View.ld x0 r0_0) (View.ld x1 r0_0)⟩]

/-- The store is of the whole buffer. -/
theorem cover0_2 (p0 : Vec F S1024x1024 .f32) (y : S1024x1024.Idx) :
    ∃ pc ∈ ([⟨r0_1, p0⟩] : List (View.Piece (Elt F) S1024x1024 .f32)), y ∈ pc.1.set :=
  View.cover_of_tiled [⟨r0_1, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1024x1024 .f32) (harg4 : arg4.IsWhole)
    (x0 x1 : Vec F S1024x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer at its block and the output's at `out0_2` of the two input blocks; the invariant the
    scoped rest and the generator register, untouched; nothing owed.  The two input windows read one array:
    each holds one half of its share; the output array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The input arrays are never written back. -/
theorem arrAt_in0 (c : Dev nD) (w : Fin cfg0.W) (hw : w = 0 ∨ w = 1) (n : ℕ) :
    (dat0 V c).arrAt w n = V c (Pipeline.arrRef spec0 w) := by
  rcases hw with rfl | rfl
  · exact ((dat0 V c).arrAt_in 0 rfl n).trans (A_eq0 V c 0)
  · exact ((dat0 V c).arrAt_in 1 rfl n).trans (A_eq0 V c 1)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region: the shared array's share dealt between the two input windows -/

/-- The buffers behind the windows' arrays: the bf16 embeddings (two windows) and the similarity matrix. -/
theorem arrRefs0 : Finset.univ.image (Pipeline.arrRef spec0) = [main_v0, main_v1].toFinset := by decide

/-- A window's array held at a share, as a points-to of the buffer behind it. -/
theorem arr_pointsTo0 (c : Dev nD) (w : Fin cfg0.W) (q : PosShare TreeShare)
    (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The two buffers behind the windows' arrays, one by one. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_v0) ↦{fullShare} Vc main_v0) ∗ (((c.tc : Thread nD τ).loc main_v1) ↦{fullShare} Vc main_v1)) :=
  bigSep_eq_bigSepL_of_eq [main_v0, main_v1] arrRefs0 (by decide) _

/-- The shares the three windows' arrays are held at: the halves of the shared buffer's, and the output's whole. -/
theorem share0_0 (c : Dev nD) : (dat0 V c).share 0 = PosShare.left fullShare := by
  unfold Dat.share
  rw [if_neg (show ¬ ((cfg0.win 0).isOut = true) from Bool.false_ne_true)]
  dsimp only [dat0]
theorem share0_1 (c : Dev nD) : (dat0 V c).share 1 = PosShare.right fullShare := by
  unfold Dat.share
  rw [if_neg (show ¬ ((cfg0.win 1).isOut = true) from Bool.false_ne_true)]
  dsimp only [dat0]
theorem share0_2 (c : Dev nD) : (dat0 V c).share 2 = fullShare := by
  unfold Dat.share
  rw [if_pos (show (cfg0.win 2).isOut = true from rfl)]

/-- The three windows' arrays, one by one: the shared buffer's two halves and the output buffer whole. -/
theorem arrays0_eq (c : Dev nD) (Fa : (w : Fin cfg0.W) → Buf (Elt F) ((cfg0.win w).arr.view.loc (c.tc : Thread nD τ))) :
    ((dat0 V c).arrays Fa : sProp 𝕄)
      = iprop((((c.tc : Thread nD τ).loc main_v0) ↦{PosShare.left fullShare} Fa 0) ∗ (((c.tc : Thread nD τ).loc main_v0) ↦{PosShare.right fullShare} Fa 1)
          ∗ (((c.tc : Thread nD τ).loc main_v1) ↦{fullShare} Fa 2)) := by
  unfold Dat.arrays
  rw [bigSep_W0]
  rw [arr_pointsTo0 c 0, arr_pointsTo0 c 1, arr_pointsTo0 c 2, share0_0, share0_1, share0_2]

/-- ENTRY: the two buffers whole at the entry contents give the three windows' arrays, the shared one's full share
    split into its halves. -/
theorem hsplit0 (c : Dev nD) :
    (Pipeline.arrBufs spec0 c (V c) : sProp 𝕄) ⊢ (dat0 V c).arrays ((dat0 V c).arrAt · 0) := by
  rw [arrBufs0_eq, arrays0_eq]
  iintro ⟨H0, H1⟩
  icases (pointsTo_share (PosShare.mem_left_op_right fullShare)).1 $$ H0 with ⟨Ha, Hb⟩
  isplitl [Ha]; · iexact Ha
  isplitl [Hb]; · iexact Hb
  iexact H1

/-- EXIT: the three windows' arrays at their final contents give the two buffers whole at any contents `V'` that
    agree with them, the halves joined. -/
theorem hjoin0 (V' : (c : Dev nD) → (b : Ref sig .tc) → Buf (Elt F) ((c : Thread nD τ).loc b)) (c : Dev nD)
    (hF : ∀ w, (dat0 V c).arrAt w cfg0.N = V' c (Pipeline.arrRef spec0 w)) :
    ((dat0 V c).arrays ((dat0 V c).arrAt · cfg0.N) : sProp 𝕄) ⊢ Pipeline.arrBufs spec0 c (V' c) := by
  rw [arrBufs0_eq, arrays0_eq, hF 0, hF 1, hF 2]
  iintro ⟨Ha, Hb, H1⟩
  isplitl [Ha Hb]
  · iapply (pointsTo_share (PosShare.mem_left_op_right fullShare)).2
    isplitl [Ha]; · iexact Ha
    iexact Hb
  iexact H1

/-- ENTRY, from all of the core's unscoped buffers: the windows' arrays and the rest. -/
theorem entry0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [show (unscopedBufs c (V c) : sProp 𝕄) = _ from Pipeline.unscopedBufs_split₀ cfgs 0 winFacts₀0.arr_unscoped c (V c)]
  exact sep_mono (hsplit0 V c) .rfl

/-- EXIT, back to all of the core's unscoped buffers at contents `V'` that hold the arrays' final contents and agree
    with the entry contents elsewhere. -/
theorem exit0 (V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c (V' c) : sProp 𝕄) := by
  rw [show (unscopedBufs c (V' c) : sProp 𝕄) = _ from Pipeline.unscopedBufs_split₀ cfgs 0 winFacts₀0.arr_unscoped c (V' c)]
  refine sep_mono (hjoin0 V V' c hF) (Entails.of_eq ?_)
  unfold Pipeline.unscopedRest
  exact bigSep_congr fun b hb => by rw [hrest b (Finset.mem_sdiff.mp hb).2]

end Cert.Kernel.R0

end
-- ==== Proof.KB.Region1.lean ====
import proofs.«117435_j26147760898822_1_alg».proof.Proof.Gen.Kernel.Launch
import proofs.«117435_j26147760898822_1_alg».proof.Proof.Gen.Kernel.Skeleton
import proofs.«117435_j26147760898822_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second region (the row-loss kernel) at the buffer contents it is entered with

The second pallas_call runs over 16 grid points. At point `t` it reads rows `256·t … 256·t + 255` of the
similarity matrix, of the matrix of its gathered rows, of the column of positive words and of the column of
positive similarities, and writes the same 256 rows of two loss columns. The value it stores depends on the
point's coordinate (the global row of a block row is `256·t + r`), so what the body leaves in each output
buffer is a function of the coordinates and of the four input blocks.

Everything here is stated at a parameter `V`, the TensorCore's buffer contents when the region is entered.
-/

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S256x4096 := Rect.unit (s := S256x4096) ![0, 0] S256x4096.size inb_S256x4096_S256x4096_0_0
abbrev r1_1 : Rect S256x1 := Rect.unit (s := S256x1) ![0, 0] S256x1.size inb_S256x1_S256x1_0_0

/-! ## What the body leaves in each output window's buffer -/

/-- The first loss column's buffer after the body at coordinates `i`, from the blocks of the similarity matrix
    (`x0`), the positive words (`x2`) and the positive similarities (`x3`): its one store. -/
def out1_4 (i : grid1.Coords) (x0 : Vec F S256x4096 .f32) (x2 : Vec F S256x1 .i32) (x3 : Vec F S256x1 .f32) : Vec F S256x1 .f32 :=
  View.canon [⟨r1_1, k1_pay4 i (View.ld x2 r1_1) (View.ld x3 r1_1) (View.ld x0 r1_0)⟩]

/-- The second loss column's buffer after the body, which also reads the block of gathered rows (`x1`). -/
def out1_5 (i : grid1.Coords) (x0 x1 : Vec F S256x4096 .f32) (x2 : Vec F S256x1 .i32) (x3 : Vec F S256x1 .f32) : Vec F S256x1 .f32 :=
  View.canon [⟨r1_1, k1_pay5 i (View.ld x2 r1_1) (View.ld x3 r1_1) (View.ld x0 r1_0) (View.ld x1 r1_0)⟩]

/-- One whole-buffer store covers the buffer. -/
theorem cover1_4 (p0 : Vec F S256x1 .f32) (y : S256x1.Idx) :
    ∃ pc ∈ ([⟨r1_1, p0⟩] : List (View.Piece (Elt F) S256x1 .f32)), y ∈ pc.1.set :=
  View.cover_of_tiled [⟨r1_1, p0⟩] S256x1.size (by rfl) y

/-! ## The body's triple -/

set_option maxHeartbeats 1000000 in
/-- The kernel body on whole staging memrefs, the inputs' at contents `x0 … x3` and the outputs' at anything, runs to
    the continuation holding the inputs' as they were and each output's at `out1_4` / `out1_5` of the inputs' at the
    point's coordinates. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 : Vec F S256x4096 .f32) (x1 : Vec F S256x4096 .f32) (x2 : Vec F S256x1 .i32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 i x0 x2 x3)
            ∗ owns (c : Thread nD τ) arg6 fullShare (out1_5 i x0 x1 x2 x3)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_4 _)

/-! ## The pipeline's proof data -/

/-- The proof data of the second pipeline on core `c`: the arrays as the region finds them; after the body at point
    `t` each input's buffer at its block and each output's at what the body leaves from the input blocks at the
    point's coordinates; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 2 t) (iblk1 V c 3 t)
    | ⟨5, _⟩ => out1_5 (grid1.coords t) (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 2 t) (iblk1 V c 3 t) := by dsimp only [dat1]
theorem after1_5 (c : Dev nD) (t : Fin cfg1.N) :
    (dat1 V c).after 5 t = out1_5 (grid1.coords t) (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies at the point's
    coordinates; the invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.KB.Run.lean ====
import proofs.«117435_j26147760898822_1_alg».proof.Proof.KB.Region0
import proofs.«117435_j26147760898822_1_alg».proof.Proof.KB.Region1
import proofs.«117435_j26147760898822_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: ten items from the launch to the return

@main is ten items in a row: a stretch of host operations (the cast of the input to bf16), the first region (the
similarity matrix), six stretches of host operations (the same-label mask, the arg-max that picks each row's positive,
the two gathers of the similarity matrix along it), the second region (the two row losses) and a last stretch (the two
means and their sum). Between two items a core holds every unscoped buffer whole at contents that are a fold from the
launch memory: a stretch applies its operations; a region replaces its output arrays by what its write-backs leave and
changes nothing else. The run below says that every weakly fair execution ends with the result and the two argument
arrays at the end of that fold.
-/

set_option maxRecDepth 16384

noncomputable section

namespace Cert.Kernel.Hand

open Cert.Kernel Cert.Kernel.Gen Cert.Kernel.R0 Cert.Kernel.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the cast to bf16 (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: the similarity matrix at what the write-backs leave, every other buffer as entered. -/
def W2 (c : Dev nD) : Valuation τ sig (Elt F) :=
  Function.update (W1 m ρ c) (Proc.devRef .tc (Pipeline.arrRef spec0 2)) ((dat0 (V1 m ρ) c).arrAt 2 cfg0.N)
abbrev V2 : (c : Dev nD) → (b : Ref sig .tc) → Buf (Elt F) ((c : Thread nD τ).loc b) := fun c b => W2 m ρ c b
/-- After each of the six host stretches between the regions. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
/-- The second region's entry contents at the TensorCore's references. -/
abbrev V8 : (c : Dev nD) → (b : Ref sig .tc) → Buf (Elt F) ((c : Thread nD τ).loc b) := fun c b => W8 m ρ c b
/-- At the second region's exit: its arrays at what the pipeline leaves, every other buffer as entered. -/
def W9 (c : Dev nD) : Valuation τ sig (Elt F) :=
  Pipeline.withArrays spec1 c (W8 m ρ c) fun w => (dat1 (V8 m ρ) c).arrAt w cfg1.N
abbrev V9 : (c : Dev nD) → (b : Ref sig .tc) → Buf (Elt F) ((c : Thread nD τ).loc b) := fun c b => W9 m ρ c b
/-- After the last stretch: the return. -/
abbrev W10 : Dev nD → Valuation τ sig (Elt F) := fun c => StableHlo.after hostOps2 (W9 m ρ c)

theorem W2_out (c : Dev nD) : V2 m ρ c (Pipeline.arrRef spec0 2) = (dat0 (V1 m ρ) c).arrAt 2 cfg0.N := by
  show W2 m ρ c (Proc.devRef .tc (Pipeline.arrRef spec0 2)) = _
  unfold W2; exact Function.update_self ..
theorem W2_of_ne (c : Dev nD) (b : Ref sig .tc) (hb : b ≠ Pipeline.arrRef spec0 2) :
    W2 m ρ c (Proc.devRef .tc b) = W1 m ρ c (Proc.devRef .tc b) := by
  unfold W2
  exact Function.update_of_ne (StableHlo.devRef_ne_of_ne hb) ..
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

/-- At the first region's exit each of its arrays holds what the pipeline leaves: the two input windows' shared array
    as entered, the output the write-backs. -/
theorem hF0 (c : Dev nD) (w : Fin cfg0.W) : (dat0 (V1 m ρ) c).arrAt w cfg0.N = V2 m ρ c (Pipeline.arrRef spec0 w) := by
  match w with
  | ⟨0, _⟩ => exact ((arrAt_in0 (V1 m ρ) c 0 (Or.inl rfl) cfg0.N).trans (W2_of_ne m ρ c _ (by decide)).symm)
  | ⟨1, _⟩ => exact ((arrAt_in0 (V1 m ρ) c 1 (Or.inr rfl) cfg0.N).trans (W2_of_ne m ρ c _ (by decide)).symm)
  | ⟨2, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m ρ c) ∗ ∃ r, prngReg c r)

/-! ## The regions as items -/

set_option backward.isDefEq.respectTransparency.types false in
/-- The first region: entered from every unscoped buffer at `W1`, left at `W2`. Its two input windows read one array:
    the buffers behind the arrays are dealt among the windows at entry and put back at exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) (V2 m ρ) c (hF0 m ρ c) (hrest0 m ρ c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at `W8`, left at `W9`; its six windows are on six arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .region (reg1 m ρ),
    .host (hseg hostOps2 hostOps2_sub hostOps2_fresh (W9 m ρ)) ]

/-- @main is the run of the items. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main terminates, nothing faulting,
    and every final state holds each unscoped buffer at the end of the fold `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W10 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-! ## The arguments end as launched -/

/-- No host stretch writes an argument and no region's output array is one: the fold at an argument's buffer walks back
    to the launch memory. -/
theorem W10_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps2 _ hostOps2_writes (by decide)
    _ = W8 m ρ c (Proc.devRef .tc main_arg0) := W9_of_ne m ρ c main_arg0 (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps2 _ hostOps2_writes (by decide)
    _ = W8 m ρ c (Proc.devRef .tc main_arg1) := W9_of_ne m ρ c main_arg1 (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The frame: every weakly fair execution of @main terminates, nothing faulting, and the two argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W10_arg0 m ρ c), (h c _ (mem_uc main_arg1 (by decide))).trans (W10_arg1 m ρ c)⟩)
    (run_all m ρ)

end Cert.Kernel.Hand

end
-- ==== Proof.KI.Region0.lean ====
/-
  Region 0 of the kernel program: the similarity matrix W = (x · xᵀ) · γ, computed block by block on a
  4 × 4 grid.  Both input windows read ONE array (the bf16 copy of the embeddings): window 0 its row block
  `i0`, window 1 its row block `i1`; the output window writes block `(i0, i1)` of W.

  Everything here is stated at a parameter `V` — the TensorCore's buffer contents when the region is entered —
  and is generic in the float instance.  The two input windows hold the halves of the shared array's share.
-/
import proofs.«117435_j26147760898822_1_alg».proof.Proof.Gen.KernelIdeal.Launch
import proofs.«117435_j26147760898822_1_alg».proof.Proof.Gen.KernelIdeal.Skeleton
import proofs.«117435_j26147760898822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its row block at every point.  It is fetched only when the
    first grid coordinate moves; where it is not fetched its block index has not moved either, and the buffer
    still holds the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its row block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x2048.size inb_S1024x2048_S1024x2048_0_0
abbrev r0_1 : Rect S1024x1024 := Rect.unit (s := S1024x1024) ![0, 0] S1024x1024.size inb_S1024x1024_S1024x1024_0_0

/-! ## What the body leaves in the output window's buffer -/

/-- The output window's staging buffer after the body, from the two input blocks: its one store. -/
def out0_2 (x0 x1 : Vec F S1024x2048 .bf16) : Vec F S1024x1024 .f32 :=
  View.canon [⟨r0_1, k0_pay1 (View.ld x0 r0_0) (View.ld x1 r0_0)⟩]

/-- The store is of the whole buffer. -/
theorem cover0_2 (p0 : Vec F S1024x1024 .f32) (y : S1024x1024.Idx) :
    ∃ pc ∈ ([⟨r0_1, p0⟩] : List (View.Piece (Elt F) S1024x1024 .f32)), y ∈ pc.1.set :=
  View.cover_of_tiled [⟨r0_1, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2 x0 x1`. -/
theorem sound_kernel0 (c : Dev nD) (E : Set ℕ) (i : grid0.Coords)
    (arg2 : Memref sig .tc .vmem S1024x2048 .bf16) (harg2 : arg2.IsWhole)
    (arg3 : Memref sig .tc .vmem S1024x2048 .bf16) (harg3 : arg3.IsWhole)
    (arg4 : Memref sig .tc .vmem S1024x1024 .f32) (harg4 : arg4.IsWhole)
    (x0 x1 : Vec F S1024x2048 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer at its block and the output's at `out0_2` of the two input blocks; the invariant the
    scoped rest and the generator register, untouched; nothing owed.  The two input windows read one array:
    each holds one half of its share; the output array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q w := match w with
    | ⟨0, _⟩ => PosShare.left fullShare
    | ⟨1, _⟩ => PosShare.right fullShare
    | ⟨2, _⟩ => fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The input arrays are never written back. -/
theorem arrAt_in0 (c : Dev nD) (w : Fin cfg0.W) (hw : w = 0 ∨ w = 1) (n : ℕ) :
    (dat0 V c).arrAt w n = V c (Pipeline.arrRef spec0 w) := by
  rcases hw with rfl | rfl
  · exact ((dat0 V c).arrAt_in 0 rfl n).trans (A_eq0 V c 0)
  · exact ((dat0 V c).arrAt_in 1 rfl n).trans (A_eq0 V c 1)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Entering and leaving the region: the shared array's share dealt between the two input windows -/

/-- The buffers behind the windows' arrays: the bf16 embeddings (two windows) and the similarity matrix. -/
theorem arrRefs0 : Finset.univ.image (Pipeline.arrRef spec0) = [main_v0, main_v1].toFinset := by decide

/-- A window's array held at a share, as a points-to of the buffer behind it. -/
theorem arr_pointsTo0 (c : Dev nD) (w : Fin cfg0.W) (q : PosShare TreeShare)
    (f : Buf (Elt F) ((cfg0.win w).arr.view.loc (c.tc : Thread nD τ))) :
    ((cfg0.win w).arr.view.loc (c.tc : Thread nD τ) ↦[(cfg0.win w).arr.view.set]{q} f : sProp 𝕄)
      = (((c.tc : Thread nD τ).loc (Pipeline.arrRef spec0 w)) ↦{q} f) := by
  rw [(arr_whole0 w).set_eq_univ]

/-- The two buffers behind the windows' arrays, one by one. -/
theorem arrBufs0_eq (c : Dev nD) (Vc : (b : Ref sig .tc) → Buf (Elt F) ((c.tc : Thread nD τ).loc b)) :
    (Pipeline.arrBufs spec0 c Vc : sProp 𝕄)
      = iprop((((c.tc : Thread nD τ).loc main_v0) ↦{fullShare} Vc main_v0) ∗ (((c.tc : Thread nD τ).loc main_v1) ↦{fullShare} Vc main_v1)) :=
  bigSep_eq_bigSepL_of_eq [main_v0, main_v1] arrRefs0 (by decide) _

/-- The shares the three windows' arrays are held at: the halves of the shared buffer's, and the output's whole. -/
theorem share0_0 (c : Dev nD) : (dat0 V c).share 0 = PosShare.left fullShare := by
  unfold Dat.share
  rw [if_neg (show ¬ ((cfg0.win 0).isOut = true) from Bool.false_ne_true)]
  dsimp only [dat0]
theorem share0_1 (c : Dev nD) : (dat0 V c).share 1 = PosShare.right fullShare := by
  unfold Dat.share
  rw [if_neg (show ¬ ((cfg0.win 1).isOut = true) from Bool.false_ne_true)]
  dsimp only [dat0]
theorem share0_2 (c : Dev nD) : (dat0 V c).share 2 = fullShare := by
  unfold Dat.share
  rw [if_pos (show (cfg0.win 2).isOut = true from rfl)]

/-- The three windows' arrays, one by one: the shared buffer's two halves and the output buffer whole. -/
theorem arrays0_eq (c : Dev nD) (Fa : (w : Fin cfg0.W) → Buf (Elt F) ((cfg0.win w).arr.view.loc (c.tc : Thread nD τ))) :
    ((dat0 V c).arrays Fa : sProp 𝕄)
      = iprop((((c.tc : Thread nD τ).loc main_v0) ↦{PosShare.left fullShare} Fa 0) ∗ (((c.tc : Thread nD τ).loc main_v0) ↦{PosShare.right fullShare} Fa 1)
          ∗ (((c.tc : Thread nD τ).loc main_v1) ↦{fullShare} Fa 2)) := by
  unfold Dat.arrays
  rw [bigSep_W0]
  rw [arr_pointsTo0 c 0, arr_pointsTo0 c 1, arr_pointsTo0 c 2, share0_0, share0_1, share0_2]

/-- ENTRY: the two buffers whole at the entry contents give the three windows' arrays, the shared one's full share
    split into its halves. -/
theorem hsplit0 (c : Dev nD) :
    (Pipeline.arrBufs spec0 c (V c) : sProp 𝕄) ⊢ (dat0 V c).arrays ((dat0 V c).arrAt · 0) := by
  rw [arrBufs0_eq, arrays0_eq]
  iintro ⟨H0, H1⟩
  icases (pointsTo_share (PosShare.mem_left_op_right fullShare)).1 $$ H0 with ⟨Ha, Hb⟩
  isplitl [Ha]; · iexact Ha
  isplitl [Hb]; · iexact Hb
  iexact H1

/-- EXIT: the three windows' arrays at their final contents give the two buffers whole at any contents `V'` that
    agree with them, the halves joined. -/
theorem hjoin0 (V' : (c : Dev nD) → (b : Ref sig .tc) → Buf (Elt F) ((c : Thread nD τ).loc b)) (c : Dev nD)
    (hF : ∀ w, (dat0 V c).arrAt w cfg0.N = V' c (Pipeline.arrRef spec0 w)) :
    ((dat0 V c).arrays ((dat0 V c).arrAt · cfg0.N) : sProp 𝕄) ⊢ Pipeline.arrBufs spec0 c (V' c) := by
  rw [arrBufs0_eq, arrays0_eq, hF 0, hF 1, hF 2]
  iintro ⟨Ha, Hb, H1⟩
  isplitl [Ha Hb]
  · iapply (pointsTo_share (PosShare.mem_left_op_right fullShare)).2
    isplitl [Ha]; · iexact Ha
    iexact Hb
  iexact H1

/-- ENTRY, from all of the core's unscoped buffers: the windows' arrays and the rest. -/
theorem entry0 (c : Dev nD) :
    (unscopedBufs c (V c) : sProp 𝕄)
      ⊢ iprop((dat0 V c).arrays ((dat0 V c).arrAt · 0) ∗ Pipeline.unscopedRest (Ix := Unit) (Name := ℕ) (U := UR sig nD τ) (Lvl := ℕ) spec0 c (V c)) := by
  rw [show (unscopedBufs c (V c) : sProp 𝕄) = _ from Pipeline.unscopedBufs_split₀ cfgs 0 winFacts₀0.arr_unscoped c (V c)]
  exact sep_mono (hsplit0 V c) .rfl

/-- EXIT, back to all of the core's unscoped buffers at contents `V'` that hold the arrays' final contents and agree
    with the entry contents elsewhere. -/
theorem exit0 (V' : (c : Dev nD) → (b : Ref sig .tc) → Buf (Elt F) ((c : Thread nD τ).loc b)) (c : Dev nD)
    (hF : ∀ w, (dat0 V c).arrAt w cfg0.N = V' c (Pipeline.arrRef spec0 w))
    (hrest : ∀ b, b ∉ Finset.univ.image (Pipeline.arrRef spec0) → V' c b = V c b) :
    iprop((dat0 V c).arrays ((dat0 V c).arrAt · cfg0.N) ∗ Pipeline.unscopedRest (Ix := Unit) (Name := ℕ) (U := UR sig nD τ) (Lvl := ℕ) spec0 c (V c))
      ⊢ (unscopedBufs c (V' c) : sProp 𝕄) := by
  rw [show (unscopedBufs c (V' c) : sProp 𝕄) = _ from Pipeline.unscopedBufs_split₀ cfgs 0 winFacts₀0.arr_unscoped c (V' c)]
  refine sep_mono (hjoin0 V V' c hF) (Entails.of_eq ?_)
  unfold Pipeline.unscopedRest
  exact bigSep_congr fun b hb => by rw [hrest b (Finset.mem_sdiff.mp hb).2]

end Cert.KernelIdeal.R0

end
-- ==== Proof.KI.Region1.lean ====
import proofs.«117435_j26147760898822_1_alg».proof.Proof.Gen.KernelIdeal.Launch
import proofs.«117435_j26147760898822_1_alg».proof.Proof.Gen.KernelIdeal.Skeleton
import proofs.«117435_j26147760898822_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second region (the row-loss kernel) at the buffer contents it is entered with

The second pallas_call runs over 16 grid points. At point `t` it reads rows `256·t … 256·t + 255` of the
similarity matrix, of the matrix of its gathered rows, of the column of positive words and of the column of
positive similarities, and writes the same 256 rows of two loss columns. The value it stores depends on the
point's coordinate (the global row of a block row is `256·t + r`), so what the body leaves in each output
buffer is a function of the coordinates and of the four input blocks.

Everything here is stated at a parameter `V`, the TensorCore's buffer contents when the region is entered.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole staging buffer -/

abbrev r1_0 : Rect S256x4096 := Rect.unit (s := S256x4096) ![0, 0] S256x4096.size inb_S256x4096_S256x4096_0_0
abbrev r1_1 : Rect S256x1 := Rect.unit (s := S256x1) ![0, 0] S256x1.size inb_S256x1_S256x1_0_0

/-! ## What the body leaves in each output window's buffer -/

/-- The first loss column's buffer after the body at coordinates `i`, from the blocks of the similarity matrix
    (`x0`), the positive words (`x2`) and the positive similarities (`x3`): its one store. -/
def out1_4 (i : grid1.Coords) (x0 : Vec F S256x4096 .f32) (x2 : Vec F S256x1 .i32) (x3 : Vec F S256x1 .f32) : Vec F S256x1 .f32 :=
  View.canon [⟨r1_1, k1_pay4 i (View.ld x2 r1_1) (View.ld x3 r1_1) (View.ld x0 r1_0)⟩]

/-- The second loss column's buffer after the body, which also reads the block of gathered rows (`x1`). -/
def out1_5 (i : grid1.Coords) (x0 x1 : Vec F S256x4096 .f32) (x2 : Vec F S256x1 .i32) (x3 : Vec F S256x1 .f32) : Vec F S256x1 .f32 :=
  View.canon [⟨r1_1, k1_pay5 i (View.ld x2 r1_1) (View.ld x3 r1_1) (View.ld x0 r1_0) (View.ld x1 r1_0)⟩]

/-- One whole-buffer store covers the buffer. -/
theorem cover1_4 (p0 : Vec F S256x1 .f32) (y : S256x1.Idx) :
    ∃ pc ∈ ([⟨r1_1, p0⟩] : List (View.Piece (Elt F) S256x1 .f32)), y ∈ pc.1.set :=
  View.cover_of_tiled [⟨r1_1, p0⟩] S256x1.size (by rfl) y

/-! ## The body's triple -/

set_option maxHeartbeats 1000000 in
/-- The kernel body on whole staging memrefs, the inputs' at contents `x0 … x3` and the outputs' at anything, runs to
    the continuation holding the inputs' as they were and each output's at `out1_4` / `out1_5` of the inputs' at the
    point's coordinates. -/
theorem sound_kernel1 (c : Dev nD) (E : Set ℕ) (i : grid1.Coords)
    (arg1 : Memref sig .tc .vmem S256x4096 .f32) (harg1 : arg1.IsWhole) (arg2 : Memref sig .tc .vmem S256x4096 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (x0 : Vec F S256x4096 .f32) (x1 : Vec F S256x4096 .f32) (x2 : Vec F S256x1 .i32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 i x0 x2 x3)
            ∗ owns (c : Thread nD τ) arg6 fullShare (out1_5 i x0 x1 x2 x3)) -∗ K ⟨⟩))
      ⊢ wp frame (wpE (defs₀ (F := F)) Variants.none c none) E (cc1__loss_kernel i arg1 harg1 arg2 harg2 arg3 harg3 arg4 harg4 arg5 harg5 arg6 harg6) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover1_4 _)
  iexists _; isplitr
  swap; · iexact H5
  ipureintro
  try dsimp only
  exact View.read_writes_eq_canon _ _ _ (cover1_4 _)

/-! ## The pipeline's proof data -/

/-- The proof data of the second pipeline on core `c`: the arrays as the region finds them; after the body at point
    `t` each input's buffer at its block and each output's at what the body leaves from the input blocks at the
    point's coordinates; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (grid1.coords t) (iblk1 V c 0 t) (iblk1 V c 2 t) (iblk1 V c 3 t)
    | ⟨5, _⟩ => out1_5 (grid1.coords t) (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (grid1.coords t) (iblk1 V c 0 t) (iblk1 V c 2 t) (iblk1 V c 3 t) := by dsimp only [dat1]
theorem after1_5 (c : Dev nD) (t : Fin cfg1.N) :
    (dat1 V c).after 5 t = out1_5 (grid1.coords t) (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies at the point's
    coordinates; the invariant and the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.KI.Run.lean ====
import proofs.«117435_j26147760898822_1_alg».proof.Proof.KI.Region0
import proofs.«117435_j26147760898822_1_alg».proof.Proof.KI.Region1
import proofs.«117435_j26147760898822_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole run: ten items from the launch to the return

@main is ten items in a row: a stretch of host operations (the cast of the input to bf16), the first region (the
similarity matrix), six stretches of host operations (the same-label mask, the arg-max that picks each row's positive,
the two gathers of the similarity matrix along it), the second region (the two row losses) and a last stretch (the two
means and their sum). Between two items a core holds every unscoped buffer whole at contents that are a fold from the
launch memory: a stretch applies its operations; a region replaces its output arrays by what its write-backs leave and
changes nothing else. The run below says that every weakly fair execution ends with the result and the two argument
arrays at the end of that fold.
-/

set_option maxRecDepth 16384

noncomputable section

namespace Cert.KernelIdeal.Hand

open Cert.KernelIdeal Cert.KernelIdeal.Gen Cert.KernelIdeal.R0 Cert.KernelIdeal.R1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
/-- After the cast to bf16 (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: the similarity matrix at what the write-backs leave, every other buffer as entered. -/
def W2 (c : Dev nD) : Valuation τ sig (Elt F) :=
  Function.update (W1 m ρ c) (Proc.devRef .tc (Pipeline.arrRef spec0 2)) ((dat0 (V1 m ρ) c).arrAt 2 cfg0.N)
abbrev V2 : (c : Dev nD) → (b : Ref sig .tc) → Buf (Elt F) ((c : Thread nD τ).loc b) := fun c b => W2 m ρ c b
/-- After each of the six host stretches between the regions. -/
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
/-- The second region's entry contents at the TensorCore's references. -/
abbrev V8 : (c : Dev nD) → (b : Ref sig .tc) → Buf (Elt F) ((c : Thread nD τ).loc b) := fun c b => W8 m ρ c b
/-- At the second region's exit: its arrays at what the pipeline leaves, every other buffer as entered. -/
def W9 (c : Dev nD) : Valuation τ sig (Elt F) :=
  Pipeline.withArrays spec1 c (W8 m ρ c) fun w => (dat1 (V8 m ρ) c).arrAt w cfg1.N
abbrev V9 : (c : Dev nD) → (b : Ref sig .tc) → Buf (Elt F) ((c : Thread nD τ).loc b) := fun c b => W9 m ρ c b
/-- After the last stretch: the return. -/
abbrev W10 : Dev nD → Valuation τ sig (Elt F) := fun c => StableHlo.after hostOps2 (W9 m ρ c)

theorem W2_out (c : Dev nD) : V2 m ρ c (Pipeline.arrRef spec0 2) = (dat0 (V1 m ρ) c).arrAt 2 cfg0.N := by
  show W2 m ρ c (Proc.devRef .tc (Pipeline.arrRef spec0 2)) = _
  unfold W2; exact Function.update_self ..
theorem W2_of_ne (c : Dev nD) (b : Ref sig .tc) (hb : b ≠ Pipeline.arrRef spec0 2) :
    W2 m ρ c (Proc.devRef .tc b) = W1 m ρ c (Proc.devRef .tc b) := by
  unfold W2
  exact Function.update_of_ne (StableHlo.devRef_ne_of_ne hb) ..
theorem W9_arr (c : Dev nD) (w : Fin cfg1.W) :
    W9 m ρ c (Proc.devRef .tc (Pipeline.arrRef spec1 w)) = (dat1 (V8 m ρ) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m ρ c (Proc.devRef .tc b) = W8 m ρ c (Proc.devRef .tc b) := by
  unfold W9; exact Pipeline.withArrays_of_ne spec1 c _ _ b hb

/-- At the first region's exit each of its arrays holds what the pipeline leaves: the two input windows' shared array
    as entered, the output the write-backs. -/
theorem hF0 (c : Dev nD) (w : Fin cfg0.W) : (dat0 (V1 m ρ) c).arrAt w cfg0.N = V2 m ρ c (Pipeline.arrRef spec0 w) := by
  match w with
  | ⟨0, _⟩ => exact ((arrAt_in0 (V1 m ρ) c 0 (Or.inl rfl) cfg0.N).trans (W2_of_ne m ρ c _ (by decide)).symm)
  | ⟨1, _⟩ => exact ((arrAt_in0 (V1 m ρ) c 1 (Or.inr rfl) cfg0.N).trans (W2_of_ne m ρ c _ (by decide)).symm)
  | ⟨2, _⟩ => exact (W2_out m ρ c).symm
theorem hrest0 (c : Dev nD) : ∀ b, b ∉ Finset.univ.image (Pipeline.arrRef spec0) → V2 m ρ c b = V1 m ρ c b :=
  fun b hb => W2_of_ne m ρ c b fun e => hb (Finset.mem_image.mpr ⟨2, Finset.mem_univ _, e.symm⟩)
theorem hF1 (c : Dev nD) (w : Fin cfg1.W) : (dat1 (V8 m ρ) c).arrAt w cfg1.N = V9 m ρ c (Pipeline.arrRef spec1 w) :=
  (W9_arr m ρ c w).symm
theorem hrest1 (c : Dev nD) : ∀ b, b ∉ Finset.univ.image (Pipeline.arrRef spec1) → V9 m ρ c b = V8 m ρ c b :=
  fun b hb => W9_of_ne m ρ c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as an item. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W10 m ρ c) ∗ ∃ r, prngReg c r)

/-! ## The regions as items -/

set_option backward.isDefEq.respectTransparency.types false in
/-- The first region: entered from every unscoped buffer at `W1`, left at `W2`. Its two input windows read one array:
    the buffers behind the arrays are dealt among the windows at entry and put back at exit. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry0 (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V1 m ρ) (V2 m ρ) c (hF0 m ρ c) (hrest0 m ρ c)
    rw [Pipeline.unscopedBufs_held] at hjoin
    iintro ⟨Ha, HO, HY, Hrest⟩
    imodintro
    isplitl [Ha Hrest]
    · iapply hjoin
      isplitl [Ha]
      · iexact Ha
      · iexact Hrest
    isplitl [HY]; · iexact HY
    unfold Pipeline.Dat.owesAt Pipeline.owesWithin
    icases HO with ⟨%W, -, HO⟩; iexists W; iexact HO

set_option backward.isDefEq.respectTransparency.types false in
/-- The second region: entered from every unscoped buffer at `W8`, left at `W9`; its six windows are on six arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V8 m ρ) c).loose
  hwaits := Pipeline.hwaits_of_owed_zero _ _ _ _ L lv 1 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec1 c (V8 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V8 m ρ c) (V9 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .region (reg1 m ρ),
    .host (hseg hostOps2 hostOps2_sub hostOps2_fresh (W9 m ρ)) ]

/-- @main is the run of the items. -/
theorem main_run (c : Dev nD) : main (F := F) c = Pipeline.Seg.run (segs m ρ) := by
  rw [main_chain c, Pipeline.Seg.run_eq_chain]
  rfl

set_option backward.isDefEq.respectTransparency.types false in
/-- THE RUN: from any memory with zero counters every weakly fair execution of @main terminates, nothing faulting,
    and every final state holds each unscoped buffer at the end of the fold `W10`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun c => (show (iprop(StableHlo.held (c : Thread nD τ) (Pipeline.ucRefs τ sig) (W10 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-! ## The arguments end as launched -/

/-- No host stretch writes an argument and no region's output array is one: the fold at an argument's buffer walks back
    to the launch memory. -/
theorem W10_arg0 (c : Dev nD) : W10 m ρ c (Proc.devRef .tc main_arg0) = m ((c : Thread nD τ).loc main_arg0) :=
  calc W10 m ρ c (Proc.devRef .tc main_arg0)
    _ = W9 m ρ c (Proc.devRef .tc main_arg0) := StableHlo.after_of_writes_sub hostOps2 _ hostOps2_writes (by decide)
    _ = W8 m ρ c (Proc.devRef .tc main_arg0) := W9_of_ne m ρ c main_arg0 (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W10_arg1 (c : Dev nD) : W10 m ρ c (Proc.devRef .tc main_arg1) = m ((c : Thread nD τ).loc main_arg1) :=
  calc W10 m ρ c (Proc.devRef .tc main_arg1)
    _ = W9 m ρ c (Proc.devRef .tc main_arg1) := StableHlo.after_of_writes_sub hostOps2 _ hostOps2_writes (by decide)
    _ = W8 m ρ c (Proc.devRef .tc main_arg1) := W9_of_ne m ρ c main_arg1 (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- The frame: every weakly fair execution of @main terminates, nothing faulting, and the two argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W10_arg0 m ρ c), (h c _ (mem_uc main_arg1 (by decide))).trans (W10_arg1 m ρ c)⟩)
    (run_all m ρ)

end Cert.KernelIdeal.Hand

end
-- ==== Proof.Ref.Run.lean ====
import proofs.«117435_j26147760898822_1_alg».proof.Proof.Gen.ReferenceIdeal
import Idealize.ShloMosaic.Lib.StableHlo.Run

/-!
# The reference program as a straight line of host operations, and its run

The reference's entry function is three consecutive stretches of host operations; the two module-local
functions it calls (the row-wise first-maximum search, and the masked selection, called twice) are
written out at their call sites over the buffers each call names. Every weakly fair execution then
terminates with each buffer at the fold of the operations' results over the launch contents; the
two argument arrays are written by no operation and end unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first stretch: 59 operations of the entry function and the 5 of the first-maximum search. -/
abbrev ops0 : List (HloOp τ sig (Elt F)) :=
  [ StableHlo.nullary main_v0 (iotaInDim S4096 32 0),
    StableHlo.unary main_arg0 main_v1 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v1 main_v2 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.nullary main_cst (constant S_ .f32 0x3A83126F#32),
    StableHlo.unary main_cst main_v3 (broadcastInDim S4096x4096 ![] bcast_S_S4096x4096 : (⟨S_, .f32⟩ : BufTy).Contents (Elt F) → (⟨S4096x4096, .f32⟩ : BufTy).Contents (Elt F)),
    StableHlo.binary main_v3 main_v2 main_v4 (mulf : (⟨S4096x4096, .f32⟩ : BufTy).Contents (Elt F) → (⟨S4096x4096, .f32⟩ : BufTy).Contents (Elt F) → (⟨S4096x4096, .f32⟩ : BufTy).Contents (Elt F)),
    StableHlo.unary main_arg1 main_v5 (broadcastInDim S4096x1 ![0] bcast_S4096_S4096x1_0 : (⟨S4096, .i32⟩ : BufTy).Contents (Elt F) → (⟨S4096x1, .i32⟩ : BufTy).Contents (Elt F)),
    StableHlo.unary main_arg1 main_v6 (broadcastInDim S1x4096 ![1] bcast_S4096_S1x4096_1 : (⟨S4096, .i32⟩ : BufTy).Contents (Elt F) → (⟨S1x4096, .i32⟩ : BufTy).Contents (Elt F)),
    StableHlo.unary main_v5 main_v7 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v6 main_v8 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v7 main_v8 main_v9 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v0 main_v10 (broadcastInDim S4096x1 ![0] bcast_S4096_S4096x1_0 : (⟨S4096, .i32⟩ : BufTy).Contents (Elt F) → (⟨S4096x1, .i32⟩ : BufTy).Contents (Elt F)),
    StableHlo.unary main_v0 main_v11 (broadcastInDim S1x4096 ![1] bcast_S4096_S1x4096_1 : (⟨S4096, .i32⟩ : BufTy).Contents (Elt F) → (⟨S1x4096, .i32⟩ : BufTy).Contents (Elt F)),
    StableHlo.unary main_v10 main_v12 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v11 main_v13 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v12 main_v13 main_v14 (cmpi .ne : (⟨S4096x4096, .i32⟩ : BufTy).Contents (Elt F) → (⟨S4096x4096, .i32⟩ : BufTy).Contents (Elt F) → (⟨S4096x4096, .i1⟩ : BufTy).Contents (Elt F)),
    StableHlo.binary main_v9 main_v14 main_v15 (andi : (⟨S4096x4096, .i1⟩ : BufTy).Contents (Elt F) → (⟨S4096x4096, .i1⟩ : BufTy).Contents (Elt F) → (⟨S4096x4096, .i1⟩ : BufTy).Contents (Elt F)),
    StableHlo.TRef.nullary main_call0.v0 (iotaInDim S4096x4096 32 1),
    StableHlo.TRef.nullary main_call0.c (constantI S_ 1 0#1),
    StableHlo.TRef.nullary main_call0.c_0 (constantI S_ 32 0#32),
    StableHlo.TRef.quaternary (.of main_v15) main_call0.v0 main_call0.c main_call0.c_0 main_call0.v1_0 (fun x y u v j => (Host.reduce2 reducer_argmax_i1_i32 x y u v reducesTo_S4096x4096_S4096_d1 h_S_ j).1),
    StableHlo.TRef.quaternary (.of main_v15) main_call0.v0 main_call0.c main_call0.c_0 main_call0.v1_1 (fun x y u v j => (Host.reduce2 reducer_argmax_i1_i32 x y u v reducesTo_S4096x4096_S4096_d1 h_S_ j).2),
    StableHlo.nullary main_c (constantI S_ 32 0#32),
    StableHlo.unary main_c main_v17 (broadcastInDim S4096 ![] bcast_S_S4096 : (⟨S_, .i32⟩ : BufTy).Contents (Elt F) → (⟨S4096, .i32⟩ : BufTy).Contents (Elt F)),
    StableHlo.binary main_v0 main_v17 main_v18 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 4096#32),
    StableHlo.unary main_c_0 main_v19 (broadcastInDim S4096 ![] bcast_S_S4096 : (⟨S_, .i32⟩ : BufTy).Contents (Elt F) → (⟨S4096, .i32⟩ : BufTy).Contents (Elt F)),
    StableHlo.binary main_v0 main_v19 main_v20 (addi : (⟨S4096, .i32⟩ : BufTy).Contents (Elt F) → (⟨S4096, .i32⟩ : BufTy).Contents (Elt F) → (⟨S4096, .i32⟩ : BufTy).Contents (Elt F)),
    StableHlo.ternary main_v18 main_v20 main_v0 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_1 (constantI S_ 32 0#32),
    StableHlo.unary main_c_1 main_v22 (broadcastInDim S4096 ![] bcast_S_S4096 : (⟨S_, .i32⟩ : BufTy).Contents (Elt F) → (⟨S4096, .i32⟩ : BufTy).Contents (Elt F)),
    StableHlo.binary main_v16 main_v22 main_v23 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v24 (broadcastInDim S4096 ![] bcast_S_S4096 : (⟨S_, .i32⟩ : BufTy).Contents (Elt F) → (⟨S4096, .i32⟩ : BufTy).Contents (Elt F)),
    StableHlo.binary main_v16 main_v24 main_v25 (addi : (⟨S4096, .i32⟩ : BufTy).Contents (Elt F) → (⟨S4096, .i32⟩ : BufTy).Contents (Elt F) → (⟨S4096, .i32⟩ : BufTy).Contents (Elt F)),
    StableHlo.ternary main_v23 main_v25 main_v16 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v21 main_v27 (broadcastInDim S4096x1 ![0] bcast_S4096_S4096x1_0 : (⟨S4096, .i32⟩ : BufTy).Contents (Elt F) → (⟨S4096x1, .i32⟩ : BufTy).Contents (Elt F)),
    StableHlo.unary main_v26 main_v28 (broadcastInDim S4096x1 ![0] bcast_S4096_S4096x1_0 : (⟨S4096, .i32⟩ : BufTy).Contents (Elt F) → (⟨S4096x1, .i32⟩ : BufTy).Contents (Elt F)),
    StableHlo.binary main_v27 main_v28 main_v29 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v4 main_v29 main_v30 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_c_3 (constantI S_ 1 1#1),
    StableHlo.unary main_c_3 main_v31 (broadcastInDim S4096x4096 ![] bcast_S_S4096x4096 : (⟨S_, .i1⟩ : BufTy).Contents (Elt F) → (⟨S4096x4096, .i1⟩ : BufTy).Contents (Elt F)),
    StableHlo.nullary main_c_4 (constantI S_ 32 0#32),
    StableHlo.unary main_c_4 main_v32 (broadcastInDim S4096 ![] bcast_S_S4096 : (⟨S_, .i32⟩ : BufTy).Contents (Elt F) → (⟨S4096, .i32⟩ : BufTy).Contents (Elt F)),
    StableHlo.binary main_v0 main_v32 main_v33 (cmpi .slt : (⟨S4096, .i32⟩ : BufTy).Contents (Elt F) → (⟨S4096, .i32⟩ : BufTy).Contents (Elt F) → (⟨S4096, .i1⟩ : BufTy).Contents (Elt F)),
    StableHlo.nullary main_c_5 (constantI S_ 32 4096#32),
    StableHlo.unary main_c_5 main_v34 (broadcastInDim S4096 ![] bcast_S_S4096 : (⟨S_, .i32⟩ : BufTy).Contents (Elt F) → (⟨S4096, .i32⟩ : BufTy).Contents (Elt F)),
    StableHlo.binary main_v0 main_v34 main_v35 (addi : (⟨S4096, .i32⟩ : BufTy).Contents (Elt F) → (⟨S4096, .i32⟩ : BufTy).Contents (Elt F) → (⟨S4096, .i32⟩ : BufTy).Contents (Elt F)),
    StableHlo.ternary main_v33 main_v35 main_v0 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_6 (constantI S_ 32 0#32),
    StableHlo.unary main_c_6 main_v37 (broadcastInDim S4096 ![] bcast_S_S4096 : (⟨S_, .i32⟩ : BufTy).Contents (Elt F) → (⟨S4096, .i32⟩ : BufTy).Contents (Elt F)),
    StableHlo.binary main_v0 main_v37 main_v38 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v39 (broadcastInDim S4096 ![] bcast_S_S4096 : (⟨S_, .i32⟩ : BufTy).Contents (Elt F) → (⟨S4096, .i32⟩ : BufTy).Contents (Elt F)),
    StableHlo.binary main_v0 main_v39 main_v40 (addi : (⟨S4096, .i32⟩ : BufTy).Contents (Elt F) → (⟨S4096, .i32⟩ : BufTy).Contents (Elt F) → (⟨S4096, .i32⟩ : BufTy).Contents (Elt F)),
    StableHlo.ternary main_v38 main_v40 main_v0 main_v41 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v36 main_v42 (broadcastInDim S4096x1 ![0] bcast_S4096_S4096x1_0 : (⟨S4096, .i32⟩ : BufTy).Contents (Elt F) → (⟨S4096x1, .i32⟩ : BufTy).Contents (Elt F)),
    StableHlo.unary main_v41 main_v43 (broadcastInDim S4096x1 ![0] bcast_S4096_S4096x1_0 : (⟨S4096, .i32⟩ : BufTy).Contents (Elt F) → (⟨S4096x1, .i32⟩ : BufTy).Contents (Elt F)),
    StableHlo.binary main_v42 main_v43 main_v44 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.nullary main_c_8 (constantI S_ 1 0#1),
    StableHlo.unary main_c_8 main_v45 (broadcastInDim S4096 ![] bcast_S_S4096 : (⟨S_, .i1⟩ : BufTy).Contents (Elt F) → (⟨S4096, .i1⟩ : BufTy).Contents (Elt F)),
    StableHlo.ternary main_v31 main_v44 main_v45 main_v46 ((fun x i u => Host.scatter scatter_S4096x4096_S4096x2_S4096_n_01_01_1 (fun _ b => b) x i u) : (⟨S4096x4096, .i1⟩ : BufTy).Contents (Elt F) → (⟨S4096x2, .i32⟩ : BufTy).Contents (Elt F) → (⟨S4096, .i1⟩ : BufTy).Contents (Elt F) → (⟨S4096x4096, .i1⟩ : BufTy).Contents (Elt F)),
    StableHlo.nullary main_c_9 (constantI S_ 32 0#32),
    StableHlo.unary main_c_9 main_v47 (broadcastInDim S4096 ![] bcast_S_S4096 : (⟨S_, .i32⟩ : BufTy).Contents (Elt F) → (⟨S4096, .i32⟩ : BufTy).Contents (Elt F)) ]

/-- The second stretch: 58 operations of the entry function and twice the 3 of the masked selection. -/
abbrev ops1 : List (HloOp τ sig (Elt F)) :=
  [ StableHlo.binary main_v0 main_v47 main_v48 (cmpi .slt : (⟨S4096, .i32⟩ : BufTy).Contents (Elt F) → (⟨S4096, .i32⟩ : BufTy).Contents (Elt F) → (⟨S4096, .i1⟩ : BufTy).Contents (Elt F)),
    StableHlo.nullary main_c_10 (constantI S_ 32 4096#32),
    StableHlo.unary main_c_10 main_v49 (broadcastInDim S4096 ![] bcast_S_S4096 : (⟨S_, .i32⟩ : BufTy).Contents (Elt F) → (⟨S4096, .i32⟩ : BufTy).Contents (Elt F)),
    StableHlo.binary main_v0 main_v49 main_v50 (addi : (⟨S4096, .i32⟩ : BufTy).Contents (Elt F) → (⟨S4096, .i32⟩ : BufTy).Contents (Elt F) → (⟨S4096, .i32⟩ : BufTy).Contents (Elt F)),
    StableHlo.ternary main_v48 main_v50 main_v0 main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_11 (constantI S_ 32 0#32),
    StableHlo.unary main_c_11 main_v52 (broadcastInDim S4096 ![] bcast_S_S4096 : (⟨S_, .i32⟩ : BufTy).Contents (Elt F) → (⟨S4096, .i32⟩ : BufTy).Contents (Elt F)),
    StableHlo.binary main_v16 main_v52 main_v53 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v54 (broadcastInDim S4096 ![] bcast_S_S4096 : (⟨S_, .i32⟩ : BufTy).Contents (Elt F) → (⟨S4096, .i32⟩ : BufTy).Contents (Elt F)),
    StableHlo.binary main_v16 main_v54 main_v55 (addi : (⟨S4096, .i32⟩ : BufTy).Contents (Elt F) → (⟨S4096, .i32⟩ : BufTy).Contents (Elt F) → (⟨S4096, .i32⟩ : BufTy).Contents (Elt F)),
    StableHlo.ternary main_v53 main_v55 main_v16 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v51 main_v57 (broadcastInDim S4096x1 ![0] bcast_S4096_S4096x1_0 : (⟨S4096, .i32⟩ : BufTy).Contents (Elt F) → (⟨S4096x1, .i32⟩ : BufTy).Contents (Elt F)),
    StableHlo.unary main_v56 main_v58 (broadcastInDim S4096x1 ![0] bcast_S4096_S4096x1_0 : (⟨S4096, .i32⟩ : BufTy).Contents (Elt F) → (⟨S4096x1, .i32⟩ : BufTy).Contents (Elt F)),
    StableHlo.binary main_v57 main_v58 main_v59 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.nullary main_c_13 (constantI S_ 1 0#1),
    StableHlo.unary main_c_13 main_v60 (broadcastInDim S4096 ![] bcast_S_S4096 : (⟨S_, .i1⟩ : BufTy).Contents (Elt F) → (⟨S4096, .i1⟩ : BufTy).Contents (Elt F)),
    StableHlo.ternary main_v46 main_v59 main_v60 main_v61 ((fun x i u => Host.scatter scatter_S4096x4096_S4096x2_S4096_n_01_01_1 (fun _ b => b) x i u) : (⟨S4096x4096, .i1⟩ : BufTy).Contents (Elt F) → (⟨S4096x2, .i32⟩ : BufTy).Contents (Elt F) → (⟨S4096, .i1⟩ : BufTy).Contents (Elt F) → (⟨S4096x4096, .i1⟩ : BufTy).Contents (Elt F)),
    StableHlo.unary main_v30 main_v62 (broadcastInDim S4096x1 ![0] bcast_S4096_S4096x1_0 : (⟨S4096, .f32⟩ : BufTy).Contents (Elt F) → (⟨S4096x1, .f32⟩ : BufTy).Contents (Elt F)),
    StableHlo.unary main_v62 main_v63 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v4 main_v63 main_v64 (subf : (⟨S4096x4096, .f32⟩ : BufTy).Contents (Elt F) → (⟨S4096x4096, .f32⟩ : BufTy).Contents (Elt F) → (⟨S4096x4096, .f32⟩ : BufTy).Contents (Elt F)),
    StableHlo.unary main_v64 main_v65 (Host.exp : (⟨S4096x4096, .f32⟩ : BufTy).Contents (Elt F) → (⟨S4096x4096, .f32⟩ : BufTy).Contents (Elt F)),
    StableHlo.nullary main_cst_14 (constant S_ .f32 0x00000000#32),
    StableHlo.TRef.unary (.of main_cst_14) main_call1.v0 id,
    StableHlo.TRef.unary main_call1.v0 main_call1.v1 (broadcastInDim S4096x4096 ![] bcast_S_S4096x4096),
    StableHlo.TRef.ternary (.of main_v61) (.of main_v65) main_call1.v1 main_call1.v2 select,
    StableHlo.nullary main_cst_15 (constant S_ .f32 0x00000000#32),
    StableHlo.binary main_v66 main_cst_15 main_v67 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v67 main_v68 (Host.log1p : (⟨S4096, .f32⟩ : BufTy).Contents (Elt F) → (⟨S4096, .f32⟩ : BufTy).Contents (Elt F)),
    StableHlo.nullary main_c_16 (constantI S_ 32 0#32),
    StableHlo.unary main_c_16 main_v69 (broadcastInDim S4096 ![] bcast_S_S4096 : (⟨S_, .i32⟩ : BufTy).Contents (Elt F) → (⟨S4096, .i32⟩ : BufTy).Contents (Elt F)),
    StableHlo.binary main_v16 main_v69 main_v70 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 4096#32),
    StableHlo.unary main_c_17 main_v71 (broadcastInDim S4096 ![] bcast_S_S4096 : (⟨S_, .i32⟩ : BufTy).Contents (Elt F) → (⟨S4096, .i32⟩ : BufTy).Contents (Elt F)),
    StableHlo.binary main_v16 main_v71 main_v72 (addi : (⟨S4096, .i32⟩ : BufTy).Contents (Elt F) → (⟨S4096, .i32⟩ : BufTy).Contents (Elt F) → (⟨S4096, .i32⟩ : BufTy).Contents (Elt F)),
    StableHlo.ternary main_v70 main_v72 main_v16 main_v73 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v73 main_v74 (broadcastInDim S4096x1 ![0] bcast_S4096_S4096x1_0 : (⟨S4096, .i32⟩ : BufTy).Contents (Elt F) → (⟨S4096x1, .i32⟩ : BufTy).Contents (Elt F)),
    StableHlo.binary main_v4 main_v74 main_v75 ((fun x i => Host.gather gather_S4096x4096_S4096x1_S4096x4096_1_0_n_n_0_1_14096 x i) : (⟨S4096x4096, .f32⟩ : BufTy).Contents (Elt F) → (⟨S4096x1, .i32⟩ : BufTy).Contents (Elt F) → (⟨S4096x4096, .f32⟩ : BufTy).Contents (Elt F)),
    StableHlo.binary main_v4 main_v75 main_v76 (addf : (⟨S4096x4096, .f32⟩ : BufTy).Contents (Elt F) → (⟨S4096x4096, .f32⟩ : BufTy).Contents (Elt F) → (⟨S4096x4096, .f32⟩ : BufTy).Contents (Elt F)),
    StableHlo.nullary main_cst_18 (constant S_ .f32 0x3F800000#32),
    StableHlo.unary main_cst_18 main_v77 (broadcastInDim S4096x4096 ![] bcast_S_S4096x4096 : (⟨S_, .f32⟩ : BufTy).Contents (Elt F) → (⟨S4096x4096, .f32⟩ : BufTy).Contents (Elt F)),
    StableHlo.binary main_v76 main_v77 main_v78 (mulf : (⟨S4096x4096, .f32⟩ : BufTy).Contents (Elt F) → (⟨S4096x4096, .f32⟩ : BufTy).Contents (Elt F) → (⟨S4096x4096, .f32⟩ : BufTy).Contents (Elt F)),
    StableHlo.nullary main_cst_19 (constant S_ .f32 0x3F800000#32),
    StableHlo.unary main_cst_19 main_v79 (broadcastInDim S4096 ![] bcast_S_S4096 : (⟨S_, .f32⟩ : BufTy).Contents (Elt F) → (⟨S4096, .f32⟩ : BufTy).Contents (Elt F)),
    StableHlo.binary main_v30 main_v79 main_v80 (mulf : (⟨S4096, .f32⟩ : BufTy).Contents (Elt F) → (⟨S4096, .f32⟩ : BufTy).Contents (Elt F) → (⟨S4096, .f32⟩ : BufTy).Contents (Elt F)),
    StableHlo.unary main_v80 main_v81 (broadcastInDim S4096x1 ![0] bcast_S4096_S4096x1_0 : (⟨S4096, .f32⟩ : BufTy).Contents (Elt F) → (⟨S4096x1, .f32⟩ : BufTy).Contents (Elt F)),
    StableHlo.unary main_v81 main_v82 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v78 main_v82 main_v83 (subf : (⟨S4096x4096, .f32⟩ : BufTy).Contents (Elt F) → (⟨S4096x4096, .f32⟩ : BufTy).Contents (Elt F) → (⟨S4096x4096, .f32⟩ : BufTy).Contents (Elt F)),
    StableHlo.unary main_v83 main_v84 (Host.exp : (⟨S4096x4096, .f32⟩ : BufTy).Contents (Elt F) → (⟨S4096x4096, .f32⟩ : BufTy).Contents (Elt F)),
    StableHlo.nullary main_cst_20 (constant S_ .f32 0x00000000#32),
    StableHlo.TRef.unary (.of main_cst_20) main_call2.v0 id,
    StableHlo.TRef.unary main_call2.v0 main_call2.v1 (broadcastInDim S4096x4096 ![] bcast_S_S4096x4096),
    StableHlo.TRef.ternary (.of main_v61) (.of main_v84) main_call2.v1 main_call2.v2 select,
    StableHlo.nullary main_cst_21 (constant S_ .f32 0x00000000#32),
    StableHlo.binary main_v85 main_cst_21 main_v86 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v86 main_v87 (Host.log1p : (⟨S4096, .f32⟩ : BufTy).Contents (Elt F) → (⟨S4096, .f32⟩ : BufTy).Contents (Elt F)),
    StableHlo.nullary main_cst_22 (constant S_ .f32 0x00000000#32),
    StableHlo.binary main_v68 main_cst_22 main_v88 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_23 (constant S_ .f32 0x45800000#32),
    StableHlo.binary main_v88 main_cst_23 main_v89 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x00000000#32),
    StableHlo.binary main_v87 main_cst_24 main_v90 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_25 (constant S_ .f32 0x45800000#32),
    StableHlo.binary main_v90 main_cst_25 main_v91 (Host.divf : (⟨S_, .f32⟩ : BufTy).Contents (Elt F) → (⟨S_, .f32⟩ : BufTy).Contents (Elt F) → (⟨S_, .f32⟩ : BufTy).Contents (Elt F)) ]

/-- The last stretch: the final product and sum. -/
abbrev ops2 : List (HloOp τ sig (Elt F)) :=
  [ StableHlo.nullary main_cst_26 (constant S_ .f32 0x3F800000#32),
    StableHlo.binary main_cst_26 main_v91 main_v92 (mulf : (⟨S_, .f32⟩ : BufTy).Contents (Elt F) → (⟨S_, .f32⟩ : BufTy).Contents (Elt F) → (⟨S_, .f32⟩ : BufTy).Contents (Elt F)),
    StableHlo.binary main_v89 main_v92 main_v93 (addf : (⟨S_, .f32⟩ : BufTy).Contents (Elt F) → (⟨S_, .f32⟩ : BufTy).Contents (Elt F) → (⟨S_, .f32⟩ : BufTy).Contents (Elt F)) ]

/-- The whole program's operations, in order. -/
abbrev ops : List (HloOp τ sig (Elt F)) := ops0 ++ (ops1 ++ ops2)

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., unary_bufs_sub .., binary_bufs_sub .., unary_bufs_sub .., nullary_bufs_sub .., unary_bufs_sub .., unary_bufs_sub .., ternary_bufs_sub .., nullary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., unary_bufs_sub .., unary_bufs_sub .., binary_bufs_sub .., unary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., nullary_bufs_sub .., binary_bufs_sub .., nullary_bufs_sub .., binary_bufs_sub ..⟩

theorem ops2_sub : (ops2 : List (HloOp τ sig (Elt F))).Forall fun op => op.bufs ⊆ tcRefs τ sig :=
  ⟨nullary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- The fold over a concatenation is the fold over the second list from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem after_ops (V : Valuation τ sig (Elt F)) : after ops V = after ops2 (after ops1 (after ops0 V)) := by
  simp only [ops, after_append']

/-! ## No operation writes an argument array -/

set_option maxRecDepth 8192 in
set_option maxHeartbeats 4000000 in
theorem ops0_keep_arg0 (V : Valuation τ sig (Elt F)) :
    after ops0 V (Proc.devRef .tc main_arg0) = V (Proc.devRef .tc main_arg0) := by
  simp only [ops0]
  after_results_simp

set_option maxRecDepth 8192 in
set_option maxHeartbeats 4000000 in
theorem ops0_keep_arg1 (V : Valuation τ sig (Elt F)) :
    after ops0 V (Proc.devRef .tc main_arg1) = V (Proc.devRef .tc main_arg1) := by
  simp only [ops0]
  after_results_simp

set_option maxRecDepth 8192 in
set_option maxHeartbeats 4000000 in
theorem ops1_keep_arg0 (V : Valuation τ sig (Elt F)) :
    after ops1 V (Proc.devRef .tc main_arg0) = V (Proc.devRef .tc main_arg0) := by
  simp only [ops1]
  after_results_simp

set_option maxRecDepth 8192 in
set_option maxHeartbeats 4000000 in
theorem ops1_keep_arg1 (V : Valuation τ sig (Elt F)) :
    after ops1 V (Proc.devRef .tc main_arg1) = V (Proc.devRef .tc main_arg1) := by
  simp only [ops1]
  after_results_simp

set_option maxRecDepth 8192 in
set_option maxHeartbeats 4000000 in
theorem ops2_keep_arg0 (V : Valuation τ sig (Elt F)) :
    after ops2 V (Proc.devRef .tc main_arg0) = V (Proc.devRef .tc main_arg0) := by
  simp only [ops2]
  after_results_simp

set_option maxRecDepth 8192 in
set_option maxHeartbeats 4000000 in
theorem ops2_keep_arg1 (V : Valuation τ sig (Elt F)) :
    after ops2 V (Proc.devRef .tc main_arg1) = V (Proc.devRef .tc main_arg1) := by
  simp only [ops2]
  after_results_simp

theorem arg0_kept (V : Valuation τ sig (Elt F)) :
    after ops V (Proc.devRef .tc main_arg0) = V (Proc.devRef .tc main_arg0) := by
  rw [after_ops, ops2_keep_arg0, ops1_keep_arg0, ops0_keep_arg0]

theorem arg1_kept (V : Valuation τ sig (Elt F)) :
    after ops V (Proc.devRef .tc main_arg1) = V (Proc.devRef .tc main_arg1) := by
  rw [after_ops, ops2_keep_arg1, ops1_keep_arg1, ops0_keep_arg1]

/-! ## The run -/

/-- On every device, for any float values, from any memory with zero counters: every weakly fair execution of
    the reference terminates with the result buffer at the fold of the operations over the launch contents
    and the two argument arrays unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v93) = StableHlo.after ops (fun b => m (c, b)) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v93, (h c main_arg0).trans (arg0_kept _), (h c main_arg1).trans (arg1_kept _)⟩)
    (run_seq scopedRefs_eq scopedSems_eq defs main (fun _ => ops) main_eq (fun _ => ops_sub) m ρ)

end Cert.ReferenceIdeal.Hand

end
-- ==== Proof.Spec.lean ====
import Idealize.ShloMosaic.PureOps.Ideal
import Idealize.ShloMosaic.Lib.ValueIdx

/-!
# The loss both programs compute, in closed form

For an input matrix `x` of 4096 rows of 2048 extended reals and a choice of one "positive" column per row
(a word `p q` per row `q`), with `W q k = γ · ⟨x q, x k⟩` the scaled Gram matrix:

* the row mask keeps a column `k` of row `q` when `k ≠ q` and `k`'s word is not `p q`;
* `row1 q = log (1 + ∑ kept k, exp (W q k − W q (p q)))`;
* `row2 q = log (1 + ∑ kept k, exp ((W q k + W (p q) k) · 1 − W q (p q) · 1))`;
* the loss is the mean of `row1` plus `1 ·` the mean of `row2`, each mean a sum from `0` divided by `4096`.

Every float word is kept as the word both programs carry; only the zero word is ever evaluated.
-/

noncomputable section

open scoped BigOperators

namespace Cert.Spec

open Idealize.ShloMosaic Idealize.ShloMosaic.ValueIdx

/-- The similarity scale: the f32 word for 0.001 that both programs carry. -/
def γ : EReal := Ideal.ofBits .f32 0x3A83126F#32
/-- The f32 word for 1.0. -/
def one : EReal := Ideal.ofBits .f32 0x3F800000#32
/-- The f32 word for 4096.0. -/
def n4096 : EReal := Ideal.ofBits .f32 0x45800000#32

/-- The scaled Gram matrix at `(q, k)`: `(∑ d, x q d · x k d) · γ`. -/
def simAt (x : (⟨2, ![4096, 2048]⟩ : Shape).Idx → EReal) (q k : Fin 4096) : EReal :=
  (∑ d : Fin 2048, x (ix2 q d) * x (ix2 k d)) * γ

/-- Column `k` of row `q` is kept when it is neither the row's own column nor the column whose word is `pw`. -/
def keepB (q : Fin 4096) (pw : BitVec 32) (k : Fin 4096) : Bool :=
  decide (k ≠ q) && decide (BitVec.ofNat 32 k.val ≠ pw)

/-- One row of the first loss: `log (1 + ∑ kept k, exp (w k − wp))`. -/
def row1 (w : Fin 4096 → EReal) (wp : EReal) (m : Fin 4096 → Bool) : EReal :=
  Ideal.log1p (∑ k : Fin 4096, if m k then Ideal.exp (w k - wp) else 0)

/-- One row of the second loss: `log (1 + ∑ kept k, exp ((w k + wr k) · 1 − wp · 1))`. -/
def row2 (w wr : Fin 4096 → EReal) (wp : EReal) (m : Fin 4096 → Bool) : EReal :=
  Ideal.log1p (∑ k : Fin 4096, if m k then Ideal.exp ((w k + wr k) * one - wp * one) else 0)

/-- A word read as a column: its value below 4096 (every word the programs use here is below 4096). -/
def pidx (pw : BitVec 32) : Fin 4096 := ⟨pw.toNat % 4096, Nat.mod_lt _ (by decide)⟩

/-- The first loss's row `q`, from the input and the row's positive word. -/
def l1 (x : (⟨2, ![4096, 2048]⟩ : Shape).Idx → EReal) (p : Fin 4096 → BitVec 32) (q : Fin 4096) : EReal :=
  row1 (fun k => simAt x q k) (simAt x q (pidx (p q))) (keepB q (p q))

/-- The second loss's row `q`. -/
def l2 (x : (⟨2, ![4096, 2048]⟩ : Shape).Idx → EReal) (p : Fin 4096 → BitVec 32) (q : Fin 4096) : EReal :=
  row2 (fun k => simAt x q k) (fun k => simAt x (pidx (p q)) k) (simAt x q (pidx (p q))) (keepB q (p q))

/-- The mean of a row loss as both programs take it: the sum from `0`, divided by the word for 4096. -/
def mean (f : Fin 4096 → EReal) : EReal := Ideal.div (0 + ∑ q : Fin 4096, f q) n4096

/-- The loss: the first mean plus `1 ·` the second. -/
def loss (x : (⟨2, ![4096, 2048]⟩ : Shape).Idx → EReal) (p : Fin 4096 → BitVec 32) : EReal :=
  mean (l1 x p) + one * mean (l2 x p)

theorem pidx_val {pw : BitVec 32} (h : pw.toNat < 4096) : (pidx pw).val = pw.toNat := Nat.mod_eq_of_lt h

end Cert.Spec

end
-- ==== Proof.KI.Value0.lean ====
/-
  The value of region 0 at the exact instance: the similarity matrix.

  At every point `(i0, i1)` of the 4 × 4 grid the body multiplies row block `i0` of the bf16 embeddings by the
  transpose of row block `i1` (a contraction over the 2048 features of BOTH operands, into a zero accumulator)
  and scales by the word for 0.001; the output blocks tile the 4096 × 4096 matrix, so after the region the
  matrix holds `(∑ d, x q d · x k d) · γ` at every `(q, k)`.
-/
import proofs.«117435_j26147760898822_1_alg».proof.Proof.KI.Region0
import proofs.«117435_j26147760898822_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open scoped BigOperators

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an index -/

/-- The contraction of the body's matrix product: axis 1 of both operands. -/
abbrev D0 : DotDims S1024x2048 S1024x2048 S1024x1024 := dot_S1024x2048_S1024x2048_S1024x1024_1_1_0_0_n_n

/-- The left operand is read at the output's row, -/
theorem lhs0 (i : S1024x1024.Idx) (q : D0.contr.Idx) : (D0.lhsIdx i q 0).val = (i 0).val := by
  unfold DotDims.lhsIdx
  rw [dif_neg (show ¬(0 : Fin S1024x2048.rank) ∈ D0.lhsBatch by decide), dif_pos (show (0 : Fin S1024x2048.rank) ∈ D0.lhsNonContracting by decide)]
  rfl
/-- and at the contraction position; -/
theorem lhs1 (i : S1024x1024.Idx) (q : D0.contr.Idx) : (D0.lhsIdx i q 1).val = (q ⟨0, by decide⟩).val :=
  D0.lhsIdx_val_of_single rfl i q
/-- the right operand at the output's COLUMN (it enters transposed), -/
theorem rhs0 (i : S1024x1024.Idx) (q : D0.contr.Idx) : (D0.rhsIdx i q 0).val = (i 1).val := by
  unfold DotDims.rhsIdx
  rw [dif_neg (show ¬(0 : Fin S1024x2048.rank) ∈ D0.rhsBatch by decide), dif_pos (show (0 : Fin S1024x2048.rank) ∈ D0.rhsNonContracting by decide)]
  rfl
/-- and at the contraction position. -/
theorem rhs1 (i : S1024x1024.Idx) (q : D0.contr.Idx) : (D0.rhsIdx i q 1).val = (q ⟨0, by decide⟩).val :=
  D0.rhsIdx_val_of_single rfl i q

/-- The matrix product into a zero accumulator at `(p, q)`: the inner product of row `p` of the left operand and
    row `q` of the right. -/
theorem matmul_apply0 (x0 x1 : FVec Ideal S1024x2048 .bf16) (p q : Fin 1024) :
    (matmul D0 none x0 x1 (constant (F := Ideal) S1024x1024 .f32 0x00000000#32) : FVec Ideal S1024x1024 .f32) (ix2 p q)
      = ∑ d : Fin 2048, x0 (ix2 p d) * x1 (ix2 q d) := by
  simp only [matmul]
  rw [Ideal.matmul_constant_zero_apply, ← Equiv.sum_comp (ValueIdx.contrEquiv1 D0 2048 rfl rfl).symm]
  refine Finset.sum_congr rfl fun k _ => ?_
  have hk := ValueIdx.contrEquiv1_symm_val D0 2048 rfl rfl k
  have el : D0.lhsIdx (ix2 p q) ((ValueIdx.contrEquiv1 D0 2048 rfl rfl).symm k) = ix2 p k := funext fun a => Fin.ext (by
    match a with
    | ⟨0, _⟩ => exact lhs0 _ _
    | ⟨1, _⟩ => exact (lhs1 _ _).trans hk)
  have er : D0.rhsIdx (ix2 p q) ((ValueIdx.contrEquiv1 D0 2048 rfl rfl).symm k) = ix2 q k := funext fun a => Fin.ext (by
    match a with
    | ⟨0, _⟩ => exact rhs0 _ _
    | ⟨1, _⟩ => exact (rhs1 _ _).trans hk)
  rw [el, er]

/-- The body's one payload at `(p, q)`: that inner product, scaled. -/
theorem pay_apply (x0 x1 : Vec Ideal S1024x2048 .bf16) (p q : Fin 1024) :
    k0_pay1 (F := Ideal) x0 x1 (ix2 p q)
      = (∑ d : Fin 2048, x0 (ix2 p d) * x1 (ix2 q d)) * Ideal.ofBits .f32 0x3A83126F#32 := by
  unfold k0_pay1
  simp only [shapeCast_self]
  rw [mulf_apply, broadcast_apply]
  exact congrArg (· * _) (matmul_apply0 x0 x1 p q)

/-- The payload at block coordinates `(p, q)` is the scaled Gram entry at the array's `(r, s)`, when row `p` of the
    left block is row `r` of the array and row `q` of the right block is its row `s`. -/
theorem pay_eq_simAt (X : S4096x2048.Idx → EReal) (x0 x1 : Vec Ideal S1024x2048 .bf16) (p q : Fin 1024) (r s : Fin 4096)
    (h0 : ∀ d : Fin 2048, x0 (ix2 p d) = X (ix2 r d)) (h1 : ∀ d : Fin 2048, x1 (ix2 q d) = X (ix2 s d)) :
    k0_pay1 (F := Ideal) x0 x1 (ix2 p q) = Cert.Spec.simAt X r s := by
  rw [pay_apply]
  unfold Cert.Spec.simAt Cert.Spec.γ
  exact congrArg (· * _) (Finset.sum_congr rfl fun d _ => by rw [h0 d, h1 d])

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the 16 points: window 0 sits at the output's block row, window 1 at the output's
    block column, both at feature block 0; the output's block indices are below 4. -/
theorem idx_facts0 : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every block of the matrix is some point's. -/
theorem idx_onto0 : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- The similarity matrix of the embeddings the region finds. -/
abbrev G0 (c : Dev nD) : S4096x4096.Idx → EReal :=
  fun i => Cert.Spec.simAt (V c main_v0 : S4096x2048.Idx → EReal) (i 0) (i 1)

/-- Input window 0's block at point `t`, element by element: rows of the embeddings. -/
theorem iblk0_0_apply (c : Dev nD) (t : Fin cfg0.N) (x : S1024x2048.Idx) (k : S4096x2048.Idx)
    (hk0 : (k 0).val = win0_0.index t (0 : Fin 2) * 1024 + (x 0).val) (hk1 : (k 1).val = win0_0.index t (1 : Fin 2) * 2048 + (x 1).val) :
    (iblk0 V c 0 t : Vec Ideal S1024x2048 .bf16) x = (V c main_v0 : S4096x2048.Idx → EReal) k := by
  unfold iblk0
  rw [View.read_apply]
  show V c main_v0 _ = V c main_v0 _
  congr 1
  funext a
  apply Fin.ext
  match a with
  | ⟨0, _⟩ => show win0_0.index t (0 : Fin 2) * 1024 + 1 * (x 0).val = (k 0).val; omega
  | ⟨1, _⟩ => show win0_0.index t (1 : Fin 2) * 2048 + 1 * (x 1).val = (k 1).val; omega

/-- Input window 1's block likewise. -/
theorem iblk0_1_apply (c : Dev nD) (t : Fin cfg0.N) (x : S1024x2048.Idx) (k : S4096x2048.Idx)
    (hk0 : (k 0).val = win0_1.index t (0 : Fin 2) * 1024 + (x 0).val) (hk1 : (k 1).val = win0_1.index t (1 : Fin 2) * 2048 + (x 1).val) :
    (iblk0 V c 1 t : Vec Ideal S1024x2048 .bf16) x = (V c main_v0 : S4096x2048.Idx → EReal) k := by
  unfold iblk0
  rw [View.read_apply]
  show V c main_v0 _ = V c main_v0 _
  congr 1
  funext a
  apply Fin.ext
  match a with
  | ⟨0, _⟩ => show win0_1.index t (0 : Fin 2) * 1024 + 1 * (x 0).val = (k 0).val; omega
  | ⟨1, _⟩ => show win0_1.index t (1 : Fin 2) * 2048 + 1 * (x 1).val = (k 1).val; omega

/-- WHAT POINT `t` WRITES BACK is block `t` of the similarity matrix. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S1024x2048) hz]
  obtain ⟨e0, e1, e2, e3, e4, e5⟩ := idx_facts0 t
  funext j
  show k0_pay1 (F := Ideal) (iblk0 V c 0 t) (iblk0 V c 1 t) j = G0 V c (((cfg0.win 2).blk t).view.emb j)
  have hi0 : ((((cfg0.win 2).blk t).view.emb j) 0).val = win0_2.index t (0 : Fin 2) * 1024 + 1 * (j 0).val := rfl
  have hi1 : ((((cfg0.win 2).blk t).view.emb j) 1).val = win0_2.index t (1 : Fin 2) * 1024 + 1 * (j 1).val := rfl
  refine (congrArg (k0_pay1 (F := Ideal) (iblk0 V c 0 t) (iblk0 V c 1 t)) (eq_ix2 j)).trans
    (pay_eq_simAt (V c main_v0) (iblk0 V c 0 t) (iblk0 V c 1 t) (j 0) (j 1)
      ((((cfg0.win 2).blk t).view.emb j) 0) ((((cfg0.win 2).blk t).view.emb j) 1) (fun d => ?_) (fun d => ?_))
  · refine iblk0_0_apply V c t (ix2 (j 0) d) (ix2 ((((cfg0.win 2).blk t).view.emb j) 0) d) ?_ ?_
    · show ((((cfg0.win 2).blk t).view.emb j) 0).val = win0_0.index t (0 : Fin 2) * 1024 + (j 0).val
      omega
    · show d.val = win0_0.index t (1 : Fin 2) * 2048 + d.val
      omega
  · refine iblk0_1_apply V c t (ix2 (j 1) d) (ix2 ((((cfg0.win 2).blk t).view.emb j) 1) d) ?_ ?_
    · show ((((cfg0.win 2).blk t).view.emb j) 1).val = win0_1.index t (0 : Fin 2) * 1024 + (j 1).val
      omega
    · show d.val = win0_1.index t (1 : Fin 2) * 2048 + d.val
      omega

/-- An index of the matrix is in point `t`'s block iff each coordinate is in the block's range on its axis. -/
theorem mem_blk0 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- The output's blocks tile the matrix: `(r, s)` lies in the block of the point at block row `r / 1024`, block
    column `s / 1024`. -/
theorem cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE MATRIX after the region: the scaled Gram matrix of the embeddings the region found. -/
theorem final0 (c : Dev nD) :
    (dat0 (F := Ideal) V c).arrAt 2 cfg0.N = fun i => Cert.Spec.simAt (V c main_v0) (i 0) (i 1) :=
  (dat0 V c).arrAt_eq_of_cover 2 (G0 V c) (fun t _ => flushed0_eq V c t) (cover0)

end Cert.KernelIdeal.R0

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.KI.Pay1.lean ====
import proofs.«117435_j26147760898822_1_alg».proof.Proof.Gen.KernelIdeal.Skeleton
import proofs.«117435_j26147760898822_1_alg».proof.Proof.LibKeepdims
import proofs.«117435_j26147760898822_1_alg».proof.Proof.LibRowReads
import proofs.«117435_j26147760898822_1_alg».proof.Proof.Spec
import Idealize.ShloMosaic.Lib.ValueLayout
import Idealize.ShloMosaic.Lib.Affine

/-!
# The row-loss kernel's stored values, read at a row

At grid coordinate `g` the body holds rows `256·g … 256·g + 255` of its inputs. Row `r` of each value it stores is
a masked exponential sum over the 4096 columns of that row, under `log (1 + ·)`. The mask keeps column `k` when
`k`'s word differs from the word of the global row `256·g + r` and from the row's positive word; since
`256·g + r < 4096`, the first test is `k ≠ 256·g + r` on the numbers themselves.
-/

noncomputable section

open scoped BigOperators

namespace Cert.KernelIdeal.R1

open Cert.KernelIdeal Cert.KernelIdeal.Gen
open Idealize.ShloMosaic Idealize.ShloMosaic.ValueIdx

/-- The word of the global row: `g · 256 + r` computed on words is the word of the number. -/
theorem rowWord (g r : ℕ) : BitVec.ofNat 32 g * 256#32 + BitVec.ofNat 32 r = BitVec.ofNat 32 (g * 256 + r) := by
  apply BitVec.eq_of_toNat_eq
  simp [BitVec.toNat_add, BitVec.toNat_mul, BitVec.toNat_ofNat, Nat.add_mod, Nat.mul_mod]

/-- The mask bit at block row `r`, column `k`: the column's word against the global row's word and against the
    row's positive word. -/
theorem mask_apply (i : grid1.Coords) (x2 : Vec Ideal S256x1 .i32) (r : Fin 256) (k : Fin 4096) :
    k1_pay3 (F := Ideal) i x2 (ix2 r k)
      = IntOp.andi (IntOp.cmpi .ne (BitVec.ofNat 32 k.val) (BitVec.ofNat 32 (i 0).val * 256#32 + BitVec.ofNat 32 r.val))
          (IntOp.cmpi .ne (BitVec.ofNat 32 k.val) (x2 (ix2 r (0 : Fin 1)))) := by
  unfold k1_pay3
  dsimp only
  have e1 : broadcastTo S256x4096 (iota Kind.tc S1x4096 32 [1] iota_S1x4096_d1_w32) broadcasts_S1x4096_S256x4096 (ix2 r k)
      = BitVec.ofNat 32 k.val :=
    (broadcastTo_1b_ab_apply _ _ r k).trans (iota_single_apply _ _ _ _ _ _)
  have e2 : broadcastTo S256x4096 (addi (broadcast S256x1 (Scalar.muli (BitVec.ofNat 32 (i 0).val) 256#32))
        (iota Kind.tc S256x1 32 [0] iota_S256x1_d0_w32)) broadcasts_S256x1_S256x4096 (ix2 r k)
      = BitVec.ofNat 32 (i 0).val * 256#32 + BitVec.ofNat 32 r.val :=
    (Cert.Keepdims.broadcastTo_a1_ab_apply _ _ r k).trans
      (congrArg (fun z => BitVec.ofNat 32 (i 0).val * 256#32 + z) (iota_single_apply _ _ _ _ _ _))
  have e3 : broadcastTo S256x4096 (shapeCast S256x1 x2 shapeCasts_S256x1_S256x1) broadcasts_S256x1_S256x4096 (ix2 r k)
      = x2 (ix2 r (0 : Fin 1)) :=
    (Cert.Keepdims.broadcastTo_a1_ab_apply _ _ r k).trans (by rw [shapeCast_self])
  simp only [andi, cmpi, e1, e2, e3]

/-- The mask bit selects exactly the kept columns of the global row `q`. -/
theorem select_mask {α : Type} (i : grid1.Coords) (x2 : Vec Ideal S256x1 .i32) (r : Fin 256) (k : Fin 4096) (q : Fin 4096)
    (hq : q.val = (i 0).val * 256 + r.val) (a b : α) :
    Scalar.select (k1_pay3 (F := Ideal) i x2 (ix2 r k)) a b
      = if Cert.Spec.keepB q (x2 (ix2 r (0 : Fin 1))) k then a else b := by
  rw [mask_apply, rowWord, ← hq]
  unfold Scalar.select Cert.Spec.keepB
  refine if_congr ?_ rfl rfl
  refine Iff.trans IntOp.andi_eq_one ?_
  rw [IntOp.cmpi_ne, IntOp.cmpi_ne, Bool.and_eq_true, decide_eq_true_eq, decide_eq_true_eq]
  refine and_congr_left' ?_
  have hk : k.val < 2 ^ 32 := lt_trans k.isLt (by decide)
  have hq' : q.val < 2 ^ 32 := lt_trans q.isLt (by decide)
  rw [Ne, Ne, Cert.RowReads.ofNat32_inj hk hq', Fin.ext_iff]

/-- The first stored value at block row `r`. -/
theorem pay4_apply (i : grid1.Coords) (x2 : Vec Ideal S256x1 .i32) (x3 : Vec Ideal S256x1 .f32) (x0 : Vec Ideal S256x4096 .f32)
    (r : Fin 256) (u : Fin 1) (q : Fin 4096) (hq : q.val = (i 0).val * 256 + r.val) :
    k1_pay4 (F := Ideal) i x2 x3 x0 (ix2 r u)
      = Cert.Spec.row1 (fun k => x0 (ix2 r k)) (x3 (ix2 r (0 : Fin 1))) (Cert.Spec.keepB q (x2 (ix2 r (0 : Fin 1)))) := by
  unfold k1_pay4 k1_pay1 k1_pay2 Cert.Spec.row1
  dsimp only
  refine congrArg Ideal.log1p ?_
  refine (Cert.Keepdims.shapeCast_a_a1_apply _ _ r u).trans ?_
  refine (Cert.RowReads.rowSum_apply _ _ _ _ _ r).trans ?_
  refine Finset.sum_congr rfl fun k _ => ?_
  refine (select_mask i x2 r k q hq _ _).trans ?_
  refine if_congr Iff.rfl ?_ ?_
  · show Ideal.exp (shapeCast S256x4096 x0 shapeCasts_S256x4096_S256x4096 (ix2 r k)
        - broadcastTo S256x4096 (shapeCast S256x1 x3 shapeCasts_S256x1_S256x1) broadcasts_S256x1_S256x4096 (ix2 r k)) = _
    rw [shapeCast_self, Cert.Keepdims.broadcastTo_a1_ab_apply, shapeCast_self]
  · exact Ideal.ofBits_zero_f32

/-- The second stored value at block row `r`. -/
theorem pay5_apply (i : grid1.Coords) (x2 : Vec Ideal S256x1 .i32) (x3 : Vec Ideal S256x1 .f32) (x0 x1 : Vec Ideal S256x4096 .f32)
    (r : Fin 256) (u : Fin 1) (q : Fin 4096) (hq : q.val = (i 0).val * 256 + r.val) :
    k1_pay5 (F := Ideal) i x2 x3 x0 x1 (ix2 r u)
      = Cert.Spec.row2 (fun k => x0 (ix2 r k)) (fun k => x1 (ix2 r k)) (x3 (ix2 r (0 : Fin 1)))
          (Cert.Spec.keepB q (x2 (ix2 r (0 : Fin 1)))) := by
  unfold k1_pay5 k1_pay1 k1_pay2 Cert.Spec.row2 Cert.Spec.one
  dsimp only
  refine congrArg Ideal.log1p ?_
  refine (Cert.Keepdims.shapeCast_a_a1_apply _ _ r u).trans ?_
  refine (Cert.RowReads.rowSum_apply _ _ _ _ _ r).trans ?_
  refine Finset.sum_congr rfl fun k _ => ?_
  refine (select_mask i x2 r k q hq _ _).trans ?_
  refine if_congr Iff.rfl ?_ ?_
  · refine congrArg Ideal.exp ?_
    refine congrArg₂ (· - ·) ?_ ?_
    · rw [shapeCast_self, shapeCast_self]; rfl
    · refine (Cert.Keepdims.broadcastTo_a1_ab_apply _ _ r k).trans ?_
      rw [shapeCast_self]; rfl
  · exact Ideal.ofBits_zero_f32

end Cert.KernelIdeal.R1
end
-- ==== Proof.KI.Value1.lean ====
import proofs.«117435_j26147760898822_1_alg».proof.Proof.KI.Region1
import proofs.«117435_j26147760898822_1_alg».proof.Proof.KI.Pay1
import Idealize.ShloMosaic.Lib.Pipeline.Value

/-!
# The two loss columns after the second region, as functions of the arrays it is entered with

Point `t` of the grid holds rows `256·t … 256·t + 255` of each of its four inputs and writes the same rows of each
loss column; the sixteen points cover all 4096 rows. So row `q` of each column ends at the row loss of row `q` of
the similarity matrix, of the gathered rows, of the positive similarity and of the positive word.
-/

set_option maxRecDepth 16384

noncomputable section

open scoped BigOperators

namespace Cert.KernelIdeal.R1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the sixteen points: every window's block index is `(t, 0)`, and the
    point's one coordinate is `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ (grid1.coords t 0).val = t.val :=
  (by decide +kernel : ∀ t : Fin grid1.N, _)

/-! ## Each input block as rows of its array -/

theorem iblk0_apply (c : Dev nD) (t : Fin cfg1.N) (r : Fin 256) (k : Fin 4096) (q : Fin 4096) (hq : q.val = t.val * 256 + r.val) :
    (iblk1 V c 0 t : Vec Ideal S256x4096 .f32) (ix2 r k) = (V c main_v1 : S4096x4096.Idx → EReal) (ix2 q k) := by
  obtain ⟨e0, e1, -⟩ := idx_facts1 t
  unfold iblk1
  rw [View.read_apply]
  show V c main_v1 _ = V c main_v1 _
  refine congrArg (V c main_v1) ?_
  funext a; apply Fin.ext
  match a with
  | ⟨0, _⟩ => show win1_0.index t (0 : Fin 2) * 256 + 1 * r.val = q.val; rw [e0, hq]; omega
  | ⟨1, _⟩ => show win1_0.index t (1 : Fin 2) * 4096 + 1 * k.val = k.val; rw [e1]; omega

theorem iblk1_apply (c : Dev nD) (t : Fin cfg1.N) (r : Fin 256) (k : Fin 4096) (q : Fin 4096) (hq : q.val = t.val * 256 + r.val) :
    (iblk1 V c 1 t : Vec Ideal S256x4096 .f32) (ix2 r k) = (V c main_v17 : S4096x4096.Idx → EReal) (ix2 q k) := by
  obtain ⟨-, -, e0, e1, -⟩ := idx_facts1 t
  unfold iblk1
  rw [View.read_apply]
  show V c main_v17 _ = V c main_v17 _
  refine congrArg (V c main_v17) ?_
  funext a; apply Fin.ext
  match a with
  | ⟨0, _⟩ => show win1_1.index t (0 : Fin 2) * 256 + 1 * r.val = q.val; rw [e0, hq]; omega
  | ⟨1, _⟩ => show win1_1.index t (1 : Fin 2) * 4096 + 1 * k.val = k.val; rw [e1]; omega

theorem iblk2_apply (c : Dev nD) (t : Fin cfg1.N) (r : Fin 256) (u : Fin 1) (q : Fin 4096) (hq : q.val = t.val * 256 + r.val) :
    (iblk1 V c 2 t : Vec Ideal S256x1 .i32) (ix2 r u) = (V c main_v18 : S4096x1.Idx → BitVec 32) (ix2 q (0 : Fin 1)) := by
  obtain ⟨-, -, -, -, e0, e1, -⟩ := idx_facts1 t
  unfold iblk1
  rw [View.read_apply]
  show V c main_v18 _ = V c main_v18 _
  refine congrArg (V c main_v18) ?_
  funext a; apply Fin.ext
  match a with
  | ⟨0, _⟩ => show win1_2.index t (0 : Fin 2) * 256 + 1 * r.val = q.val; rw [e0, hq]; omega
  | ⟨1, _⟩ => show win1_2.index t (1 : Fin 2) * 1 + 1 * u.val = 0; rw [e1]; omega

theorem iblk3_apply (c : Dev nD) (t : Fin cfg1.N) (r : Fin 256) (u : Fin 1) (q : Fin 4096) (hq : q.val = t.val * 256 + r.val) :
    (iblk1 V c 3 t : Vec Ideal S256x1 .f32) (ix2 r u) = (V c main_v16 : S4096x1.Idx → EReal) (ix2 q (0 : Fin 1)) := by
  obtain ⟨-, -, -, -, -, -, e0, e1, -⟩ := idx_facts1 t
  unfold iblk1
  rw [View.read_apply]
  show V c main_v16 _ = V c main_v16 _
  refine congrArg (V c main_v16) ?_
  funext a; apply Fin.ext
  match a with
  | ⟨0, _⟩ => show win1_3.index t (0 : Fin 2) * 256 + 1 * r.val = q.val; rw [e0, hq]; omega
  | ⟨1, _⟩ => show win1_3.index t (1 : Fin 2) * 1 + 1 * u.val = 0; rw [e1]; omega

/-! ## The two columns as functions of the entry arrays -/

/-- The first loss column: row `q` is the first row loss of row `q`. -/
def G4 (c : Dev nD) : S4096x1.Idx → EReal := fun i =>
  Cert.Spec.row1 (fun k => (V c main_v1 : S4096x4096.Idx → EReal) (ix2 (i 0) k))
    ((V c main_v16 : S4096x1.Idx → EReal) (ix2 (i 0) (0 : Fin 1)))
    (Cert.Spec.keepB (i 0) ((V c main_v18 : S4096x1.Idx → BitVec 32) (ix2 (i 0) (0 : Fin 1))))

/-- The second loss column. -/
def G5 (c : Dev nD) : S4096x1.Idx → EReal := fun i =>
  Cert.Spec.row2 (fun k => (V c main_v1 : S4096x4096.Idx → EReal) (ix2 (i 0) k))
    (fun k => (V c main_v17 : S4096x4096.Idx → EReal) (ix2 (i 0) k))
    ((V c main_v16 : S4096x1.Idx → EReal) (ix2 (i 0) (0 : Fin 1)))
    (Cert.Spec.keepB (i 0) ((V c main_v18 : S4096x1.Idx → BitVec 32) (ix2 (i 0) (0 : Fin 1))))

theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S256x1) hz, View.ld_unit_zero (S := S256x4096) hz]
  funext j
  obtain ⟨r, u, rfl⟩ : ∃ (r : Fin 256) (u : Fin 1), j = ix2 r u := ⟨j 0, j 1, eq_ix2 j⟩
  obtain ⟨-, -, -, -, -, -, -, -, e4, e4', -, -, eg⟩ := idx_facts1 t
  have hN : t.val < 16 := lt_of_lt_of_eq t.isLt (show cfg1.N = 16 from N_1)
  obtain ⟨q, hq⟩ : ∃ q : Fin 4096, q.val = t.val * 256 + r.val := ⟨⟨t.val * 256 + r.val, by have := r.isLt; omega⟩, rfl⟩
  have hemb : ((cfg1.win 4).blk t).view.emb (ix2 r u) = (ix2 q (0 : Fin 1) : S4096x1.Idx) := by
    funext a; apply Fin.ext
    match a with
    | ⟨0, _⟩ => show win1_4.index t (0 : Fin 2) * 256 + 1 * r.val = q.val; rw [e4, hq]; omega
    | ⟨1, _⟩ => show win1_4.index t (1 : Fin 2) * 1 + 1 * u.val = 0; rw [e4']; omega
  show k1_pay4 (grid1.coords t) (iblk1 V c 2 t) (iblk1 V c 3 t) (iblk1 V c 0 t) (ix2 r u)
      = G4 V c (((cfg1.win 4).blk t).view.emb (ix2 r u))
  rw [hemb]
  refine (pay4_apply (grid1.coords t) (iblk1 V c 2 t) (iblk1 V c 3 t) (iblk1 V c 0 t) r u q (by rw [eg]; exact hq)).trans ?_
  show Cert.Spec.row1 _ _ _ = Cert.Spec.row1 _ _ _
  rw [iblk3_apply V c t r 0 q hq, iblk2_apply V c t r 0 q hq]
  refine congrArg (fun w => Cert.Spec.row1 w _ _) ?_
  funext k
  exact iblk0_apply V c t r k q hq

theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S256x1) hz, View.ld_unit_zero (S := S256x4096) hz]
  funext j
  obtain ⟨r, u, rfl⟩ : ∃ (r : Fin 256) (u : Fin 1), j = ix2 r u := ⟨j 0, j 1, eq_ix2 j⟩
  obtain ⟨-, -, -, -, -, -, -, -, -, -, e5, e5', eg⟩ := idx_facts1 t
  have hN : t.val < 16 := lt_of_lt_of_eq t.isLt (show cfg1.N = 16 from N_1)
  obtain ⟨q, hq⟩ : ∃ q : Fin 4096, q.val = t.val * 256 + r.val := ⟨⟨t.val * 256 + r.val, by have := r.isLt; omega⟩, rfl⟩
  have hemb : ((cfg1.win 5).blk t).view.emb (ix2 r u) = (ix2 q (0 : Fin 1) : S4096x1.Idx) := by
    funext a; apply Fin.ext
    match a with
    | ⟨0, _⟩ => show win1_5.index t (0 : Fin 2) * 256 + 1 * r.val = q.val; rw [e5, hq]; omega
    | ⟨1, _⟩ => show win1_5.index t (1 : Fin 2) * 1 + 1 * u.val = 0; rw [e5']; omega
  show k1_pay5 (grid1.coords t) (iblk1 V c 2 t) (iblk1 V c 3 t) (iblk1 V c 0 t) (iblk1 V c 1 t) (ix2 r u)
      = G5 V c (((cfg1.win 5).blk t).view.emb (ix2 r u))
  rw [hemb]
  refine (pay5_apply (grid1.coords t) (iblk1 V c 2 t) (iblk1 V c 3 t) (iblk1 V c 0 t) (iblk1 V c 1 t) r u q (by rw [eg]; exact hq)).trans ?_
  show Cert.Spec.row2 _ _ _ _ = Cert.Spec.row2 _ _ _ _
  rw [iblk3_apply V c t r 0 q hq, iblk2_apply V c t r 0 q hq]
  refine congrArg₂ (fun w w' => Cert.Spec.row2 w w' _ _) ?_ ?_
  · funext k; exact iblk0_apply V c t r k q hq
  · funext k; exact iblk1_apply V c t r k q hq

/-! ## The sixteen blocks cover the column -/

theorem mem_blk4 (t : Fin cfg1.N) (i : S4096x1.Idx) :
    i ∈ ((cfg1.win 4).blk t).view.set ↔ ∀ a : Fin 2, win1_4.index t a * S256x1.size a ≤ (i a).val ∧ (i a).val < win1_4.index t a * S256x1.size a + S256x1.size a := by
  show i ∈ ((View.whole main_v19_0).slice (win1_4.rect t)).set ↔ _
  rw [View.set_slice_whole, Rect.mem_set_unit]
  exact Iff.rfl

theorem mem_blk5 (t : Fin cfg1.N) (i : S4096x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v19_1).slice (win1_5.rect t)).set ↔ _
  rw [View.set_slice_whole, Rect.mem_set_unit]
  exact Iff.rfl

/-- Row `q` is in the block of point `q / 256`. -/
theorem cover4 (i : S4096x1.Idx) : ∃ t : Fin cfg1.N, (cfg1.win 4).flush t = true ∧ i ∈ ((cfg1.win 4).blk t).view.set := by
  have hi0 : (i 0).val < 4096 := (i 0).isLt
  have hi1 : (i 1).val < 1 := (i 1).isLt
  obtain ⟨t, ht⟩ : ∃ t : Fin cfg1.N, t.val = (i 0).val / 256 := ⟨⟨(i 0).val / 256, by rw [show cfg1.N = 16 from N_1]; omega⟩, rfl⟩
  obtain ⟨-, -, -, -, -, -, -, -, e0, e1, -⟩ := idx_facts1 t
  refine ⟨t, flush1_4 t, ?_⟩
  rw [mem_blk4]
  intro a
  match a with
  | ⟨0, _⟩ => show win1_4.index t (0 : Fin 2) * 256 ≤ (i 0).val ∧ (i 0).val < win1_4.index t (0 : Fin 2) * 256 + 256; rw [e0, ht]; omega
  | ⟨1, _⟩ => show win1_4.index t (1 : Fin 2) * 1 ≤ (i 1).val ∧ (i 1).val < win1_4.index t (1 : Fin 2) * 1 + 1; rw [e1]; omega

theorem cover5 (i : S4096x1.Idx) : ∃ t : Fin cfg1.N, (cfg1.win 5).flush t = true ∧ i ∈ ((cfg1.win 5).blk t).view.set := by
  have hi0 : (i 0).val < 4096 := (i 0).isLt
  have hi1 : (i 1).val < 1 := (i 1).isLt
  obtain ⟨t, ht⟩ : ∃ t : Fin cfg1.N, t.val = (i 0).val / 256 := ⟨⟨(i 0).val / 256, by rw [show cfg1.N = 16 from N_1]; omega⟩, rfl⟩
  obtain ⟨-, -, -, -, -, -, -, -, -, -, e0, e1, -⟩ := idx_facts1 t
  refine ⟨t, flush1_5 t, ?_⟩
  rw [mem_blk5]
  intro a
  match a with
  | ⟨0, _⟩ => show win1_5.index t (0 : Fin 2) * 256 ≤ (i 0).val ∧ (i 0).val < win1_5.index t (0 : Fin 2) * 256 + 256; rw [e0, ht]; omega
  | ⟨1, _⟩ => show win1_5.index t (1 : Fin 2) * 1 ≤ (i 1).val ∧ (i 1).val < win1_5.index t (1 : Fin 2) * 1 + 1; rw [e1]; omega

/-! ## The columns after the region -/

/-- The first loss column after the region: row `q` at the first row loss of the entry arrays' row `q`. -/
theorem final1_4 (c : Dev nD) : (dat1 (F := Ideal) V c).arrAt 4 cfg1.N = fun i =>
    Cert.Spec.row1 (fun k => V c main_v1 (ix2 (i 0) k)) (V c main_v16 (ix2 (i 0) 0))
      (Cert.Spec.keepB (i 0) (V c main_v18 (ix2 (i 0) 0))) :=
  (dat1 V c).arrAt_eq_of_cover 4 (G4 V c) (fun t _ => flushed4_eq V c t) cover4

/-- The second loss column after the region. -/
theorem final1_5 (c : Dev nD) : (dat1 (F := Ideal) V c).arrAt 5 cfg1.N = fun i =>
    Cert.Spec.row2 (fun k => V c main_v1 (ix2 (i 0) k)) (fun k => V c main_v17 (ix2 (i 0) k)) (V c main_v16 (ix2 (i 0) 0))
      (Cert.Spec.keepB (i 0) (V c main_v18 (ix2 (i 0) 0))) :=
  (dat1 V c).arrAt_eq_of_cover 5 (G5 V c) (fun t _ => flushed5_eq V c t) cover5

end Cert.KernelIdeal.R1
end
-- ==== Proof.PosRange.lean ====
import Idealize.ShloMosaic.PureOps.Ideal
import Idealize.ShloMosaic.Lib.ValueIdx

/-!
# The positive column is always a column

Each row's "positive" is an arg-max taken by a two-operand reduction: a left fold, over the row's elements in order,
of a step that keeps either the accumulated index or the element's index, started from the index `0`, the elements'
indices being the column numbers `0 … 4095`. Whatever the compared values are, the fold therefore ends on `0` or on
one of the column numbers: a word below 4096.
-/

noncomputable section

namespace Cert.PosRange

open Idealize.ShloMosaic

/-- A left fold of a step whose second component is always one of its two arguments' second components keeps any
    property that the start's and every element's second component has. -/
theorem foldl_snd {α β ι : Type} (f : α × β → α × β → α × β) (hf : ∀ a b, (f a b).2 = a.2 ∨ (f a b).2 = b.2)
    (P : β → Prop) (g : ι → α × β) (hg : ∀ n, P (g n).2) (l : List ι) (init : α × β) (h0 : P init.2) :
    P (l.foldl (fun r n => f r (g n)) init).2 := by
  induction l generalizing init with
  | nil => exact h0
  | cons a l ih =>
    refine ih _ ?_
    rcases hf init (g a) with h | h
    · rw [h]; exact h0
    · rw [h]; exact hg a

/-- A select is one of its two branches. -/
theorem select_or {α : Type} (c : BitVec 1) (a b : α) : Scalar.select c a b = a ∨ Scalar.select c a b = b := by
  unfold Scalar.select; split
  · exact Or.inl rfl
  · exact Or.inr rfl

/-- A two-operand reduction whose step selects its index among its two arguments' indices ends, at every result index,
    on a word below any bound that the start index and every element index are below — whatever the shapes and the
    compared values. -/
theorem reduce2_snd_lt {s t u : Shape} {axes : List (Fin s.rank)} {α : Type}
    (f : α × BitVec 32 → α × BitVec 32 → α × BitVec 32) (hf : ∀ a b, (f a b).2 = a.2 ∨ (f a b).2 = b.2)
    (x : s.Idx → α) (y : s.Idx → BitVec 32) (ix : u.Idx → α) (iy : u.Idx → BitVec 32)
    (h : s.ReducesTo axes t) (hu : 0 < u.numel) (B : Nat) (hy : ∀ i, (y i).toNat < B) (hiy : ∀ i, (iy i).toNat < B)
    (j : t.Idx) : (Host.reduce2 f x y ix iy h hu j).2.toNat < B := by
  unfold Host.reduce2
  exact foldl_snd f hf (fun w => w.toNat < B) (fun n => (x (s.rowMajor.symm n), y (s.rowMajor.symm n)))
    (fun n => hy _) _ _ (hiy _)

/-- The column numbers of a matrix with `C` columns are below `C`. -/
theorem iota_cols_lt {R C : Nat} (i : (⟨2, ![R, C]⟩ : Shape).Idx) : (iotaInDim ⟨2, ![R, C]⟩ 32 1 i).toNat < C := by
  show (BitVec.ofNat 32 (i 1).val).toNat < C
  rw [BitVec.toNat_ofNat]
  exact lt_of_le_of_lt (Nat.mod_le _ _) (i 1).isLt

/-- The two-operand reduction of any values against the column numbers of a 4096-column matrix, started from the
    index word `0`, by a step that selects its index among its two arguments' indices, ends at every row on a word
    below 4096. -/
theorem reduce2_iota_lt {α : Type} (f : α × BitVec 32 → α × BitVec 32 → α × BitVec 32)
    (hf : ∀ a b, (f a b).2 = a.2 ∨ (f a b).2 = b.2)
    (x : (⟨2, ![4096, 4096]⟩ : Shape).Idx → α) (ix : (⟨0, ![]⟩ : Shape).Idx → α)
    (h : (⟨2, ![4096, 4096]⟩ : Shape).ReducesTo [1] ⟨1, ![4096]⟩) (hu : 0 < (⟨0, ![]⟩ : Shape).numel)
    (j : (⟨1, ![4096]⟩ : Shape).Idx) :
    (Host.reduce2 f x (iotaInDim ⟨2, ![4096, 4096]⟩ 32 1) ix (constantI ⟨0, ![]⟩ 32 0#32) h hu j).2.toNat < 4096 := by
  unfold Host.reduce2
  refine foldl_snd f hf (fun w => w.toNat < 4096)
    (fun n => (x ((⟨2, ![4096, 4096]⟩ : Shape).rowMajor.symm n), iotaInDim ⟨2, ![4096, 4096]⟩ 32 1 ((⟨2, ![4096, 4096]⟩ : Shape).rowMajor.symm n)))
    (fun n => ?_) _ _ ?_
  · show (BitVec.ofNat 32 (((⟨2, ![4096, 4096]⟩ : Shape).rowMajor.symm n) 1).val).toNat < 4096
    rw [BitVec.toNat_ofNat]
    exact lt_of_le_of_lt (Nat.mod_le _ _) (((⟨2, ![4096, 4096]⟩ : Shape).rowMajor.symm n) 1).isLt
  · show (0#32).toNat < 4096
    decide

end Cert.PosRange

end
-- ==== Proof.Words.lean ====
import Idealize.ShloMosaic.PureOps.Ideal
import Idealize.ShloMosaic.Lib.ValueIdx

/-!
# Words below 4096 as indices

A 32-bit word whose unsigned value is below 4096 reads the same signed and unsigned, is not negative, is at most
4095, and clamping it into `[0, 4095]` changes nothing: the bounds checks that index normalisation wraps around a
gather are all passed by such a word.
-/

noncomputable section

namespace Cert.Words

open Idealize.ShloMosaic

variable {w : BitVec 32}

theorem toInt_eq (h : w.toNat < 4096) : w.toInt = (w.toNat : Int) := by
  rw [BitVec.toInt_eq_toNat_cond]
  split
  · rfl
  · omega

theorem toInt_toNat (h : w.toNat < 4096) : w.toInt.toNat = w.toNat := by
  rw [toInt_eq h]; rfl

theorem slt_zero (h : w.toNat < 4096) : IntOp.cmpi .slt w 0#32 = 0#1 := by
  unfold IntOp.cmpi
  have : w.slt 0#32 = false := by
    rw [BitVec.slt_eq_decide, toInt_eq h]
    simp
  simp [this]

theorem sge_zero (h : w.toNat < 4096) : IntOp.cmpi .sge w 0#32 = 1#1 := by
  unfold IntOp.cmpi
  have : (0#32).sle w = true := by
    rw [BitVec.sle_eq_decide, toInt_eq h]
    simp
  simp [this]

theorem sle_4095 (h : w.toNat < 4096) : IntOp.cmpi .sle w 4095#32 = 1#1 := by
  unfold IntOp.cmpi
  have : w.sle 4095#32 = true := by
    rw [BitVec.sle_eq_decide, toInt_eq h]
    have : (4095#32 : BitVec 32).toInt = 4095 := by decide
    rw [this]
    simp
    omega
  simp [this]

theorem clamp (h : w.toNat < 4096) : min w.toInt.toNat (4096 - 1) = w.toNat := by
  rw [toInt_toNat h]; omega

theorem ofNat_toNat (w : BitVec 32) : BitVec.ofNat 32 w.toNat = w := by
  rw [BitVec.ofNat_toNat, BitVec.setWidth_eq]

end Cert.Words

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.GatherAlong.lean ====
import Idealize.ShloMosaic.PureOps.Ideal
import Idealize.ShloMosaic.Lib.ValueIdx

/-!
# A gather of one element per row

`take_along_axis(x, idx, axis = 1)` of a matrix `x : [N, C]` at one column index per row, the indices carried as
`[N, 1, 1]`, lowers to a gather whose first operand axis is a batching axis (result row `r` reads operand row `r`)
and whose second is indexed by the start index, read signed and clamped into `[0, C − 1]`.
-/

noncomputable section

namespace Cert.GatherAlong

open Idealize.ShloMosaic Idealize.ShloMosaic.ValueIdx

variable {α : Type} {N C w : Nat}

/-- The dimension numbers of `take_along_axis` along axis 1 with one index per row. -/
abbrev alongDims (N C : Nat) (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The column row `e` reads: its start index read signed, clamped into `[0, C − 1]`. -/
def clampCol (C : Nat) (hC : 0 < C) {N w : Nat} (idx : IVec ⟨3, ![N, 1, 1]⟩ w) (e : Fin N) : Fin C :=
  ⟨min (idx (ix3 e (0 : Fin 1) (0 : Fin 1))).toInt.toNat (C - 1), by omega⟩

/-- THE GATHER READ AT ROW `y 0`: the operand at that row, column `clampCol … (y 0)`. -/
theorem gather_along_apply (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (y : (⟨2, ![N, 1]⟩ : Shape).Idx) :
    Host.gather (alongDims N C wf) x idx y = x (ix2 (y 0) (clampCol C hC idx (y 0))) := by
  unfold Host.gather
  congr 1
  funext a
  refine Fin.ext ?_
  match a with
  | ⟨0, _⟩ =>
    show (alongDims N C wf).start y idx 0 + (alongDims N C wf).batchCoord y 0 + (alongDims N C wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims N C wf).operandBatchingDims from List.mem_singleton.mpr rfl)]
    rfl
  | ⟨1, _⟩ =>
    show (alongDims N C wf).start y idx 1 + (alongDims N C wf).batchCoord y 1 + (alongDims N C wf).offCoord y 1 = _
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims N C wf).startIndexMap from List.mem_singleton.mpr rfl)]
    have hsi : (alongDims N C wf).siIdx y ⟨List.idxOf (1 : Fin 2) (alongDims N C wf).startIndexMap,
        List.idxOf_lt_length_iff.2 (List.mem_singleton.mpr rfl)⟩ = ix3 (y 0) (0 : Fin 1) (0 : Fin 1) := by
      funext b; refine Fin.ext ?_
      match b with
      | ⟨0, _⟩ => rfl
      | ⟨1, _⟩ => exact (Nat.lt_one_iff.mp (y 1).isLt)
      | ⟨2, _⟩ => rfl
    rw [hsi]
    rfl

end Cert.GatherAlong

end
-- ==== Proof.KI.Glue.lean ====
import proofs.«117435_j26147760898822_1_alg».proof.Proof.Gen.KernelIdeal.Launch
import proofs.«117435_j26147760898822_1_alg».proof.Proof.Gen.KernelIdeal.Regions
import proofs.«117435_j26147760898822_1_alg».proof.Proof.Spec
import proofs.«117435_j26147760898822_1_alg».proof.Proof.PosRange
import proofs.«117435_j26147760898822_1_alg».proof.Proof.Words
import proofs.«117435_j26147760898822_1_alg».proof.Proof.LibScatterGather
import proofs.«117435_j26147760898822_1_alg».proof.Proof.GatherAlong
import Idealize.ShloMosaic.Lib.StableHlo.Run
import Idealize.ShloMosaic.Lib.Pipeline.Value
import Idealize.ShloMosaic.Lib.ValueLayout
import Idealize.ShloMosaic.PureOps.Ideal.Laws

/-!
# The host operations between the two regions, read at an index

Between the similarity kernel and the row-loss kernel the program computes, on the host, each row's positive
column (an arg-max over "same label, other row", ties to the smaller column), the column of positive
similarities (one element of the similarity matrix per row), the matrix of the positives' rows (a gather of whole
rows), and the positives again as a column. Each gather comes wrapped in index normalisation (a negative index
has the extent added) and a bounds check that fills out-of-range rows with a fixed word. The arg-max of column
numbers is always a column number, so every normalisation is the identity, every bounds check passes and every
clamp is the identity: the stretches leave exactly the gathered entries.

Everything is stated from an arbitrary valuation `V` of the buffers, standing for what the first region leaves.
-/

set_option maxRecDepth 16384

noncomputable section

open scoped BigOperators

namespace Cert.KernelIdeal.Glue

open Cert.KernelIdeal Cert.KernelIdeal.Gen
open Idealize.ShloMosaic Idealize.ShloMosaic.TcCoe Idealize.ShloMosaic.ValueIdx

/-! ## Small reads -/

theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi 1#1 1#1 = 1#1 by decide]
    exact ih

/-- An and-reduction from the bit 1 of an array that is 1 everywhere is 1 everywhere. -/
theorem reduce_andi_one {s t u : Shape} {axes : List (Fin s.rank)} (x : s.Idx → BitVec 1) (hx : ∀ i, x i = 1#1)
    (init : u.Idx → BitVec 1) (h : s.ReducesTo axes t) (hu : 0 < u.numel) (hinit : init (Shape.Idx.first hu) = 1#1) (j : t.Idx) :
    Host.reduce IntOp.andi x init h hu j = 1#1 := by
  unfold Host.reduce
  rw [hinit]
  exact foldl_andi_one _ _ fun n => hx _

/-- A scalar broadcast reads the scalar everywhere. -/
theorem bcast_scalar {α : Type} {t : Shape} (h : S_.BroadcastsInDim t (![] : Fin S_.rank → Fin t.rank)) (x : S_.Idx → α) (j : t.Idx) :
    broadcastInDim t ![] h x j = x ix0 :=
  broadcastInDim_apply _ h x j ix0 fun a => a.elim0

/-- A broadcast of a constant array is constant. -/
theorem bcast_const {α : Type} {s t : Shape} (dims : Fin s.rank → Fin t.rank) (h : s.BroadcastsInDim t dims) (c : α) (j : t.Idx) :
    broadcastInDim t dims h (fun _ => c) j = c := rfl

/-- A vector broadcast along rows to a column reads the vector at the row. -/
theorem bcast_col {α : Type} (x : S4096.Idx → α) (q : Fin 4096) (u : Fin 1) :
    broadcastInDim S4096x1 ![0] bcast_S4096_S4096x1_0 x (ix2 q u) = x (ix1 q) :=
  broadcastInDim_apply _ _ x _ (ix1 q) fun a => by
    match a with
    | ⟨0, _⟩ => show q.val = if (4096 : ℕ) = 1 then 0 else q.val; rw [if_neg (by decide)]

/-! ## The positive column of every row -/

/-- The positive of each row: the arg-max, over the row's columns, of "same label and not the row itself", ties to
    the smaller column, started from column 0. -/
def posK (t : S4096.Idx → BitVec 32) : S4096.Idx → BitVec 32 := fun j =>
  (Host.reduce2 reducer_argmax_i1_i32
    (andi
      (cmpi CmpIPredicate.eq
        (broadcastInDim S4096x4096 ![0, 1] bcast_S4096x1_S4096x4096_0_1 (broadcastInDim S4096x1 ![0] bcast_S4096_S4096x1_0 t))
        (broadcastInDim S4096x4096 ![0, 1] bcast_S1x4096_S4096x4096_0_1 (broadcastInDim S1x4096 ![1] bcast_S4096_S1x4096_1 t)))
      (cmpi CmpIPredicate.ne
        (broadcastInDim S4096x4096 ![0, 1] bcast_S4096x1_S4096x4096_0_1
          (broadcastInDim S4096x1 ![0] bcast_S4096_S4096x1_0 (iotaInDim S4096 32 0)))
        (broadcastInDim S4096x4096 ![0, 1] bcast_S1x4096_S4096x4096_0_1
          (broadcastInDim S1x4096 ![1] bcast_S4096_S1x4096_1 (iotaInDim S4096 32 0)))))
    (iotaInDim S4096x4096 32 1) (constantI S_ 1 0#1) (constantI S_ 32 0#32) reducesTo_S4096x4096_S4096_d1 h_S_ j).2

/-- The arg-max step keeps one of its two arguments' indices. -/
theorem step_snd (a b : BitVec 1 × BitVec 32) :
    (reducer_argmax_i1_i32 a b).2 = a.2 ∨ (reducer_argmax_i1_i32 a b).2 = b.2 := by
  unfold reducer_argmax_i1_i32; exact Cert.PosRange.select_or _ _ _

/-- The positive, spelt out, as an equation between functions of the row. -/
theorem posK_def (t : S4096.Idx → BitVec 32) : posK t = fun j =>
    (Host.reduce2 reducer_argmax_i1_i32 (andi
      (cmpi CmpIPredicate.eq
        (broadcastInDim S4096x4096 ![0, 1] bcast_S4096x1_S4096x4096_0_1 (broadcastInDim S4096x1 ![0] bcast_S4096_S4096x1_0 t))
        (broadcastInDim S4096x4096 ![0, 1] bcast_S1x4096_S4096x4096_0_1 (broadcastInDim S1x4096 ![1] bcast_S4096_S1x4096_1 t)))
      (cmpi CmpIPredicate.ne
        (broadcastInDim S4096x4096 ![0, 1] bcast_S4096x1_S4096x4096_0_1
          (broadcastInDim S4096x1 ![0] bcast_S4096_S4096x1_0 (iotaInDim S4096 32 0)))
        (broadcastInDim S4096x4096 ![0, 1] bcast_S1x4096_S4096x4096_0_1
          (broadcastInDim S1x4096 ![1] bcast_S4096_S1x4096_1 (iotaInDim S4096 32 0))))) (iotaInDim S4096x4096 32 1) (constantI S_ 1 0#1) (constantI S_ 32 0#32)
      reducesTo_S4096x4096_S4096_d1 h_S_ j).2 := rfl

/-- Any function that is such an arg-max of column numbers takes values below 4096. -/
theorem argmax_lt (x : S4096x4096.Idx → BitVec 1) (f : S4096.Idx → BitVec 32)
    (hf : f = fun j => (Host.reduce2 reducer_argmax_i1_i32 x (iotaInDim S4096x4096 32 1) (constantI S_ 1 0#1) (constantI S_ 32 0#32)
      reducesTo_S4096x4096_S4096_d1 h_S_ j).2) (j : S4096.Idx) : (f j).toNat < 4096 := by
  subst hf
  exact Cert.PosRange.reduce2_iota_lt reducer_argmax_i1_i32 step_snd x
    (constantI S_ 1 0#1) reducesTo_S4096x4096_S4096_d1 h_S_ j

/-- The positive is always a column number. -/
theorem posK_lt (t : S4096.Idx → BitVec 32) (j : S4096.Idx) : (posK t j).toNat < 4096 :=
  argmax_lt _ (posK t) (posK_def t) j

attribute [irreducible] posK

/-! ## Index normalisation on words below 4096 -/

/-- `p < 0 ? p + 4096 : p` on a vector of words below 4096 is the vector. -/
theorem norm_vec (p : S4096.Idx → BitVec 32) (hp : ∀ j, (p j).toNat < 4096) :
    select (cmpi CmpIPredicate.slt p (broadcastInDim S4096 ![] bcast_S_S4096 (constantI S_ 32 0#32)))
      (addi p (broadcastInDim S4096 ![] bcast_S_S4096 (constantI S_ 32 4096#32))) p = p := by
  funext j
  show Scalar.select (IntOp.cmpi .slt (p j) (broadcastInDim S4096 ![] bcast_S_S4096 (constantI S_ 32 0#32) j)) _ (p j) = p j
  rw [bcast_scalar, constantI_apply, Cert.Words.slt_zero (hp j), select_zero]

/-- The same on a column. -/
theorem norm_col (p : S4096x1.Idx → BitVec 32) (hp : ∀ j, (p j).toNat < 4096) :
    select (cmpi CmpIPredicate.slt p (broadcastInDim S4096x1 ![] bcast_S_S4096x1 (constantI S_ 32 0#32)))
      (addi p (broadcastInDim S4096x1 ![] bcast_S_S4096x1 (constantI S_ 32 4096#32))) p = p := by
  funext j
  show Scalar.select (IntOp.cmpi .slt (p j) (broadcastInDim S4096x1 ![] bcast_S_S4096x1 (constantI S_ 32 0#32) j)) _ (p j) = p j
  rw [bcast_scalar, constantI_apply, Cert.Words.slt_zero (hp j), select_zero]

/-! ## The gather of the positives' rows -/

/-- Rows of `x` gathered at the words `p`, with index normalisation and the out-of-bounds fill. -/
def takeF (x : S4096x4096.Idx → EReal) (p : S4096.Idx → BitVec 32) : S4096x4096.Idx → EReal :=
  select
    (broadcastInDim S4096x4096 ![0] bcast_S4096_S4096x4096_0
      (Host.reduce IntOp.andi
        (andi
          (cmpi CmpIPredicate.sge
            (broadcastInDim S4096x1 ![0] bcast_S4096_S4096x1_0
              (select (cmpi CmpIPredicate.slt p (broadcastInDim S4096 ![] bcast_S_S4096 (constantI S_ 32 0#32)))
                (addi p (broadcastInDim S4096 ![] bcast_S_S4096 (constantI S_ 32 4096#32))) p))
            (broadcastInDim S4096x1 ![] bcast_S_S4096x1 (constantI S_ 32 0#32)))
          (cmpi CmpIPredicate.sle
            (broadcastInDim S4096x1 ![0] bcast_S4096_S4096x1_0
              (select (cmpi CmpIPredicate.slt p (broadcastInDim S4096 ![] bcast_S_S4096 (constantI S_ 32 0#32)))
                (addi p (broadcastInDim S4096 ![] bcast_S_S4096 (constantI S_ 32 4096#32))) p))
            (broadcastInDim S4096x1 ![0, 1] bcast_S1x1_S4096x1_0_1
              (broadcastInDim S1x1 ![1] bcast_S1_S1x1_1 (constantI S1 32 4095#32)))))
        (constantI S_ 1 1#1) reducesTo_S4096x1_S4096_d1 h_S_))
    (Host.gather gather_S4096x4096_S4096x1_S4096x4096_1_0_n_n_0_1_14096 x
      (broadcastInDim S4096x1 ![0] bcast_S4096_S4096x1_0
        (select (cmpi CmpIPredicate.slt p (broadcastInDim S4096 ![] bcast_S_S4096 (constantI S_ 32 0#32)))
          (addi p (broadcastInDim S4096 ![] bcast_S_S4096 (constantI S_ 32 4096#32))) p)))
    (broadcastInDim S4096x4096 ![] bcast_S_S4096x4096 (constant (F := Ideal) S_ FTy.f32 0x7FC00000#32))

theorem takeF_apply (x : S4096x4096.Idx → EReal) (p : S4096.Idx → BitVec 32) (hp : ∀ j, (p j).toNat < 4096) (q k : Fin 4096) :
    takeF x p (ix2 q k) = x (ix2 (Cert.Spec.pidx (p (ix1 q))) k) := by
  unfold takeF
  rw [norm_vec p hp]
  have h11 : ∀ i : S4096x1.Idx, andi
          (cmpi CmpIPredicate.sge (broadcastInDim S4096x1 ![0] bcast_S4096_S4096x1_0 p)
            (broadcastInDim S4096x1 ![] bcast_S_S4096x1 (constantI S_ 32 0#32)))
          (cmpi CmpIPredicate.sle (broadcastInDim S4096x1 ![0] bcast_S4096_S4096x1_0 p)
            (broadcastInDim S4096x1 ![0, 1] bcast_S1x1_S4096x1_0_1
              (broadcastInDim S1x1 ![1] bcast_S1_S1x1_1 (constantI S1 32 4095#32)))) i = 1#1 := by
    intro i
    obtain ⟨e, u, rfl⟩ : ∃ (e : Fin 4096) (u : Fin 1), i = ix2 e u := ⟨i 0, i 1, eq_ix2 i⟩
    show IntOp.andi (IntOp.cmpi .sge (broadcastInDim S4096x1 ![0] bcast_S4096_S4096x1_0 p (ix2 e u))
        (broadcastInDim S4096x1 ![] bcast_S_S4096x1 (constantI S_ 32 0#32) (ix2 e u)))
      (IntOp.cmpi .sle (broadcastInDim S4096x1 ![0] bcast_S4096_S4096x1_0 p (ix2 e u))
        (broadcastInDim S4096x1 ![0, 1] bcast_S1x1_S4096x1_0_1
          (broadcastInDim S1x1 ![1] bcast_S1_S1x1_1 (constantI S1 32 4095#32)) (ix2 e u))) = 1#1
    have h4095 : broadcastInDim S4096x1 ![0, 1] bcast_S1x1_S4096x1_0_1
        (broadcastInDim S1x1 ![1] bcast_S1_S1x1_1 (constantI S1 32 4095#32)) (ix2 e u) = 4095#32 := rfl
    rw [bcast_col, bcast_scalar, constantI_apply, h4095, Cert.Words.sge_zero (hp _), Cert.Words.sle_4095 (hp _)]
    decide
  have h12 : Host.reduce IntOp.andi (andi
          (cmpi CmpIPredicate.sge (broadcastInDim S4096x1 ![0] bcast_S4096_S4096x1_0 p)
            (broadcastInDim S4096x1 ![] bcast_S_S4096x1 (constantI S_ 32 0#32)))
          (cmpi CmpIPredicate.sle (broadcastInDim S4096x1 ![0] bcast_S4096_S4096x1_0 p)
            (broadcastInDim S4096x1 ![0, 1] bcast_S1x1_S4096x1_0_1
              (broadcastInDim S1x1 ![1] bcast_S1_S1x1_1 (constantI S1 32 4095#32)))))
        (constantI S_ 1 1#1) reducesTo_S4096x1_S4096_d1 h_S_ = fun _ => 1#1 :=
    funext fun j => reduce_andi_one _ h11 _ _ _ rfl j
  rw [h12]
  rw [select_apply]
  rw [bcast_const, select_one]
  refine (Cert.ScatterGather.gather_rows_apply (N := 4096) (M := 4096) (C := 4096) (by decide)
    gather_S4096x4096_S4096x1_S4096x4096_1_0_n_n_0_1_14096.wf x _ (ix2 q k)).trans ?_
  refine congrArg x ?_
  refine congrArg (fun r => ix2 r k) ?_
  apply Fin.ext
  show min (broadcastInDim S4096x1 ![0] bcast_S4096_S4096x1_0 p (ix2 q (0 : Fin 1))).toInt.toNat (4096 - 1) = _
  rw [bcast_col, Cert.Words.clamp (hp _), Cert.Spec.pidx_val (hp _)]

/-! ## The gather of each row's positive similarity -/

/-- A column read as a `[4096, 1, 1]` array reads the column at the row. -/
theorem cast_col3 {α : Type} (p : S4096x1.Idx → α) (e : Fin 4096) (u w : Fin 1) :
    shapeCast S4096x1x1 p shapeCasts_S4096x1_S4096x1x1 (ix3 e u w) = p (ix2 e (0 : Fin 1)) :=
  shapeCast_apply p _ _ _ (by
    have hu : u.val = 0 := by omega
    have hw : w.val = 0 := by omega
    rw [Shape.rowMajor_val_two, Shape.rowMajor_val_three]
    show e.val * 1 + 0 = (e.val * 1 + u.val) * 1 + w.val
    omega)

/-- One element per row of `x`, at the column words `p`, with index normalisation and the out-of-bounds fill. -/
def alongF (x : S4096x4096.Idx → EReal) (p : S4096x1.Idx → BitVec 32) : S4096x1.Idx → EReal :=
  select
    (Host.reduce IntOp.andi
      (andi
        (cmpi CmpIPredicate.sge
          (shapeCast S4096x1x1
            (select (cmpi CmpIPredicate.slt p (broadcastInDim S4096x1 ![] bcast_S_S4096x1 (constantI S_ 32 0#32)))
              (addi p (broadcastInDim S4096x1 ![] bcast_S_S4096x1 (constantI S_ 32 4096#32))) p)
            shapeCasts_S4096x1_S4096x1x1)
          (broadcastInDim S4096x1x1 ![] bcast_S_S4096x1x1 (constantI S_ 32 0#32)))
        (cmpi CmpIPredicate.sle
          (shapeCast S4096x1x1
            (select (cmpi CmpIPredicate.slt p (broadcastInDim S4096x1 ![] bcast_S_S4096x1 (constantI S_ 32 0#32)))
              (addi p (broadcastInDim S4096x1 ![] bcast_S_S4096x1 (constantI S_ 32 4096#32))) p)
            shapeCasts_S4096x1_S4096x1x1)
          (broadcastInDim S4096x1x1 ![0, 1, 2] bcast_S1x1x1_S4096x1x1_0_1_2
            (broadcastInDim S1x1x1 ![2] bcast_S1_S1x1x1_2 (constantI S1 32 4095#32)))))
      (constantI S_ 1 1#1) reducesTo_S4096x1x1_S4096x1_d2 h_S_)
    (Host.gather gather_S4096x4096_S4096x1x1_S4096x1_n_1_0_0_1_2_11 x
      (shapeCast S4096x1x1
        (select (cmpi CmpIPredicate.slt p (broadcastInDim S4096x1 ![] bcast_S_S4096x1 (constantI S_ 32 0#32)))
          (addi p (broadcastInDim S4096x1 ![] bcast_S_S4096x1 (constantI S_ 32 4096#32))) p)
        shapeCasts_S4096x1_S4096x1x1))
    (broadcastInDim S4096x1 ![] bcast_S_S4096x1 (constant (F := Ideal) S_ FTy.f32 0x7FC00000#32))

theorem alongF_apply (x : S4096x4096.Idx → EReal) (p : S4096x1.Idx → BitVec 32) (hp : ∀ j, (p j).toNat < 4096) (q : Fin 4096) (u : Fin 1) :
    alongF x p (ix2 q u) = x (ix2 q (Cert.Spec.pidx (p (ix2 q (0 : Fin 1))))) := by
  unfold alongF
  rw [norm_col p hp]
  have h11 : ∀ i : S4096x1x1.Idx, andi
        (cmpi CmpIPredicate.sge (shapeCast S4096x1x1 p shapeCasts_S4096x1_S4096x1x1)
          (broadcastInDim S4096x1x1 ![] bcast_S_S4096x1x1 (constantI S_ 32 0#32)))
        (cmpi CmpIPredicate.sle (shapeCast S4096x1x1 p shapeCasts_S4096x1_S4096x1x1)
          (broadcastInDim S4096x1x1 ![0, 1, 2] bcast_S1x1x1_S4096x1x1_0_1_2
            (broadcastInDim S1x1x1 ![2] bcast_S1_S1x1x1_2 (constantI S1 32 4095#32)))) i = 1#1 := by
    intro i
    obtain ⟨e, u, w, rfl⟩ : ∃ (e : Fin 4096) (u w : Fin 1), i = ix3 e u w := ⟨i 0, i 1, i 2, eq_ix3 i⟩
    show IntOp.andi (IntOp.cmpi .sge (shapeCast S4096x1x1 p shapeCasts_S4096x1_S4096x1x1 (ix3 e u w))
        (broadcastInDim S4096x1x1 ![] bcast_S_S4096x1x1 (constantI S_ 32 0#32) (ix3 e u w)))
      (IntOp.cmpi .sle (shapeCast S4096x1x1 p shapeCasts_S4096x1_S4096x1x1 (ix3 e u w))
        (broadcastInDim S4096x1x1 ![0, 1, 2] bcast_S1x1x1_S4096x1x1_0_1_2
          (broadcastInDim S1x1x1 ![2] bcast_S1_S1x1x1_2 (constantI S1 32 4095#32)) (ix3 e u w))) = 1#1
    have h4095 : broadcastInDim S4096x1x1 ![0, 1, 2] bcast_S1x1x1_S4096x1x1_0_1_2
        (broadcastInDim S1x1x1 ![2] bcast_S1_S1x1x1_2 (constantI S1 32 4095#32)) (ix3 e u w) = 4095#32 := rfl
    rw [cast_col3, bcast_scalar, constantI_apply, h4095, Cert.Words.sge_zero (hp _), Cert.Words.sle_4095 (hp _)]
    decide
  have h12 : Host.reduce IntOp.andi (andi
        (cmpi CmpIPredicate.sge (shapeCast S4096x1x1 p shapeCasts_S4096x1_S4096x1x1)
          (broadcastInDim S4096x1x1 ![] bcast_S_S4096x1x1 (constantI S_ 32 0#32)))
        (cmpi CmpIPredicate.sle (shapeCast S4096x1x1 p shapeCasts_S4096x1_S4096x1x1)
          (broadcastInDim S4096x1x1 ![0, 1, 2] bcast_S1x1x1_S4096x1x1_0_1_2
            (broadcastInDim S1x1x1 ![2] bcast_S1_S1x1x1_2 (constantI S1 32 4095#32)))))
      (constantI S_ 1 1#1) reducesTo_S4096x1x1_S4096x1_d2 h_S_ = fun _ => 1#1 :=
    funext fun j => reduce_andi_one _ h11 _ _ _ rfl j
  rw [h12, select_apply, select_one]
  refine (Cert.GatherAlong.gather_along_apply (N := 4096) (C := 4096) (by decide)
    gather_S4096x4096_S4096x1x1_S4096x1_n_1_0_0_1_2_11.wf x _ (ix2 q u)).trans ?_
  refine congrArg x ?_
  refine congrArg (fun r => ix2 q r) ?_
  apply Fin.ext
  show min (shapeCast S4096x1x1 p shapeCasts_S4096x1_S4096x1x1 (ix3 q (0 : Fin 1) (0 : Fin 1))).toInt.toNat (4096 - 1) = _
  rw [cast_col3, Cert.Words.clamp (hp _), Cert.Spec.pidx_val (hp _)]

/-! ## The host stretches between the regions, one at a time, from any contents -/

section Stretches

variable (W : Valuation τ sig (Elt Ideal))

/-- The first stretch leaves the "same label, other row" mask of the labels it finds. -/
theorem after_mask : (StableHlo.after (hostOps1 (F := Ideal)) W (Proc.devRef .tc main_v13) : S4096x4096.Idx → BitVec 1)
    = (andi
      (cmpi CmpIPredicate.eq
        (broadcastInDim S4096x4096 ![0, 1] bcast_S4096x1_S4096x4096_0_1 (broadcastInDim S4096x1 ![0] bcast_S4096_S4096x1_0 (W (Proc.devRef .tc main_arg1))))
        (broadcastInDim S4096x4096 ![0, 1] bcast_S1x4096_S4096x4096_0_1 (broadcastInDim S1x4096 ![1] bcast_S4096_S1x4096_1 (W (Proc.devRef .tc main_arg1)))))
      (cmpi CmpIPredicate.ne
        (broadcastInDim S4096x4096 ![0, 1] bcast_S4096x1_S4096x4096_0_1
          (broadcastInDim S4096x1 ![0] bcast_S4096_S4096x1_0 (iotaInDim S4096 32 0)))
        (broadcastInDim S4096x4096 ![0, 1] bcast_S1x4096_S4096x4096_0_1
          (broadcastInDim S1x4096 ![1] bcast_S4096_S1x4096_1 (iotaInDim S4096 32 0))))) := by
  after_results

/-- The arg-max stretch leaves, per row, the arg-max of the mask it finds. -/
theorem after_argmax : (StableHlo.after (hostOps1_1 (F := Ideal)) W (Proc.devRef .tc main_v14) : S4096.Idx → BitVec 32)
    = fun j => (Host.reduce2 reducer_argmax_i1_i32 (W (Proc.devRef .tc main_v13)) (iotaInDim S4096x4096 32 1) (constantI S_ 1 0#1) (constantI S_ 32 0#32)
      reducesTo_S4096x4096_S4096_d1 h_S_ j).2 := by
  after_results
  rfl

theorem after_v15 : (StableHlo.after (hostOps1_2 (F := Ideal)) W (Proc.devRef .tc main_v15) : S4096x1.Idx → BitVec 32)
    = broadcastInDim S4096x1 ![0] bcast_S4096_S4096x1_0 (W (Proc.devRef .tc main_v14)) := by
  after_results

theorem after_v18 : (StableHlo.after (hostOps1_5 (F := Ideal)) W (Proc.devRef .tc main_v18) : S4096x1.Idx → BitVec 32)
    = broadcastInDim S4096x1 ![0] bcast_S4096_S4096x1_0 (W (Proc.devRef .tc main_v14)) := by
  after_results

set_option maxHeartbeats 2000000 in
theorem after_v16 : (StableHlo.after (hostOps1_3 (F := Ideal)) W (Proc.devRef .tc main_v16) : S4096x1.Idx → EReal)
    = alongF (W (Proc.devRef .tc main_v1)) (W (Proc.devRef .tc main_v15)) := by
  after_results_simp
  rfl

set_option maxHeartbeats 2000000 in
theorem after_v17 : (StableHlo.after (hostOps1_4 (F := Ideal)) W (Proc.devRef .tc main_v17) : S4096x4096.Idx → EReal)
    = takeF (W (Proc.devRef .tc main_v1)) (W (Proc.devRef .tc main_v14)) := by
  after_results_simp
  rfl

end Stretches

/-! ## The buffers the second region is entered with, from what the first region leaves -/

section Chain

variable (V : Valuation τ sig (Elt Ideal))

abbrev U3 : Valuation τ sig (Elt Ideal) := StableHlo.after (hostOps1 (F := Ideal)) V
abbrev U4 : Valuation τ sig (Elt Ideal) := StableHlo.after (hostOps1_1 (F := Ideal)) (U3 V)
abbrev U5 : Valuation τ sig (Elt Ideal) := StableHlo.after (hostOps1_2 (F := Ideal)) (U4 V)
abbrev U6 : Valuation τ sig (Elt Ideal) := StableHlo.after (hostOps1_3 (F := Ideal)) (U5 V)
abbrev U7 : Valuation τ sig (Elt Ideal) := StableHlo.after (hostOps1_4 (F := Ideal)) (U6 V)
abbrev U8 : Valuation τ sig (Elt Ideal) := StableHlo.after (hostOps1_5 (F := Ideal)) (U7 V)

/-- A buffer a stretch does not write keeps its contents through it. -/
theorem U3_keep (r : Ref sig .tc) (h : r ∉ hostOps1_W) : U3 V (Proc.devRef .tc r) = V (Proc.devRef .tc r) :=
  StableHlo.after_of_writes_sub hostOps1 _ hostOps1_writes h
theorem U4_keep (r : Ref sig .tc) (h : r ∉ hostOps1_1_W) : U4 V (Proc.devRef .tc r) = U3 V (Proc.devRef .tc r) :=
  StableHlo.after_of_writes_sub hostOps1_1 _ hostOps1_1_writes h
theorem U5_keep (r : Ref sig .tc) (h : r ∉ hostOps1_2_W) : U5 V (Proc.devRef .tc r) = U4 V (Proc.devRef .tc r) :=
  StableHlo.after_of_writes_sub hostOps1_2 _ hostOps1_2_writes h
theorem U6_keep (r : Ref sig .tc) (h : r ∉ hostOps1_3_W) : U6 V (Proc.devRef .tc r) = U5 V (Proc.devRef .tc r) :=
  StableHlo.after_of_writes_sub hostOps1_3 _ hostOps1_3_writes h
theorem U7_keep (r : Ref sig .tc) (h : r ∉ hostOps1_4_W) : U7 V (Proc.devRef .tc r) = U6 V (Proc.devRef .tc r) :=
  StableHlo.after_of_writes_sub hostOps1_4 _ hostOps1_4_writes h
theorem U8_keep (r : Ref sig .tc) (h : r ∉ hostOps1_5_W) : U8 V (Proc.devRef .tc r) = U7 V (Proc.devRef .tc r) :=
  StableHlo.after_of_writes_sub hostOps1_5 _ hostOps1_5_writes h

/-! ### What the glue leaves alone: the similarity matrix and the two arguments -/

theorem U5_v1 : U5 V (Proc.devRef .tc main_v1) = V (Proc.devRef .tc main_v1) :=
  (U5_keep V main_v1 (by decide)).trans ((U4_keep V main_v1 (by decide)).trans (U3_keep V main_v1 (by decide)))
theorem U6_v1 : U6 V (Proc.devRef .tc main_v1) = V (Proc.devRef .tc main_v1) :=
  (U6_keep V main_v1 (by decide)).trans (U5_v1 V)
theorem U8_v1 : U8 V (Proc.devRef .tc main_v1) = V (Proc.devRef .tc main_v1) :=
  (U8_keep V main_v1 (by decide)).trans ((U7_keep V main_v1 (by decide)).trans (U6_v1 V))
theorem U8_arg0 : U8 V (Proc.devRef .tc main_arg0) = V (Proc.devRef .tc main_arg0) :=
  (U8_keep V main_arg0 (by decide)).trans ((U7_keep V main_arg0 (by decide)).trans ((U6_keep V main_arg0 (by decide)).trans
    ((U5_keep V main_arg0 (by decide)).trans ((U4_keep V main_arg0 (by decide)).trans (U3_keep V main_arg0 (by decide))))))
theorem U8_arg1 : U8 V (Proc.devRef .tc main_arg1) = V (Proc.devRef .tc main_arg1) :=
  (U8_keep V main_arg1 (by decide)).trans ((U7_keep V main_arg1 (by decide)).trans ((U6_keep V main_arg1 (by decide)).trans
    ((U5_keep V main_arg1 (by decide)).trans ((U4_keep V main_arg1 (by decide)).trans (U3_keep V main_arg1 (by decide))))))

/-! ### The positives -/

theorem U4_v14 : (U4 V (Proc.devRef .tc main_v14) : S4096.Idx → BitVec 32) = posK (V (Proc.devRef .tc main_arg1)) :=
  (after_argmax (U3 V)).trans (by
    have hm : (U3 V (Proc.devRef .tc main_v13) : S4096x4096.Idx → BitVec 1)
        = (andi
      (cmpi CmpIPredicate.eq
        (broadcastInDim S4096x4096 ![0, 1] bcast_S4096x1_S4096x4096_0_1 (broadcastInDim S4096x1 ![0] bcast_S4096_S4096x1_0 (V (Proc.devRef .tc main_arg1))))
        (broadcastInDim S4096x4096 ![0, 1] bcast_S1x4096_S4096x4096_0_1 (broadcastInDim S1x4096 ![1] bcast_S4096_S1x4096_1 (V (Proc.devRef .tc main_arg1)))))
      (cmpi CmpIPredicate.ne
        (broadcastInDim S4096x4096 ![0, 1] bcast_S4096x1_S4096x4096_0_1
          (broadcastInDim S4096x1 ![0] bcast_S4096_S4096x1_0 (iotaInDim S4096 32 0)))
        (broadcastInDim S4096x4096 ![0, 1] bcast_S1x4096_S4096x4096_0_1
          (broadcastInDim S1x4096 ![1] bcast_S4096_S1x4096_1 (iotaInDim S4096 32 0))))) := after_mask V
    rw [hm]
    exact (posK_def _).symm)
theorem U5_v14 : (U5 V (Proc.devRef .tc main_v14) : S4096.Idx → BitVec 32) = posK (V (Proc.devRef .tc main_arg1)) :=
  (U5_keep V main_v14 (by decide)).trans (U4_v14 V)
theorem U6_v14 : (U6 V (Proc.devRef .tc main_v14) : S4096.Idx → BitVec 32) = posK (V (Proc.devRef .tc main_arg1)) :=
  (U6_keep V main_v14 (by decide)).trans (U5_v14 V)
theorem U7_v14 : (U7 V (Proc.devRef .tc main_v14) : S4096.Idx → BitVec 32) = posK (V (Proc.devRef .tc main_arg1)) :=
  (U7_keep V main_v14 (by decide)).trans (U6_v14 V)
theorem U8_v14 : (U8 V (Proc.devRef .tc main_v14) : S4096.Idx → BitVec 32) = posK (V (Proc.devRef .tc main_arg1)) :=
  (U8_keep V main_v14 (by decide)).trans (U7_v14 V)

/-- The column of positive words the second region reads: row `q` holds row `q`'s positive. -/
theorem U8_v18 (q : Fin 4096) :
    (U8 V (Proc.devRef .tc main_v18) : S4096x1.Idx → BitVec 32) (ix2 q (0 : Fin 1)) = posK (V (Proc.devRef .tc main_arg1)) (ix1 q) := by
  have h : (U8 V (Proc.devRef .tc main_v18) : S4096x1.Idx → BitVec 32) = broadcastInDim S4096x1 ![0] bcast_S4096_S4096x1_0 (posK (V (Proc.devRef .tc main_arg1))) :=
    (after_v18 (U7 V)).trans (by rw [U7_v14 V])
  rw [h, bcast_col]

/-! ### The positive similarities and the positives' rows -/

theorem U5_v15 : (U5 V (Proc.devRef .tc main_v15) : S4096x1.Idx → BitVec 32) = broadcastInDim S4096x1 ![0] bcast_S4096_S4096x1_0 (posK (V (Proc.devRef .tc main_arg1))) :=
  (after_v15 (U4 V)).trans (by rw [U4_v14 V])

theorem bcast_pos_lt (j : S4096x1.Idx) : ((broadcastInDim S4096x1 ![0] bcast_S4096_S4096x1_0 (posK (V (Proc.devRef .tc main_arg1)))) j).toNat < 4096 := by
  obtain ⟨e, u, rfl⟩ : ∃ (e : Fin 4096) (u : Fin 1), j = ix2 e u := ⟨j 0, j 1, eq_ix2 j⟩
  rw [bcast_col]
  exact posK_lt _ _

/-- The column of positive similarities: row `q` holds the similarity of row `q` and its positive. -/
theorem U8_v16 (q : Fin 4096) :
    (U8 V (Proc.devRef .tc main_v16) : S4096x1.Idx → EReal) (ix2 q (0 : Fin 1))
      = (V (Proc.devRef .tc main_v1) : S4096x4096.Idx → EReal) (ix2 q (Cert.Spec.pidx (posK (V (Proc.devRef .tc main_arg1)) (ix1 q)))) := by
  have h : (U8 V (Proc.devRef .tc main_v16) : S4096x1.Idx → EReal)
      = alongF (V (Proc.devRef .tc main_v1)) (broadcastInDim S4096x1 ![0] bcast_S4096_S4096x1_0 (posK (V (Proc.devRef .tc main_arg1)))) :=
    (U8_keep V main_v16 (by decide)).trans ((U7_keep V main_v16 (by decide)).trans
      ((after_v16 (U5 V)).trans (by rw [U5_v1 V, U5_v15 V])))
  rw [h, alongF_apply _ _ (bcast_pos_lt V) q 0, bcast_col]

/-- The matrix of the positives' rows: row `q` holds the similarity row of row `q`'s positive. -/
theorem U8_v17 (q k : Fin 4096) :
    (U8 V (Proc.devRef .tc main_v17) : S4096x4096.Idx → EReal) (ix2 q k)
      = (V (Proc.devRef .tc main_v1) : S4096x4096.Idx → EReal) (ix2 (Cert.Spec.pidx (posK (V (Proc.devRef .tc main_arg1)) (ix1 q))) k) := by
  have h : (U8 V (Proc.devRef .tc main_v17) : S4096x4096.Idx → EReal)
      = takeF (V (Proc.devRef .tc main_v1)) (posK (V (Proc.devRef .tc main_arg1))) :=
    (U8_keep V main_v17 (by decide)).trans ((after_v17 (U6 V)).trans (by rw [U6_v1 V, U6_v14 V]))
  rw [h, takeF_apply _ _ (posK_lt _) q k]

end Chain

end Cert.KernelIdeal.Glue
end
-- ==== Proof.KI.Tail.lean ====
import proofs.«117435_j26147760898822_1_alg».proof.Proof.Gen.KernelIdeal.Launch
import proofs.«117435_j26147760898822_1_alg».proof.Proof.Spec
import Idealize.ShloMosaic.Lib.StableHlo.Run
import Idealize.ShloMosaic.PureOps.Ideal.Laws
import Idealize.ShloMosaic.Lib.ValueIdx

/-!
# The kernel program's host tail

After the second region the program holds the two row losses as columns `[4096, 1]`. The tail sums each column
over both axes from the zero word, divides by the word for 4096, multiplies the second mean by the word for 1 and
adds: the specification's `mean f + one · mean g` when the columns hold `f` and `g` row by row.
-/

noncomputable section

open scoped BigOperators

namespace Cert.KernelIdeal.Glue

open Cert.KernelIdeal Cert.KernelIdeal.Gen Idealize.ShloMosaic Idealize.ShloMosaic.ValueIdx

/-- The indices of a column `[4096, 1]` are its row numbers. -/
def colEquiv : S4096x1.Idx ≃ Fin 4096 where
  toFun i := i 0
  invFun q := ix2 q (0 : Fin 1)
  left_inv i := by
    funext a
    match a with
    | ⟨0, _⟩ => rfl
    | ⟨1, _⟩ => exact Fin.ext (by have h : (i 1).val < 1 := (i 1).isLt; show 0 = (i 1).val; omega)
  right_inv _ := rfl

/-- A sum over a column's indices is the sum over its rows. -/
theorem sum_col (f : Fin 4096 → EReal) : ∑ i : S4096x1.Idx, f (i 0) = ∑ q : Fin 4096, f q :=
  Equiv.sum_comp colEquiv f

/-- The mean the tail takes of a column holding `f` row by row is the specification's mean of `f`. -/
theorem mean_col (X : S4096x1.Idx → EReal) (f : Fin 4096 → EReal) (h : X = fun i => f (i 0)) (j : S_.Idx) :
    Host.divf (F := Ideal) (Host.reduceAdd (F := Ideal) (φ := .f32) X (constant (F := Ideal) S_ .f32 0x00000000#32) reducesTo_S4096x1_S_d0_1 h_S_)
        (constant (F := Ideal) S_ .f32 0x45800000#32) j
      = Cert.Spec.mean f := by
  show Ideal.div (Ideal.hostReduceAdd reducesTo_S4096x1_S_d0_1 X (Ideal.ofBits .f32 0x00000000#32) j) (Ideal.ofBits .f32 0x45800000#32) = _
  rw [Ideal.hostReduceAdd_total _ (fun b => b.elim0), Ideal.ofBits_zero_f32, h, sum_col]
  rfl

/-- THE TAIL: the result is the first column's mean plus `one ·` the second's. -/
theorem tail_eq (V' : Valuation τ sig (Elt Ideal)) (f g : Fin 4096 → EReal)
    (h0 : (V' (Proc.devRef .tc main_v19_0) : S4096x1.Idx → EReal) = fun i => f (i 0))
    (h1 : (V' (Proc.devRef .tc main_v19_1) : S4096x1.Idx → EReal) = fun i => g (i 0)) :
    (StableHlo.after (hostOps2 (F := Ideal)) V' (Proc.devRef .tc main_v25) : S_.Idx → EReal)
      = fun _ => Cert.Spec.mean f + Cert.Spec.one * Cert.Spec.mean g := by
  after_results
  funext j
  rw [addf_apply, mulf_apply, mean_col _ f h0 j, mean_col _ g h1 j]
  rfl

end Cert.KernelIdeal.Glue

end
-- ==== Proof.KI.Value.lean ====
import proofs.«117435_j26147760898822_1_alg».proof.Proof.KI.Run
import proofs.«117435_j26147760898822_1_alg».proof.Proof.KI.Value0
import proofs.«117435_j26147760898822_1_alg».proof.Proof.KI.Value1
import proofs.«117435_j26147760898822_1_alg».proof.Proof.Spec
import proofs.«117435_j26147760898822_1_alg».proof.Proof.KI.Glue
import proofs.«117435_j26147760898822_1_alg».proof.Proof.KI.Tail
import Idealize.ShloMosaic.Lib.StableHlo.Run
import Idealize.ShloMosaic.Lib.ValueIdx

/-!
# What the kernel program returns

Read through the fold of the ten items: the first region leaves the scaled Gram matrix of the input (the cast to bf16
being the identity at the ideal instance); the host glue picks the positives and gathers the matrix along them; the
second region leaves the two row losses of exactly those arrays; the tail takes the two means. The result is the loss
of the closed-form specification at the input and at the positives' words.
-/

set_option pp.maxSteps 5000
set_option pp.deepTerms false

noncomputable section

namespace Cert.KernelIdeal.Hand

open Cert.KernelIdeal Cert.KernelIdeal.Gen Cert.KernelIdeal.R0 Cert.KernelIdeal.R1
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

/-- At the ideal instance the cast to bf16 is the identity: the first region reads the input itself. -/
theorem V1_v0 (c : Dev nD) : (V1 m ρ c main_v0 : S4096x2048.Idx → EReal) = m ((c : Thread nD τ).loc main_arg0) := by
  show (StableHlo.after (hostOps0 (F := Ideal)) (W0 m ρ c) (Proc.devRef .tc main_v0) : S4096x2048.Idx → EReal) = _
  after_results
  rfl

/-- The first region leaves the scaled Gram matrix of the input in `main_v1`. -/
theorem W2_v1 (c : Dev nD) : (W2 m ρ c (Proc.devRef .tc main_v1) : S4096x4096.Idx → EReal)
    = fun i => Cert.Spec.simAt (m ((c : Thread nD τ).loc main_arg0)) (i 0) (i 1) := by
  have h := W2_out m ρ c
  have h0 := final0 (V1 m ρ) c
  rw [V1_v0 m ρ c] at h0
  exact h.trans h0

/-- The labels reach the host glue as launched. -/
theorem W2_arg1 (c : Dev nD) : W2 m ρ c (Proc.devRef .tc main_arg1) = m ((c : Thread nD τ).loc main_arg1) :=
  (W2_of_ne m ρ c main_arg1 (by decide)).trans (StableHlo.after_of_writes_sub hostOps0 _ hostOps0_writes (by decide))

/-- The positives' words, row by row: the arg-max chain of the labels. -/
def pw (c : Dev nD) : Fin 4096 → BitVec 32 := fun q => Cert.KernelIdeal.Glue.posK (m ((c : Thread nD τ).loc main_arg1)) (ix1 q)

/-- The second region is entered from the glue's fold of what the first region leaves. -/
theorem W8_eq (c : Dev nD) : W8 m ρ c = Cert.KernelIdeal.Glue.U8 (W2 m ρ c) := rfl

/-- The first row loss, as the second region leaves it. -/
theorem W9_l1 (c : Dev nD) : (W9 m ρ c (Proc.devRef .tc main_v19_0) : S4096x1.Idx → EReal)
    = fun i => Cert.Spec.l1 (m ((c : Thread nD τ).loc main_arg0)) (pw m c) (i 0) := by
  have h : (W9 m ρ c (Proc.devRef .tc main_v19_0) : S4096x1.Idx → EReal) = _ := (W9_arr m ρ c 4).trans (final1_4 (V8 m ρ) c)
  rw [h]
  funext i
  obtain ⟨q, u, rfl⟩ : ∃ (q : Fin 4096) (u : Fin 1), i = ix2 q u := ⟨i 0, i 1, eq_ix2 i⟩
  show Cert.Spec.row1 (fun k => (W8 m ρ c (Proc.devRef .tc main_v1) : S4096x4096.Idx → EReal) (ix2 q k))
      ((W8 m ρ c (Proc.devRef .tc main_v16) : S4096x1.Idx → EReal) (ix2 q (0 : Fin 1)))
      (Cert.Spec.keepB q ((W8 m ρ c (Proc.devRef .tc main_v18) : S4096x1.Idx → BitVec 32) (ix2 q (0 : Fin 1))))
    = Cert.Spec.l1 (m ((c : Thread nD τ).loc main_arg0)) (pw m c) q
  rw [W8_eq, Cert.KernelIdeal.Glue.U8_v1, Cert.KernelIdeal.Glue.U8_v16 _ q, Cert.KernelIdeal.Glue.U8_v18 _ q, W2_arg1, W2_v1]
  rfl

/-- The second row loss. -/
theorem W9_l2 (c : Dev nD) : (W9 m ρ c (Proc.devRef .tc main_v19_1) : S4096x1.Idx → EReal)
    = fun i => Cert.Spec.l2 (m ((c : Thread nD τ).loc main_arg0)) (pw m c) (i 0) := by
  have h : (W9 m ρ c (Proc.devRef .tc main_v19_1) : S4096x1.Idx → EReal) = _ := (W9_arr m ρ c 5).trans (final1_5 (V8 m ρ) c)
  rw [h]
  funext i
  obtain ⟨q, u, rfl⟩ : ∃ (q : Fin 4096) (u : Fin 1), i = ix2 q u := ⟨i 0, i 1, eq_ix2 i⟩
  have e1 : (fun k : Fin 4096 => (W8 m ρ c (Proc.devRef .tc main_v1) : S4096x4096.Idx → EReal) (ix2 q k))
      = fun k => Cert.Spec.simAt (m ((c : Thread nD τ).loc main_arg0)) q k := by
    funext k; rw [W8_eq, Cert.KernelIdeal.Glue.U8_v1, W2_v1]; rfl
  have e17 : (fun k : Fin 4096 => (W8 m ρ c (Proc.devRef .tc main_v17) : S4096x4096.Idx → EReal) (ix2 q k))
      = fun k => Cert.Spec.simAt (m ((c : Thread nD τ).loc main_arg0)) (Cert.Spec.pidx (pw m c q)) k := by
    funext k; rw [W8_eq, Cert.KernelIdeal.Glue.U8_v17 _ q k, W2_arg1, W2_v1]; rfl
  have e16 : (W8 m ρ c (Proc.devRef .tc main_v16) : S4096x1.Idx → EReal) (ix2 q (0 : Fin 1))
      = Cert.Spec.simAt (m ((c : Thread nD τ).loc main_arg0)) q (Cert.Spec.pidx (pw m c q)) := by
    rw [W8_eq, Cert.KernelIdeal.Glue.U8_v16 _ q, W2_arg1, W2_v1]; rfl
  have e18 : (W8 m ρ c (Proc.devRef .tc main_v18) : S4096x1.Idx → BitVec 32) (ix2 q (0 : Fin 1)) = pw m c q := by
    rw [W8_eq, Cert.KernelIdeal.Glue.U8_v18 _ q, W2_arg1]; rfl
  show Cert.Spec.row2 (fun k => (W8 m ρ c (Proc.devRef .tc main_v1) : S4096x4096.Idx → EReal) (ix2 q k))
      (fun k => (W8 m ρ c (Proc.devRef .tc main_v17) : S4096x4096.Idx → EReal) (ix2 q k))
      ((W8 m ρ c (Proc.devRef .tc main_v16) : S4096x1.Idx → EReal) (ix2 q (0 : Fin 1)))
      (Cert.Spec.keepB q ((W8 m ρ c (Proc.devRef .tc main_v18) : S4096x1.Idx → BitVec 32) (ix2 q (0 : Fin 1))))
    = Cert.Spec.l2 (m ((c : Thread nD τ).loc main_arg0)) (pw m c) q
  rw [e1, e17, e16, e18]
  rfl

/-- THE RESULT: the loss of the specification at the input and the positives. -/
theorem result (c : Dev nD) : (W10 m ρ c (Proc.devRef .tc main_v25) : S_.Idx → EReal)
    = fun _ => Cert.Spec.loss (m ((c : Thread nD τ).loc main_arg0)) (pw m c) :=
  Cert.KernelIdeal.Glue.tail_eq (W9 m ρ c) _ _ (W9_l1 m ρ c) (W9_l2 m ρ c)

end Cert.KernelIdeal.Hand

end
-- ==== Proof.Ref.StageDefs.lean ====
import proofs.«117435_j26147760898822_1_alg».proof.Proof.Gen.ReferenceIdeal
import Idealize.ShloMosaic.PureOps

/-!
# The reference's stages, as functions

The scaled Gram matrix `W`, the row-wise positive column `pos`, the entry of `W` at each row's positive,
the mask built by two scatters of `false` into all-ones (at the diagonal, then at each row's positive), the
row of `W` at each row's positive, the two masked exponential row sums under `log (1 + ·)`, and the two
means and their sum: each stage is the program's own operations applied in the program's order.
-/

noncomputable section

namespace Cert.ReferenceIdeal.Hand

open Cert.ReferenceIdeal Cert.ReferenceIdeal.Gen Idealize.ShloMosaic

variable {F : FTy → Type} [FloatOps F]

/-! ## The stages -/

/-- The scaled Gram matrix: `0.001 · (x xᵀ)`. -/
def stW (x : FVec F S4096x2048 .f32) : FVec F S4096x4096 .f32 :=
  mulf (broadcastInDim S4096x4096 ![] bcast_S_S4096x4096 (constant S_ .f32 0x3A83126F#32))
    (Host.dotGeneral dot_S4096x2048_S2048x4096_S4096x4096_1_0_0_1_n_n none x
      (transpose S2048x4096 [1, 0] x transposes_S4096x2048_S2048x4096_1_0))

/-- A vector as a column, copied along the rows of a square matrix. -/
def colOf {α : Type} (v : S4096.Idx → α) : S4096x4096.Idx → α :=
  broadcastInDim S4096x4096 ![0, 1] bcast_S4096x1_S4096x4096_0_1 (broadcastInDim S4096x1 ![0] bcast_S4096_S4096x1_0 v)

/-- A vector as a row, copied along the columns of a square matrix. -/
def rowOf {α : Type} (v : S4096.Idx → α) : S4096x4096.Idx → α :=
  broadcastInDim S4096x4096 ![0, 1] bcast_S1x4096_S4096x4096_0_1 (broadcastInDim S1x4096 ![1] bcast_S4096_S1x4096_1 v)

/-- Entry `(q, k)` says: the labels of `q` and `k` agree and `q ≠ k`. -/
def stSame (t : IVec S4096 32) : IVec S4096x4096 1 :=
  andi (cmpi .eq (colOf t) (rowOf t)) (cmpi .ne (colOf (iotaInDim S4096 32 0)) (rowOf (iotaInDim S4096 32 0)))

/-- Each row's positive column: the first maximum of the row of `stSame`. -/
def stPos (t : IVec S4096 32) : IVec S4096 32 := fun j =>
  (Host.reduce2 reducer_argmax_i1_i32 (stSame t) (iotaInDim S4096x4096 32 1) (constantI S_ 1 0#1) (constantI S_ 32 0#32)
    reducesTo_S4096x4096_S4096_d1 h_S_ j).2

/-- An index word moved into `[0, 4096)` when it is negative: `v < z ? v + 4096 : v` (`z` the zero vector). -/
def wrapIdxZ (v z : IVec S4096 32) : IVec S4096 32 :=
  select (cmpi .slt v z) (addi v (broadcastInDim S4096 ![] bcast_S_S4096 (constantI S_ 32 4096#32))) v

/-- The zero index vector. -/
def zeroIdx : IVec S4096 32 := broadcastInDim S4096 ![] bcast_S_S4096 (constantI S_ 32 0#32)

/-- Two index vectors side by side: row `e` is `(a e, b e)`. -/
def pairIdx (a b : IVec S4096 32) : IVec S4096x2 32 :=
  concatenate S4096x2 1 [⟨S4096x1, broadcastInDim S4096x1 ![0] bcast_S4096_S4096x1_0 a⟩,
    ⟨S4096x1, broadcastInDim S4096x1 ![0] bcast_S4096_S4096x1_0 b⟩] concatenates_S4096x1_S4096x1_S4096x2_d1

/-- `W[q, pos q]`. -/
def stWpos (W : FVec F S4096x4096 .f32) (io z p : IVec S4096 32) : FVec F S4096 .f32 :=
  Host.gather gather_S4096x4096_S4096x2_S4096_n_01_n_n_01_1_11 W (pairIdx (wrapIdxZ io z) (wrapIdxZ p z))

/-- The vector of `false` both scatters write. -/
def falseUpd : IVec S4096 1 := broadcastInDim S4096 ![] bcast_S_S4096 (constantI S_ 1 0#1)

/-- A mask with `false` written at `(a e, b e)` for every `e`. -/
def clearAt (m : IVec S4096x4096 1) (a b : IVec S4096 32) : IVec S4096x4096 1 :=
  Host.scatter scatter_S4096x4096_S4096x2_S4096_n_01_01_1 (fun _ b => b) m (pairIdx a b) falseUpd

/-- All ones with the diagonal cleared. -/
def stMask0 (io z : IVec S4096 32) : IVec S4096x4096 1 :=
  clearAt (broadcastInDim S4096x4096 ![] bcast_S_S4096x4096 (constantI S_ 1 1#1)) (wrapIdxZ io z) (wrapIdxZ io z)

/-- The row `W[pos q, ·]`. -/
def stWp (W : FVec F S4096x4096 .f32) (z p : IVec S4096 32) : FVec F S4096x4096 .f32 :=
  Host.gather gather_S4096x4096_S4096x1_S4096x4096_1_0_n_n_0_1_14096 W
    (broadcastInDim S4096x1 ![0] bcast_S4096_S4096x1_0 (wrapIdxZ p z))

/-- `log (1 + ·)` of the row sums of `e` where the mask holds, `0` elsewhere. -/
def rowLoss (m : IVec S4096x4096 1) (e : FVec F S4096x4096 .f32) : FVec F S4096 .f32 :=
  Host.log1p (Host.reduceAdd
    (select m e (broadcastInDim S4096x4096 ![] bcast_S_S4096x4096 (id (constant S_ .f32 0x00000000#32))))
    (constant S_ .f32 0x00000000#32) reducesTo_S4096x4096_S4096_d1 h_S_)

/-- The first loss's exponent matrix. -/
def expo1 (W : FVec F S4096x4096 .f32) (wpos : FVec F S4096 .f32) : FVec F S4096x4096 .f32 :=
  Host.exp (subf W (colOf wpos))

/-- The second loss's exponent matrix. -/
def expo2 (W Wp : FVec F S4096x4096 .f32) (wpos : FVec F S4096 .f32) : FVec F S4096x4096 .f32 :=
  Host.exp (subf (mulf (addf W Wp) (broadcastInDim S4096x4096 ![] bcast_S_S4096x4096 (constant S_ .f32 0x3F800000#32)))
    (colOf (mulf wpos (broadcastInDim S4096 ![] bcast_S_S4096 (constant S_ .f32 0x3F800000#32)))))

/-- The mean of a row loss: its sum from zero, divided by 4096. -/
def meanOf (l : FVec F S4096 .f32) : FVec F S_ .f32 :=
  Host.divf (Host.reduceAdd l (constant S_ .f32 0x00000000#32) reducesTo_S4096_S_d0 h_S_) (constant S_ .f32 0x45800000#32)

/-- The loss from the Gram matrix and the positives. -/
def stLoss (W : FVec F S4096x4096 .f32) (io z p : IVec S4096 32) : FVec F S_ .f32 :=
  addf (meanOf (rowLoss (clearAt (stMask0 io z) (wrapIdxZ io z) (wrapIdxZ p z)) (expo1 W (stWpos W io z p))))
    (mulf (constant S_ .f32 0x3F800000#32)
      (meanOf (rowLoss (clearAt (stMask0 io z) (wrapIdxZ io z) (wrapIdxZ p z)) (expo2 W (stWp W z p) (stWpos W io z p)))))

end Cert.ReferenceIdeal.Hand

end
-- ==== Proof.Ref.Cut.lean ====
import proofs.«117435_j26147760898822_1_alg».proof.Proof.Ref.Run
import proofs.«117435_j26147760898822_1_alg».proof.Proof.Ref.StageDefs

/-!
# The reference's operation list, cut into five stretches

The list is cut before each operation that lays two index columns side by side, so that within a stretch every
operation's operands are results of the same stretch read through plain functions, or buffers the stretch found.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsA : List (HloOp τ sig (Elt F)) :=
  [ StableHlo.nullary main_v0 (iotaInDim S4096 32 0),
    StableHlo.unary main_arg0 main_v1 ((transpose S2048x4096 [1, 0] · transposes_S4096x2048_S2048x4096_1_0) : (⟨S4096x2048, .f32⟩ : BufTy).Contents (Elt F) → (⟨S2048x4096, .f32⟩ : BufTy).Contents (Elt F)),
    StableHlo.binary main_arg0 main_v1 main_v2 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    StableHlo.nullary main_cst (constant S_ .f32 0x3A83126F#32),
    StableHlo.unary main_cst main_v3 (broadcastInDim S4096x4096 ![] bcast_S_S4096x4096 : (⟨S_, .f32⟩ : BufTy).Contents (Elt F) → (⟨S4096x4096, .f32⟩ : BufTy).Contents (Elt F)),
    StableHlo.binary main_v3 main_v2 main_v4 (mulf : (⟨S4096x4096, .f32⟩ : BufTy).Contents (Elt F) → (⟨S4096x4096, .f32⟩ : BufTy).Contents (Elt F) → (⟨S4096x4096, .f32⟩ : BufTy).Contents (Elt F)),
    StableHlo.unary main_arg1 main_v5 (broadcastInDim S4096x1 ![0] bcast_S4096_S4096x1_0 : (⟨S4096, .i32⟩ : BufTy).Contents (Elt F) → (⟨S4096x1, .i32⟩ : BufTy).Contents (Elt F)),
    StableHlo.unary main_arg1 main_v6 (broadcastInDim S1x4096 ![1] bcast_S4096_S1x4096_1 : (⟨S4096, .i32⟩ : BufTy).Contents (Elt F) → (⟨S1x4096, .i32⟩ : BufTy).Contents (Elt F)),
    StableHlo.unary main_v5 main_v7 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v6 main_v8 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v7 main_v8 main_v9 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v0 main_v10 (broadcastInDim S4096x1 ![0] bcast_S4096_S4096x1_0 : (⟨S4096, .i32⟩ : BufTy).Contents (Elt F) → (⟨S4096x1, .i32⟩ : BufTy).Contents (Elt F)),
    StableHlo.unary main_v0 main_v11 (broadcastInDim S1x4096 ![1] bcast_S4096_S1x4096_1 : (⟨S4096, .i32⟩ : BufTy).Contents (Elt F) → (⟨S1x4096, .i32⟩ : BufTy).Contents (Elt F)),
    StableHlo.unary main_v10 main_v12 (broadcastInDim S4096x4096 ![0, 1] bcast_S4096x1_S4096x4096_0_1 : (⟨S4096x1, .i32⟩ : BufTy).Contents (Elt F) → (⟨S4096x4096, .i32⟩ : BufTy).Contents (Elt F)),
    StableHlo.unary main_v11 main_v13 (broadcastInDim S4096x4096 ![0, 1] bcast_S1x4096_S4096x4096_0_1 : (⟨S1x4096, .i32⟩ : BufTy).Contents (Elt F) → (⟨S4096x4096, .i32⟩ : BufTy).Contents (Elt F)),
    StableHlo.binary main_v12 main_v13 main_v14 (cmpi .ne : (⟨S4096x4096, .i32⟩ : BufTy).Contents (Elt F) → (⟨S4096x4096, .i32⟩ : BufTy).Contents (Elt F) → (⟨S4096x4096, .i1⟩ : BufTy).Contents (Elt F)),
    StableHlo.binary main_v9 main_v14 main_v15 (andi : (⟨S4096x4096, .i1⟩ : BufTy).Contents (Elt F) → (⟨S4096x4096, .i1⟩ : BufTy).Contents (Elt F) → (⟨S4096x4096, .i1⟩ : BufTy).Contents (Elt F)),
    StableHlo.TRef.nullary main_call0.v0 (iotaInDim S4096x4096 32 1),
    StableHlo.TRef.nullary main_call0.c (constantI S_ 1 0#1),
    StableHlo.TRef.nullary main_call0.c_0 (constantI S_ 32 0#32),
    StableHlo.TRef.quaternary (.of main_v15) main_call0.v0 main_call0.c main_call0.c_0 main_call0.v1_0 (fun x y u v j => (Host.reduce2 reducer_argmax_i1_i32 x y u v reducesTo_S4096x4096_S4096_d1 h_S_ j).1),
    StableHlo.TRef.quaternary (.of main_v15) main_call0.v0 main_call0.c main_call0.c_0 main_call0.v1_1 (fun x y u v j => (Host.reduce2 reducer_argmax_i1_i32 x y u v reducesTo_S4096x4096_S4096_d1 h_S_ j).2),
    StableHlo.nullary main_c (constantI S_ 32 0#32),
    StableHlo.unary main_c main_v17 (broadcastInDim S4096 ![] bcast_S_S4096 : (⟨S_, .i32⟩ : BufTy).Contents (Elt F) → (⟨S4096, .i32⟩ : BufTy).Contents (Elt F)),
    StableHlo.binary main_v0 main_v17 main_v18 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 4096#32),
    StableHlo.unary main_c_0 main_v19 (broadcastInDim S4096 ![] bcast_S_S4096 : (⟨S_, .i32⟩ : BufTy).Contents (Elt F) → (⟨S4096, .i32⟩ : BufTy).Contents (Elt F)),
    StableHlo.binary main_v0 main_v19 main_v20 (addi : (⟨S4096, .i32⟩ : BufTy).Contents (Elt F) → (⟨S4096, .i32⟩ : BufTy).Contents (Elt F) → (⟨S4096, .i32⟩ : BufTy).Contents (Elt F)),
    StableHlo.ternary main_v18 main_v20 main_v0 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_1 (constantI S_ 32 0#32),
    StableHlo.unary main_c_1 main_v22 (broadcastInDim S4096 ![] bcast_S_S4096 : (⟨S_, .i32⟩ : BufTy).Contents (Elt F) → (⟨S4096, .i32⟩ : BufTy).Contents (Elt F)),
    StableHlo.binary main_v16 main_v22 main_v23 (cmpi .slt : (⟨S4096, .i32⟩ : BufTy).Contents (Elt F) → (⟨S4096, .i32⟩ : BufTy).Contents (Elt F) → (⟨S4096, .i1⟩ : BufTy).Contents (Elt F)),
    StableHlo.nullary main_c_2 (constantI S_ 32 4096#32),
    StableHlo.unary main_c_2 main_v24 (broadcastInDim S4096 ![] bcast_S_S4096 : (⟨S_, .i32⟩ : BufTy).Contents (Elt F) → (⟨S4096, .i32⟩ : BufTy).Contents (Elt F)),
    StableHlo.binary main_v16 main_v24 main_v25 (addi : (⟨S4096, .i32⟩ : BufTy).Contents (Elt F) → (⟨S4096, .i32⟩ : BufTy).Contents (Elt F) → (⟨S4096, .i32⟩ : BufTy).Contents (Elt F)),
    StableHlo.ternary main_v23 main_v25 main_v16 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v21 main_v27 (broadcastInDim S4096x1 ![0] bcast_S4096_S4096x1_0 : (⟨S4096, .i32⟩ : BufTy).Contents (Elt F) → (⟨S4096x1, .i32⟩ : BufTy).Contents (Elt F)),
    StableHlo.unary main_v26 main_v28 (broadcastInDim S4096x1 ![0] bcast_S4096_S4096x1_0 : (⟨S4096, .i32⟩ : BufTy).Contents (Elt F) → (⟨S4096x1, .i32⟩ : BufTy).Contents (Elt F)) ]

abbrev opsB : List (HloOp τ sig (Elt F)) :=
  [ StableHlo.binary main_v27 main_v28 main_v29 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_v4 main_v29 main_v30 ((fun x i => Host.gather gather_S4096x4096_S4096x2_S4096_n_01_n_n_01_1_11 x i) : (⟨S4096x4096, .f32⟩ : BufTy).Contents (Elt F) → (⟨S4096x2, .i32⟩ : BufTy).Contents (Elt F) → (⟨S4096, .f32⟩ : BufTy).Contents (Elt F)),
    StableHlo.nullary main_c_3 (constantI S_ 1 1#1),
    StableHlo.unary main_c_3 main_v31 (broadcastInDim S4096x4096 ![] bcast_S_S4096x4096 : (⟨S_, .i1⟩ : BufTy).Contents (Elt F) → (⟨S4096x4096, .i1⟩ : BufTy).Contents (Elt F)),
    StableHlo.nullary main_c_4 (constantI S_ 32 0#32),
    StableHlo.unary main_c_4 main_v32 (broadcastInDim S4096 ![] bcast_S_S4096 : (⟨S_, .i32⟩ : BufTy).Contents (Elt F) → (⟨S4096, .i32⟩ : BufTy).Contents (Elt F)),
    StableHlo.binary main_v0 main_v32 main_v33 (cmpi .slt : (⟨S4096, .i32⟩ : BufTy).Contents (Elt F) → (⟨S4096, .i32⟩ : BufTy).Contents (Elt F) → (⟨S4096, .i1⟩ : BufTy).Contents (Elt F)),
    StableHlo.nullary main_c_5 (constantI S_ 32 4096#32),
    StableHlo.unary main_c_5 main_v34 (broadcastInDim S4096 ![] bcast_S_S4096 : (⟨S_, .i32⟩ : BufTy).Contents (Elt F) → (⟨S4096, .i32⟩ : BufTy).Contents (Elt F)),
    StableHlo.binary main_v0 main_v34 main_v35 (addi : (⟨S4096, .i32⟩ : BufTy).Contents (Elt F) → (⟨S4096, .i32⟩ : BufTy).Contents (Elt F) → (⟨S4096, .i32⟩ : BufTy).Contents (Elt F)),
    StableHlo.ternary main_v33 main_v35 main_v0 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_6 (constantI S_ 32 0#32),
    StableHlo.unary main_c_6 main_v37 (broadcastInDim S4096 ![] bcast_S_S4096 : (⟨S_, .i32⟩ : BufTy).Contents (Elt F) → (⟨S4096, .i32⟩ : BufTy).Contents (Elt F)),
    StableHlo.binary main_v0 main_v37 main_v38 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 4096#32),
    StableHlo.unary main_c_7 main_v39 (broadcastInDim S4096 ![] bcast_S_S4096 : (⟨S_, .i32⟩ : BufTy).Contents (Elt F) → (⟨S4096, .i32⟩ : BufTy).Contents (Elt F)),
    StableHlo.binary main_v0 main_v39 main_v40 (addi : (⟨S4096, .i32⟩ : BufTy).Contents (Elt F) → (⟨S4096, .i32⟩ : BufTy).Contents (Elt F) → (⟨S4096, .i32⟩ : BufTy).Contents (Elt F)),
    StableHlo.ternary main_v38 main_v40 main_v0 main_v41 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v36 main_v42 (broadcastInDim S4096x1 ![0] bcast_S4096_S4096x1_0 : (⟨S4096, .i32⟩ : BufTy).Contents (Elt F) → (⟨S4096x1, .i32⟩ : BufTy).Contents (Elt F)),
    StableHlo.unary main_v41 main_v43 (broadcastInDim S4096x1 ![0] bcast_S4096_S4096x1_0 : (⟨S4096, .i32⟩ : BufTy).Contents (Elt F) → (⟨S4096x1, .i32⟩ : BufTy).Contents (Elt F)) ]

abbrev opsC : List (HloOp τ sig (Elt F)) :=
  [ StableHlo.binary main_v42 main_v43 main_v44 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.nullary main_c_8 (constantI S_ 1 0#1),
    StableHlo.unary main_c_8 main_v45 (broadcastInDim S4096 ![] bcast_S_S4096 : (⟨S_, .i1⟩ : BufTy).Contents (Elt F) → (⟨S4096, .i1⟩ : BufTy).Contents (Elt F)),
    StableHlo.ternary main_v31 main_v44 main_v45 main_v46 ((fun x i u => Host.scatter scatter_S4096x4096_S4096x2_S4096_n_01_01_1 (fun _ b => b) x i u) : (⟨S4096x4096, .i1⟩ : BufTy).Contents (Elt F) → (⟨S4096x2, .i32⟩ : BufTy).Contents (Elt F) → (⟨S4096, .i1⟩ : BufTy).Contents (Elt F) → (⟨S4096x4096, .i1⟩ : BufTy).Contents (Elt F)),
    StableHlo.nullary main_c_9 (constantI S_ 32 0#32),
    StableHlo.unary main_c_9 main_v47 (broadcastInDim S4096 ![] bcast_S_S4096 : (⟨S_, .i32⟩ : BufTy).Contents (Elt F) → (⟨S4096, .i32⟩ : BufTy).Contents (Elt F)) ]

abbrev opsD : List (HloOp τ sig (Elt F)) :=
  [ StableHlo.binary main_v0 main_v47 main_v48 (cmpi .slt : (⟨S4096, .i32⟩ : BufTy).Contents (Elt F) → (⟨S4096, .i32⟩ : BufTy).Contents (Elt F) → (⟨S4096, .i1⟩ : BufTy).Contents (Elt F)),
    StableHlo.nullary main_c_10 (constantI S_ 32 4096#32),
    StableHlo.unary main_c_10 main_v49 (broadcastInDim S4096 ![] bcast_S_S4096 : (⟨S_, .i32⟩ : BufTy).Contents (Elt F) → (⟨S4096, .i32⟩ : BufTy).Contents (Elt F)),
    StableHlo.binary main_v0 main_v49 main_v50 (addi : (⟨S4096, .i32⟩ : BufTy).Contents (Elt F) → (⟨S4096, .i32⟩ : BufTy).Contents (Elt F) → (⟨S4096, .i32⟩ : BufTy).Contents (Elt F)),
    StableHlo.ternary main_v48 main_v50 main_v0 main_v51 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_11 (constantI S_ 32 0#32),
    StableHlo.unary main_c_11 main_v52 (broadcastInDim S4096 ![] bcast_S_S4096 : (⟨S_, .i32⟩ : BufTy).Contents (Elt F) → (⟨S4096, .i32⟩ : BufTy).Contents (Elt F)),
    StableHlo.binary main_v16 main_v52 main_v53 (cmpi .slt : (⟨S4096, .i32⟩ : BufTy).Contents (Elt F) → (⟨S4096, .i32⟩ : BufTy).Contents (Elt F) → (⟨S4096, .i1⟩ : BufTy).Contents (Elt F)),
    StableHlo.nullary main_c_12 (constantI S_ 32 4096#32),
    StableHlo.unary main_c_12 main_v54 (broadcastInDim S4096 ![] bcast_S_S4096 : (⟨S_, .i32⟩ : BufTy).Contents (Elt F) → (⟨S4096, .i32⟩ : BufTy).Contents (Elt F)),
    StableHlo.binary main_v16 main_v54 main_v55 (addi : (⟨S4096, .i32⟩ : BufTy).Contents (Elt F) → (⟨S4096, .i32⟩ : BufTy).Contents (Elt F) → (⟨S4096, .i32⟩ : BufTy).Contents (Elt F)),
    StableHlo.ternary main_v53 main_v55 main_v16 main_v56 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v51 main_v57 (broadcastInDim S4096x1 ![0] bcast_S4096_S4096x1_0 : (⟨S4096, .i32⟩ : BufTy).Contents (Elt F) → (⟨S4096x1, .i32⟩ : BufTy).Contents (Elt F)),
    StableHlo.unary main_v56 main_v58 (broadcastInDim S4096x1 ![0] bcast_S4096_S4096x1_0 : (⟨S4096, .i32⟩ : BufTy).Contents (Elt F) → (⟨S4096x1, .i32⟩ : BufTy).Contents (Elt F)) ]

abbrev opsE : List (HloOp τ sig (Elt F)) :=
  [ StableHlo.binary main_v57 main_v58 main_v59 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.nullary main_c_13 (constantI S_ 1 0#1),
    StableHlo.unary main_c_13 main_v60 (broadcastInDim S4096 ![] bcast_S_S4096 : (⟨S_, .i1⟩ : BufTy).Contents (Elt F) → (⟨S4096, .i1⟩ : BufTy).Contents (Elt F)),
    StableHlo.ternary main_v46 main_v59 main_v60 main_v61 ((fun x i u => Host.scatter scatter_S4096x4096_S4096x2_S4096_n_01_01_1 (fun _ b => b) x i u) : (⟨S4096x4096, .i1⟩ : BufTy).Contents (Elt F) → (⟨S4096x2, .i32⟩ : BufTy).Contents (Elt F) → (⟨S4096, .i1⟩ : BufTy).Contents (Elt F) → (⟨S4096x4096, .i1⟩ : BufTy).Contents (Elt F)),
    StableHlo.unary main_v30 main_v62 (broadcastInDim S4096x1 ![0] bcast_S4096_S4096x1_0 : (⟨S4096, .f32⟩ : BufTy).Contents (Elt F) → (⟨S4096x1, .f32⟩ : BufTy).Contents (Elt F)),
    StableHlo.unary main_v62 main_v63 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v4 main_v63 main_v64 (subf : (⟨S4096x4096, .f32⟩ : BufTy).Contents (Elt F) → (⟨S4096x4096, .f32⟩ : BufTy).Contents (Elt F) → (⟨S4096x4096, .f32⟩ : BufTy).Contents (Elt F)),
    StableHlo.unary main_v64 main_v65 (Host.exp : (⟨S4096x4096, .f32⟩ : BufTy).Contents (Elt F) → (⟨S4096x4096, .f32⟩ : BufTy).Contents (Elt F)),
    StableHlo.nullary main_cst_14 (constant S_ .f32 0x00000000#32),
    StableHlo.TRef.unary (.of main_cst_14) main_call1.v0 id,
    StableHlo.TRef.unary main_call1.v0 main_call1.v1 (broadcastInDim S4096x4096 ![] bcast_S_S4096x4096),
    StableHlo.TRef.ternary (.of main_v61) (.of main_v65) main_call1.v1 main_call1.v2 select,
    StableHlo.nullary main_cst_15 (constant S_ .f32 0x00000000#32),
    StableHlo.binary main_v66 main_cst_15 main_v67 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v67 main_v68 (Host.log1p : (⟨S4096, .f32⟩ : BufTy).Contents (Elt F) → (⟨S4096, .f32⟩ : BufTy).Contents (Elt F)),
    StableHlo.nullary main_c_16 (constantI S_ 32 0#32),
    StableHlo.unary main_c_16 main_v69 (broadcastInDim S4096 ![] bcast_S_S4096 : (⟨S_, .i32⟩ : BufTy).Contents (Elt F) → (⟨S4096, .i32⟩ : BufTy).Contents (Elt F)),
    StableHlo.binary main_v16 main_v69 main_v70 (cmpi .slt : (⟨S4096, .i32⟩ : BufTy).Contents (Elt F) → (⟨S4096, .i32⟩ : BufTy).Contents (Elt F) → (⟨S4096, .i1⟩ : BufTy).Contents (Elt F)),
    StableHlo.nullary main_c_17 (constantI S_ 32 4096#32),
    StableHlo.unary main_c_17 main_v71 (broadcastInDim S4096 ![] bcast_S_S4096 : (⟨S_, .i32⟩ : BufTy).Contents (Elt F) → (⟨S4096, .i32⟩ : BufTy).Contents (Elt F)),
    StableHlo.binary main_v16 main_v71 main_v72 (addi : (⟨S4096, .i32⟩ : BufTy).Contents (Elt F) → (⟨S4096, .i32⟩ : BufTy).Contents (Elt F) → (⟨S4096, .i32⟩ : BufTy).Contents (Elt F)),
    StableHlo.ternary main_v70 main_v72 main_v16 main_v73 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v73 main_v74 (broadcastInDim S4096x1 ![0] bcast_S4096_S4096x1_0 : (⟨S4096, .i32⟩ : BufTy).Contents (Elt F) → (⟨S4096x1, .i32⟩ : BufTy).Contents (Elt F)),
    StableHlo.binary main_v4 main_v74 main_v75 ((fun x i => Host.gather gather_S4096x4096_S4096x1_S4096x4096_1_0_n_n_0_1_14096 x i) : (⟨S4096x4096, .f32⟩ : BufTy).Contents (Elt F) → (⟨S4096x1, .i32⟩ : BufTy).Contents (Elt F) → (⟨S4096x4096, .f32⟩ : BufTy).Contents (Elt F)),
    StableHlo.binary main_v4 main_v75 main_v76 (addf : (⟨S4096x4096, .f32⟩ : BufTy).Contents (Elt F) → (⟨S4096x4096, .f32⟩ : BufTy).Contents (Elt F) → (⟨S4096x4096, .f32⟩ : BufTy).Contents (Elt F)),
    StableHlo.nullary main_cst_18 (constant S_ .f32 0x3F800000#32),
    StableHlo.unary main_cst_18 main_v77 (broadcastInDim S4096x4096 ![] bcast_S_S4096x4096 : (⟨S_, .f32⟩ : BufTy).Contents (Elt F) → (⟨S4096x4096, .f32⟩ : BufTy).Contents (Elt F)),
    StableHlo.binary main_v76 main_v77 main_v78 (mulf : (⟨S4096x4096, .f32⟩ : BufTy).Contents (Elt F) → (⟨S4096x4096, .f32⟩ : BufTy).Contents (Elt F) → (⟨S4096x4096, .f32⟩ : BufTy).Contents (Elt F)),
    StableHlo.nullary main_cst_19 (constant S_ .f32 0x3F800000#32),
    StableHlo.unary main_cst_19 main_v79 (broadcastInDim S4096 ![] bcast_S_S4096 : (⟨S_, .f32⟩ : BufTy).Contents (Elt F) → (⟨S4096, .f32⟩ : BufTy).Contents (Elt F)),
    StableHlo.binary main_v30 main_v79 main_v80 (mulf : (⟨S4096, .f32⟩ : BufTy).Contents (Elt F) → (⟨S4096, .f32⟩ : BufTy).Contents (Elt F) → (⟨S4096, .f32⟩ : BufTy).Contents (Elt F)),
    StableHlo.unary main_v80 main_v81 (broadcastInDim S4096x1 ![0] bcast_S4096_S4096x1_0 : (⟨S4096, .f32⟩ : BufTy).Contents (Elt F) → (⟨S4096x1, .f32⟩ : BufTy).Contents (Elt F)),
    StableHlo.unary main_v81 main_v82 (broadcastInDim S4096x4096 ![0, 1] bcast_S4096x1_S4096x4096_0_1 : (⟨S4096x1, .f32⟩ : BufTy).Contents (Elt F) → (⟨S4096x4096, .f32⟩ : BufTy).Contents (Elt F)),
    StableHlo.binary main_v78 main_v82 main_v83 (subf : (⟨S4096x4096, .f32⟩ : BufTy).Contents (Elt F) → (⟨S4096x4096, .f32⟩ : BufTy).Contents (Elt F) → (⟨S4096x4096, .f32⟩ : BufTy).Contents (Elt F)),
    StableHlo.unary main_v83 main_v84 (Host.exp : (⟨S4096x4096, .f32⟩ : BufTy).Contents (Elt F) → (⟨S4096x4096, .f32⟩ : BufTy).Contents (Elt F)),
    StableHlo.nullary main_cst_20 (constant S_ .f32 0x00000000#32),
    StableHlo.TRef.unary (.of main_cst_20) main_call2.v0 id,
    StableHlo.TRef.unary main_call2.v0 main_call2.v1 (broadcastInDim S4096x4096 ![] bcast_S_S4096x4096),
    StableHlo.TRef.ternary (.of main_v61) (.of main_v84) main_call2.v1 main_call2.v2 select,
    StableHlo.nullary main_cst_21 (constant S_ .f32 0x00000000#32),
    StableHlo.binary main_v85 main_cst_21 main_v86 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_v86 main_v87 (Host.log1p : (⟨S4096, .f32⟩ : BufTy).Contents (Elt F) → (⟨S4096, .f32⟩ : BufTy).Contents (Elt F)),
    StableHlo.nullary main_cst_22 (constant S_ .f32 0x00000000#32),
    StableHlo.binary main_v68 main_cst_22 main_v88 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_23 (constant S_ .f32 0x45800000#32),
    StableHlo.binary main_v88 main_cst_23 main_v89 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x00000000#32),
    StableHlo.binary main_v87 main_cst_24 main_v90 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_25 (constant S_ .f32 0x45800000#32),
    StableHlo.binary main_v90 main_cst_25 main_v91 (Host.divf : (⟨S_, .f32⟩ : BufTy).Contents (Elt F) → (⟨S_, .f32⟩ : BufTy).Contents (Elt F) → (⟨S_, .f32⟩ : BufTy).Contents (Elt F)) ]

theorem ops0_cut : (ops0 : List (HloOp τ sig (Elt F))) = opsA ++ (opsB ++ opsC) := rfl
theorem ops1_cut : (ops1 : List (HloOp τ sig (Elt F))) = opsD ++ opsE := rfl

theorem after_cut (V : Valuation τ sig (Elt F)) :
    after ops V = after ops2 (after opsE (after opsD (after opsC (after opsB (after opsA V))))) := by
  rw [after_ops, ops0_cut, ops1_cut]
  simp only [after_append']

end Cert.ReferenceIdeal.Hand

end
-- ==== Proof.Ref.StretchA.lean ====
import proofs.«117435_j26147760898822_1_alg».proof.Proof.Ref.Cut

/-!
# The first stretch: the Gram matrix, the positives, and the first pair of index columns
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem A_v0 : after opsA V (Proc.devRef .tc main_v0)
    = iotaInDim S4096 32 0 := by
  simp only [opsA]
  after_results_simp <;> rfl

set_option maxRecDepth 8192 in
set_option maxHeartbeats 4000000 in
theorem A_v4 : after opsA V (Proc.devRef .tc main_v4)
    = stW (V (Proc.devRef .tc main_arg0)) := by
  simp only [opsA]
  after_results_simp <;> rfl

set_option maxRecDepth 8192 in
set_option maxHeartbeats 4000000 in
theorem A_v16 : after opsA V (Proc.devRef .tc main_v16)
    = stPos (V (Proc.devRef .tc main_arg1)) := by
  simp only [opsA]
  after_results_simp <;> rfl

set_option maxRecDepth 8192 in
set_option maxHeartbeats 4000000 in
theorem A_v27 : after opsA V (Proc.devRef .tc main_v27)
    = broadcastInDim S4096x1 ![0] bcast_S4096_S4096x1_0 (wrapIdxZ (iotaInDim S4096 32 0) zeroIdx) := by
  simp only [opsA]
  after_results_simp <;> rfl

set_option maxRecDepth 8192 in
set_option maxHeartbeats 4000000 in
theorem A_v28 : after opsA V (Proc.devRef .tc main_v28)
    = broadcastInDim S4096x1 ![0] bcast_S4096_S4096x1_0 (wrapIdxZ (stPos (V (Proc.devRef .tc main_arg1))) zeroIdx) := by
  simp only [opsA]
  after_results_simp <;> rfl

end Cert.ReferenceIdeal.Hand

end
-- ==== Proof.Ref.StretchB.lean ====
import proofs.«117435_j26147760898822_1_alg».proof.Proof.Ref.Cut

/-!
# The second stretch: the entry of the Gram matrix at each row's positive, and the diagonal's index columns
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem B_v30 : after opsB V (Proc.devRef .tc main_v30)
    = Host.gather gather_S4096x4096_S4096x2_S4096_n_01_n_n_01_1_11 (V (Proc.devRef .tc main_v4)) (concatenate S4096x2 1 [⟨S4096x1, (V (Proc.devRef .tc main_v27) : IVec S4096x1 32)⟩, ⟨S4096x1, (V (Proc.devRef .tc main_v28) : IVec S4096x1 32)⟩] concatenates_S4096x1_S4096x1_S4096x2_d1) := by
  simp only [opsB]
  after_results_simp <;> rfl

set_option maxRecDepth 8192 in
set_option maxHeartbeats 4000000 in
theorem B_v31 : after opsB V (Proc.devRef .tc main_v31)
    = broadcastInDim S4096x4096 ![] bcast_S_S4096x4096 (constantI S_ 1 1#1) := by
  simp only [opsB]
  after_results_simp <;> rfl

set_option maxRecDepth 8192 in
set_option maxHeartbeats 4000000 in
theorem B_v42 : after opsB V (Proc.devRef .tc main_v42)
    = broadcastInDim S4096x1 ![0] bcast_S4096_S4096x1_0 (wrapIdxZ (V (Proc.devRef .tc main_v0)) zeroIdx) := by
  simp only [opsB]
  after_results_simp <;> rfl

set_option maxRecDepth 8192 in
set_option maxHeartbeats 4000000 in
theorem B_v43 : after opsB V (Proc.devRef .tc main_v43)
    = broadcastInDim S4096x1 ![0] bcast_S4096_S4096x1_0 (wrapIdxZ (V (Proc.devRef .tc main_v0)) zeroIdx) := by
  simp only [opsB]
  after_results_simp <;> rfl

set_option maxRecDepth 8192 in
set_option maxHeartbeats 4000000 in
theorem opsB_keep_v0 : after opsB V (Proc.devRef .tc main_v0)
    = V (Proc.devRef .tc main_v0) := by
  simp only [opsB]
  after_results_simp <;> rfl

set_option maxRecDepth 8192 in
set_option maxHeartbeats 4000000 in
theorem opsB_keep_v4 : after opsB V (Proc.devRef .tc main_v4)
    = V (Proc.devRef .tc main_v4) := by
  simp only [opsB]
  after_results_simp <;> rfl

set_option maxRecDepth 8192 in
set_option maxHeartbeats 4000000 in
theorem opsB_keep_v16 : after opsB V (Proc.devRef .tc main_v16)
    = V (Proc.devRef .tc main_v16) := by
  simp only [opsB]
  after_results_simp <;> rfl

end Cert.ReferenceIdeal.Hand

end
-- ==== Proof.Ref.StretchC.lean ====
import proofs.«117435_j26147760898822_1_alg».proof.Proof.Ref.Cut

/-!
# The third stretch: the diagonal cleared
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem C_v46 : after opsC V (Proc.devRef .tc main_v46)
    = Host.scatter scatter_S4096x4096_S4096x2_S4096_n_01_01_1 (fun _ b => b) (V (Proc.devRef .tc main_v31)) (concatenate S4096x2 1 [⟨S4096x1, (V (Proc.devRef .tc main_v42) : IVec S4096x1 32)⟩, ⟨S4096x1, (V (Proc.devRef .tc main_v43) : IVec S4096x1 32)⟩] concatenates_S4096x1_S4096x1_S4096x2_d1) falseUpd := by
  simp only [opsC]
  after_results_simp <;> rfl

set_option maxRecDepth 8192 in
set_option maxHeartbeats 4000000 in
theorem C_v47 : after opsC V (Proc.devRef .tc main_v47)
    = (zeroIdx : IVec S4096 32) := by
  simp only [opsC]
  after_results_simp <;> rfl

set_option maxRecDepth 8192 in
set_option maxHeartbeats 4000000 in
theorem opsC_keep_v0 : after opsC V (Proc.devRef .tc main_v0)
    = V (Proc.devRef .tc main_v0) := by
  simp only [opsC]
  after_results_simp <;> rfl

set_option maxRecDepth 8192 in
set_option maxHeartbeats 4000000 in
theorem opsC_keep_v4 : after opsC V (Proc.devRef .tc main_v4)
    = V (Proc.devRef .tc main_v4) := by
  simp only [opsC]
  after_results_simp <;> rfl

set_option maxRecDepth 8192 in
set_option maxHeartbeats 4000000 in
theorem opsC_keep_v16 : after opsC V (Proc.devRef .tc main_v16)
    = V (Proc.devRef .tc main_v16) := by
  simp only [opsC]
  after_results_simp <;> rfl

set_option maxRecDepth 8192 in
set_option maxHeartbeats 4000000 in
theorem opsC_keep_v30 : after opsC V (Proc.devRef .tc main_v30)
    = V (Proc.devRef .tc main_v30) := by
  simp only [opsC]
  after_results_simp <;> rfl

end Cert.ReferenceIdeal.Hand

end
-- ==== Proof.Ref.StretchD.lean ====
import proofs.«117435_j26147760898822_1_alg».proof.Proof.Ref.Cut

/-!
# The fourth stretch: the positives' index columns
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem D_v57 : after opsD V (Proc.devRef .tc main_v57)
    = broadcastInDim S4096x1 ![0] bcast_S4096_S4096x1_0 (wrapIdxZ (V (Proc.devRef .tc main_v0)) (V (Proc.devRef .tc main_v47))) := by
  simp only [opsD]
  after_results_simp <;> rfl

set_option maxRecDepth 8192 in
set_option maxHeartbeats 4000000 in
theorem D_v58 : after opsD V (Proc.devRef .tc main_v58)
    = broadcastInDim S4096x1 ![0] bcast_S4096_S4096x1_0 (wrapIdxZ (V (Proc.devRef .tc main_v16)) zeroIdx) := by
  simp only [opsD]
  after_results_simp <;> rfl

set_option maxRecDepth 8192 in
set_option maxHeartbeats 4000000 in
theorem opsD_keep_v4 : after opsD V (Proc.devRef .tc main_v4)
    = V (Proc.devRef .tc main_v4) := by
  simp only [opsD]
  after_results_simp <;> rfl

set_option maxRecDepth 8192 in
set_option maxHeartbeats 4000000 in
theorem opsD_keep_v16 : after opsD V (Proc.devRef .tc main_v16)
    = V (Proc.devRef .tc main_v16) := by
  simp only [opsD]
  after_results_simp <;> rfl

set_option maxRecDepth 8192 in
set_option maxHeartbeats 4000000 in
theorem opsD_keep_v30 : after opsD V (Proc.devRef .tc main_v30)
    = V (Proc.devRef .tc main_v30) := by
  simp only [opsD]
  after_results_simp <;> rfl

set_option maxRecDepth 8192 in
set_option maxHeartbeats 4000000 in
theorem opsD_keep_v46 : after opsD V (Proc.devRef .tc main_v46)
    = V (Proc.devRef .tc main_v46) := by
  simp only [opsD]
  after_results_simp <;> rfl

end Cert.ReferenceIdeal.Hand

end
-- ==== Proof.Ref.StretchE1.lean ====
import proofs.«117435_j26147760898822_1_alg».proof.Proof.Ref.Cut

/-!
# The fifth stretch: the first row loss and its mean
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem E_v89 : after opsE V (Proc.devRef .tc main_v89)
    = meanOf (rowLoss (Host.scatter scatter_S4096x4096_S4096x2_S4096_n_01_01_1 (fun _ b => b) (V (Proc.devRef .tc main_v46)) (concatenate S4096x2 1 [⟨S4096x1, (V (Proc.devRef .tc main_v57) : IVec S4096x1 32)⟩, ⟨S4096x1, (V (Proc.devRef .tc main_v58) : IVec S4096x1 32)⟩] concatenates_S4096x1_S4096x1_S4096x2_d1) falseUpd) (expo1 (V (Proc.devRef .tc main_v4)) (V (Proc.devRef .tc main_v30)))) := by
  simp only [opsE]
  after_results_simp
  all_goals (try simp only [TRef.toBuf, TRef.ofBuf, cast_eq, id_eq])
  all_goals rfl

end Cert.ReferenceIdeal.Hand

end
-- ==== Proof.Ref.StretchE2.lean ====
import proofs.«117435_j26147760898822_1_alg».proof.Proof.Ref.Cut

/-!
# The fifth stretch: the second row loss and its mean
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
set_option maxHeartbeats 4000000 in
theorem E_v91 : after opsE V (Proc.devRef .tc main_v91)
    = meanOf (rowLoss (Host.scatter scatter_S4096x4096_S4096x2_S4096_n_01_01_1 (fun _ b => b) (V (Proc.devRef .tc main_v46)) (concatenate S4096x2 1 [⟨S4096x1, (V (Proc.devRef .tc main_v57) : IVec S4096x1 32)⟩, ⟨S4096x1, (V (Proc.devRef .tc main_v58) : IVec S4096x1 32)⟩] concatenates_S4096x1_S4096x1_S4096x2_d1) falseUpd) (expo2 (V (Proc.devRef .tc main_v4)) (stWp (V (Proc.devRef .tc main_v4)) zeroIdx (V (Proc.devRef .tc main_v16))) (V (Proc.devRef .tc main_v30)))) := by
  simp only [opsE]
  after_results_simp
  all_goals (try simp only [TRef.toBuf, TRef.ofBuf, cast_eq, id_eq])
  all_goals rfl

end Cert.ReferenceIdeal.Hand

end
-- ==== Proof.Ref.Stages.lean ====
import proofs.«117435_j26147760898822_1_alg».proof.Proof.Ref.StretchA
import proofs.«117435_j26147760898822_1_alg».proof.Proof.Ref.StretchB
import proofs.«117435_j26147760898822_1_alg».proof.Proof.Ref.StretchC
import proofs.«117435_j26147760898822_1_alg».proof.Proof.Ref.StretchD
import proofs.«117435_j26147760898822_1_alg».proof.Proof.Ref.StretchE1
import proofs.«117435_j26147760898822_1_alg».proof.Proof.Ref.StretchE2

/-!
# The reference's result as a composition of named stages

The fold of the reference's operations at the result buffer, assembled from the five stretches: the result is
the sum of the two means, each of a masked row loss, of the Gram matrix of the first argument and the positives
computed from the second.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem part2_v93 (V : Valuation τ sig (Elt F)) : after ops2 V (Proc.devRef .tc main_v93)
    = addf (V (Proc.devRef .tc main_v89)) (mulf (constant S_ .f32 0x3F800000#32) (V (Proc.devRef .tc main_v91))) := by
  simp only [ops2]
  after_results_simp

/-- The reference's result is the loss of the Gram matrix of the first argument and the positives of the second. -/
theorem fold_eq (V : Valuation τ sig (Elt F)) :
    after ops V (Proc.devRef .tc main_v93)
      = stLoss (stW (V (Proc.devRef .tc main_arg0))) (iotaInDim S4096 32 0) zeroIdx (stPos (V (Proc.devRef .tc main_arg1))) := by
  rw [after_cut, part2_v93, E_v89, E_v91,
    D_v57, D_v58, opsD_keep_v4, opsD_keep_v16, opsD_keep_v30, opsD_keep_v46,
    C_v46, C_v47, opsC_keep_v0, opsC_keep_v4, opsC_keep_v16, opsC_keep_v30,
    B_v30, B_v31, B_v42, B_v43, opsB_keep_v0, opsB_keep_v4, opsB_keep_v16,
    A_v0, A_v4, A_v16, A_v27, A_v28]
  rfl

end Cert.ReferenceIdeal.Hand

end
-- ==== Proof.Ref.ValueRows.lean ====
import proofs.«117435_j26147760898822_1_alg».proof.Proof.Ref.StageDefs
import proofs.«117435_j26147760898822_1_alg».proof.Proof.Spec
import proofs.«117435_j26147760898822_1_alg».proof.Proof.LibRowReads
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

/-!
# The float stages read at an index, over the extended reals

* the scaled Gram matrix at `(q, k)` is `(∑ d, x q d · x k d) · γ`;
* a vector laid out as a column (or a row) of a square matrix reads the vector at the row (the column);
* a masked row loss at row `q` is `log (1 + ∑ k, if mask (q, k) then e (q, k) else 0)`: the sum from the zero word
  is the sum, and a select on a one-bit mask is the `if`;
* the mean of a row loss is the sum from `0` divided by the word for 4096.
-/

noncomputable section

open scoped BigOperators

namespace Cert.ReferenceIdeal.Hand

open Cert.ReferenceIdeal Cert.ReferenceIdeal.Gen Idealize.ShloMosaic Idealize.ShloMosaic.ValueIdx

/-- A scalar copied to every entry reads the scalar. -/
theorem splat_apply {α : Type} {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector laid out as the column of a square matrix reads, at `(q, k)`, the vector at `q`. -/
theorem colOf_apply {α : Type} (v : S4096.Idx → α) (q k : Fin 4096) : colOf v (ix2 q k) = v (ix1 q) := by
  unfold colOf
  refine (broadcastInDim_apply _ _ _ (ix2 q k) (ix2 q (0 : Fin 1)) (fun a => ?_)).trans ?_
  · match a with
    | ⟨0, _⟩ => rfl
    | ⟨1, _⟩ => rfl
  · exact broadcastInDim_apply _ _ _ (ix2 q (0 : Fin 1)) (ix1 q) (fun a => match a with | ⟨0, _⟩ => rfl)

/-- A vector laid out as the row of a square matrix reads, at `(q, k)`, the vector at `k`. -/
theorem rowOf_apply {α : Type} (v : S4096.Idx → α) (q k : Fin 4096) : rowOf v (ix2 q k) = v (ix1 k) := by
  unfold rowOf
  refine (broadcastInDim_apply _ _ _ (ix2 q k) (ix2 (0 : Fin 1) k) (fun a => ?_)).trans ?_
  · match a with
    | ⟨0, _⟩ => rfl
    | ⟨1, _⟩ => rfl
  · exact broadcastInDim_apply _ _ _ (ix2 (0 : Fin 1) k) (ix1 k) (fun a => match a with | ⟨0, _⟩ => rfl)

/-- The scaled Gram matrix at `(q, k)`. -/
theorem stW_apply (x : FVec Ideal S4096x2048 .f32) (q k : Fin 4096) : stW x (ix2 q k) = Cert.Spec.simAt x q k := by
  unfold stW Cert.Spec.simAt Cert.Spec.γ
  have hd : dot_S4096x2048_S2048x4096_S4096x4096_1_0_0_1_n_n = DotDims.plain 4096 2048 4096 := rfl
  rw [mulf_apply, splat_apply, constant_apply, hd, StackMember.dotGeneral_plain_apply, mul_comm]
  congr 1
  exact Finset.sum_congr rfl fun d _ => by rw [transpose_ix2_apply]

/-- A masked row loss at row `q`. -/
theorem rowLoss_apply (m : IVec S4096x4096 1) (e : FVec Ideal S4096x4096 .f32) (q : Fin 4096) :
    rowLoss m e (ix1 q) = Ideal.log1p (∑ k : Fin 4096, if m (ix2 q k) = 1#1 then e (ix2 q k) else 0) := by
  unfold rowLoss
  show Ideal.log1p (Host.reduceAdd (F := Ideal) (φ := .f32) _ _ _ _ (ix1 q)) = _
  congr 1
  unfold Host.reduceAdd
  rw [Ideal.hostReduceAdd_def, Ideal.hostReduceAdd_single reducesTo_S4096x4096_S4096_d1 (by decide : S4096x4096.Reduces [1] S4096),
    constant_apply, Ideal.ofBits_zero_f32, zero_add]
  refine Finset.sum_congr rfl fun k _ => ?_
  rw [Cert.RowReads.lift_last, select_apply, splat_apply]
  show (if m (ix2 q ⟨k.val, k.isLt⟩) = 1#1 then e (ix2 q ⟨k.val, k.isLt⟩) else Ideal.ofBits .f32 0x00000000#32) = _
  rw [Ideal.ofBits_zero_f32]
  rfl

/-- A sum over a rank-one index set is the sum over its coordinate. -/
theorem sum_idx1 {M : Type} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

/-- The mean of a row loss. -/
theorem meanOf_apply (l : FVec Ideal S4096 .f32) (j : S_.Idx) : meanOf l j = Cert.Spec.mean (fun q => l (ix1 q)) := by
  unfold meanOf Cert.Spec.mean Cert.Spec.n4096
  show Ideal.div (Host.reduceAdd (F := Ideal) (φ := .f32) _ _ _ _ j) (constant (F := Ideal) S_ .f32 0x45800000#32 j) = _
  rw [constant_apply]
  congr 1
  unfold Host.reduceAdd
  rw [Ideal.hostReduceAdd_def, Ideal.hostReduceAdd_total reducesTo_S4096_S_d0 (fun b => b.elim0),
    constant_apply, Ideal.ofBits_zero_f32]
  congr 1
  exact sum_idx1 l

/-- The first loss's exponent at `(q, k)`. -/
theorem expo1_apply (W : FVec Ideal S4096x4096 .f32) (wpos : FVec Ideal S4096 .f32) (q k : Fin 4096) :
    expo1 W wpos (ix2 q k) = Ideal.exp (W (ix2 q k) - wpos (ix1 q)) := by
  unfold expo1
  show Ideal.exp (subf (F := Ideal) (φ := .f32) W (colOf wpos) (ix2 q k)) = _
  rw [subf_apply, colOf_apply]

/-- The second loss's exponent at `(q, k)`. -/
theorem expo2_apply (W Wp : FVec Ideal S4096x4096 .f32) (wpos : FVec Ideal S4096 .f32) (q k : Fin 4096) :
    expo2 W Wp wpos (ix2 q k)
      = Ideal.exp ((W (ix2 q k) + Wp (ix2 q k)) * Cert.Spec.one - wpos (ix1 q) * Cert.Spec.one) := by
  unfold expo2 Cert.Spec.one
  show Ideal.exp (subf (F := Ideal) (φ := .f32) _ (colOf _) (ix2 q k)) = _
  rw [subf_apply, colOf_apply, mulf_apply, mulf_apply, addf_apply, splat_apply, splat_apply, constant_apply]

end Cert.ReferenceIdeal.Hand

end
-- ==== Proof.Ref.SetScatter.lean ====
import Idealize.ShloMosaic.PureOps.Ideal
import Idealize.ShloMosaic.Lib.ValueIdx

/-!
# A scatter that SETS, read at an index

`x.at[rows, cols].set(u)` lowers to a scatter whose body returns the update: a left fold over the updates in
row-major order, each update that lands inside the operand overwriting the element it lands on.

* At an element no update lands on, the result is the operand.
* When every update carries the same value `c`, the result at an element is `c` if some update lands on it and
  the operand otherwise — however many land.
* When exactly one update lands on an element, the result there is that update.

For the two-coordinate form (an `[N, 2]` index array, one `(row, column)` pair per update, over an `[N, N]`
operand) update `e` lands on `(r, k)` exactly when its pair, read signed, is `(r, k)`; when the rows are the
row numbers themselves, the only update that can land on row `r` is update `r`.
-/

noncomputable section

namespace Cert.SetScatter

open Idealize.ShloMosaic Idealize.ShloMosaic.ValueIdx

/-! ## The fold -/

section Fold
variable {α : Type} {s si u : Shape} {w : Nat}

/-- One step of the fold: update number `n` overwrites the element it lands on, if it lands. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

/-- The setting scatter is the fold of that step. -/
theorem scatter_eq_foldl (d : ScatterDims s si u) (x : s.Idx → α) (idx : IVec si w) (upd : u.Idx → α) :
    Host.scatter d (fun _ b => b) x idx upd = (List.finRange u.numel).foldl (step d idx upd) x := rfl

/-- A step at an element: the update if it lands there, else what was there. -/
theorem step_apply (d : ScatterDims s si u) (idx : IVec si w) (upd : u.Idx → α) (r : s.Idx → α) (n : Fin u.numel) (i : s.Idx) :
    step d idx upd r n i = if d.resultIdx? (u.rowMajor.symm n) idx = some i then upd (u.rowMajor.symm n) else r i := by
  unfold step
  cases d.resultIdx? (u.rowMajor.symm n) idx with
  | none =>
    show r i = _
    rw [if_neg (fun e => by cases e)]
  | some i0 =>
    show (if i = i0 then upd (u.rowMajor.symm n) else r i) = _
    by_cases h : i = i0
    · subst h; rw [if_pos rfl, if_pos rfl]
    · rw [if_neg h, if_neg (fun e => h (Option.some.inj e).symm)]

/-- Updates none of which lands on `i` leave `i` as it was. -/
theorem foldl_of_no_hit (d : ScatterDims s si u) (idx : IVec si w) (upd : u.Idx → α) (i : s.Idx) :
    ∀ (l : List (Fin u.numel)) (r0 : s.Idx → α), (∀ n ∈ l, d.resultIdx? (u.rowMajor.symm n) idx ≠ some i) →
      l.foldl (step d idx upd) r0 i = r0 i
  | [], _, _ => rfl
  | n :: l, r0, h => by
    rw [List.foldl_cons, foldl_of_no_hit d idx upd i l _ (fun m hm => h m (List.mem_cons_of_mem _ hm)), step_apply,
      if_neg (h n List.mem_cons_self)]

/-- Updates that all carry `c`: `c` where one lands, what was there elsewhere. -/
theorem foldl_const (d : ScatterDims s si u) (idx : IVec si w) (upd : u.Idx → α) (c : α) (hu : ∀ j, upd j = c) (i : s.Idx) :
    ∀ (l : List (Fin u.numel)) (r0 : s.Idx → α),
      l.foldl (step d idx upd) r0 i = if ∃ n ∈ l, d.resultIdx? (u.rowMajor.symm n) idx = some i then c else r0 i
  | [], r0 => by simp
  | n :: l, r0 => by
    rw [List.foldl_cons, foldl_const d idx upd c hu i l, step_apply, hu]
    by_cases hl : ∃ m ∈ l, d.resultIdx? (u.rowMajor.symm m) idx = some i
    · obtain ⟨m, hm, he⟩ := hl
      rw [if_pos ⟨m, hm, he⟩, if_pos ⟨m, List.mem_cons_of_mem _ hm, he⟩]
    · rw [if_neg hl]
      by_cases hn : d.resultIdx? (u.rowMajor.symm n) idx = some i
      · rw [if_pos hn, if_pos ⟨n, List.mem_cons_self, hn⟩]
      · rw [if_neg hn, if_neg]
        rintro ⟨m, hm, he⟩
        rcases List.mem_cons.mp hm with rfl | hm
        · exact hn he
        · exact hl ⟨m, hm, he⟩

/-- THE SETTING SCATTER OF ONE VALUE, read at `i`: the value where some update lands, the operand elsewhere. -/
theorem scatter_const_apply (d : ScatterDims s si u) (x : s.Idx → α) (idx : IVec si w) (upd : u.Idx → α) (c : α)
    (hu : ∀ j, upd j = c) (i : s.Idx) :
    Host.scatter d (fun _ b => b) x idx upd i = if ∃ j : u.Idx, d.resultIdx? j idx = some i then c else x i := by
  rw [scatter_eq_foldl, foldl_const d idx upd c hu i]
  refine if_congr ⟨?_, ?_⟩ rfl rfl
  · rintro ⟨n, -, he⟩; exact ⟨_, he⟩
  · rintro ⟨j, he⟩
    exact ⟨u.rowMajor j, List.mem_finRange _, by rw [Equiv.symm_apply_apply]; exact he⟩

/-- THE SETTING SCATTER where nothing lands on `i`: the operand. -/
theorem scatter_apply_of_no_hit (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_of_no_hit d idx upd i _ _ fun n _ => h _

/-- THE SETTING SCATTER where exactly one update lands on `i`: that update. -/
theorem scatter_apply_of_unique (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  rw [scatter_eq_foldl]
  obtain ⟨l1, l2, hl⟩ := List.append_of_mem (List.mem_finRange (u.rowMajor j))
  have hnd : (l1 ++ u.rowMajor j :: l2).Nodup := hl ▸ List.nodup_finRange _
  rw [hl, List.foldl_append, List.foldl_cons]
  rw [foldl_of_no_hit d idx upd i l2 _ (fun m hm he => by
    have hm' : u.rowMajor.symm m = j := huniq _ he
    have : m = u.rowMajor j := by rw [← hm', Equiv.apply_symm_apply]
    subst this
    exact (List.nodup_cons.mp (List.nodup_append.mp hnd).2.1).1 hm)]
  rw [step_apply, Equiv.symm_apply_apply, if_pos hj]

end Fold

/-! ## One (row, column) pair per update -/

section Pair
variable {α : Type} {N w : Nat}

/-- The dimension numbers of `x.at[rows, cols].set(u)` over `x : [N, N]` with one pair per update, the pairs
    carried as `[N, 2]`, the updates as `[N]`. -/
abbrev pairScatter (N : Nat) (wf : ScatterDims.WF ⟨2, ![N, N]⟩ ⟨2, ![N, 2]⟩ ⟨1, ![N]⟩ [] [0, 1] [0, 1] 1) :
    ScatterDims ⟨2, ![N, N]⟩ ⟨2, ![N, 2]⟩ ⟨1, ![N]⟩ where
  updateWindowDims := []
  insertedWindowDims := [0, 1]
  scatterDimsToOperandDims := [0, 1]
  indexVectorDim := 1
  wf := wf

/-- Update `j` starts at the row its pair's first component names, -/
theorem pair_start0 (wf : ScatterDims.WF ⟨2, ![N, N]⟩ ⟨2, ![N, 2]⟩ ⟨1, ![N]⟩ [] [0, 1] [0, 1] 1)
    (j : (⟨1, ![N]⟩ : Shape).Idx) (idx : IVec ⟨2, ![N, 2]⟩ w) :
    (pairScatter N wf).start j idx 0 = (idx (ix2 (j 0) (0 : Fin 2))).toInt := by
  unfold ScatterDims.start
  rw [dif_pos (show (0 : Fin 2) ∈ (pairScatter N wf).scatterDimsToOperandDims from (by decide : (0 : Fin 2) ∈ ([0, 1] : List (Fin 2))))]
  have hsi : (pairScatter N wf).siIdx j ⟨List.idxOf (0 : Fin 2) (pairScatter N wf).scatterDimsToOperandDims,
      List.idxOf_lt_length_iff.2 (by decide : (0 : Fin 2) ∈ ([0, 1] : List (Fin 2)))⟩ = ix2 (j 0) (0 : Fin 2) := by
    funext b; refine Fin.ext ?_
    match b with
    | ⟨0, _⟩ => rfl
    | ⟨1, _⟩ => rfl
  exact congrArg (fun k => (idx k).toInt) hsi

/-- and at the column its second component names. -/
theorem pair_start1 (wf : ScatterDims.WF ⟨2, ![N, N]⟩ ⟨2, ![N, 2]⟩ ⟨1, ![N]⟩ [] [0, 1] [0, 1] 1)
    (j : (⟨1, ![N]⟩ : Shape).Idx) (idx : IVec ⟨2, ![N, 2]⟩ w) :
    (pairScatter N wf).start j idx 1 = (idx (ix2 (j 0) (1 : Fin 2))).toInt := by
  unfold ScatterDims.start
  rw [dif_pos (show (1 : Fin 2) ∈ (pairScatter N wf).scatterDimsToOperandDims from (by decide : (1 : Fin 2) ∈ ([0, 1] : List (Fin 2))))]
  have hsi : (pairScatter N wf).siIdx j ⟨List.idxOf (1 : Fin 2) (pairScatter N wf).scatterDimsToOperandDims,
      List.idxOf_lt_length_iff.2 (by decide : (1 : Fin 2) ∈ ([0, 1] : List (Fin 2)))⟩ = ix2 (j 0) (1 : Fin 2) := by
    funext b; refine Fin.ext ?_
    match b with
    | ⟨0, _⟩ => rfl
    | ⟨1, _⟩ => rfl
  exact congrArg (fun k => (idx k).toInt) hsi

/-- Both operand axes are inserted: the window has no extent. -/
theorem pair_window (wf : ScatterDims.WF ⟨2, ![N, N]⟩ ⟨2, ![N, 2]⟩ ⟨1, ![N]⟩ [] [0, 1] [0, 1] 1)
    (j : (⟨1, ![N]⟩ : Shape).Idx) (a : Fin 2) : (pairScatter N wf).window j a = 0 := by
  unfold ScatterDims.window
  have h : a ∉ (pairScatter N wf).sKept := by
    show a ∉ ([] : List (Fin 2)); exact List.not_mem_nil
  rw [dif_neg h]

/-- WHERE AN UPDATE LANDS: update `j` lands on `(r, k)` exactly when its pair, read signed, is `(r, k)`. -/
theorem pair_resultIdx?_eq_some_iff (wf : ScatterDims.WF ⟨2, ![N, N]⟩ ⟨2, ![N, 2]⟩ ⟨1, ![N]⟩ [] [0, 1] [0, 1] 1)
    (j : (⟨1, ![N]⟩ : Shape).Idx) (idx : IVec ⟨2, ![N, 2]⟩ w) (i : (⟨2, ![N, N]⟩ : Shape).Idx) :
    (pairScatter N wf).resultIdx? j idx = some i ↔
      (idx (ix2 (j 0) (0 : Fin 2))).toInt = ((i 0).val : Int) ∧ (idx (ix2 (j 0) (1 : Fin 2))).toInt = ((i 1).val : Int) := by
  have hi0 : (i 0).val < N := (i 0).isLt
  have hi1 : (i 1).val < N := (i 1).isLt
  unfold ScatterDims.resultIdx?
  split
  · rename_i h
    rw [Option.some.injEq]
    constructor
    · intro e
      have e0 := congrArg (fun f => (f 0).val) e
      have e1 := congrArg (fun f => (f 1).val) e
      simp only [pair_start0, pair_start1, pair_window] at e0 e1
      have h0 := h 0
      have h1 := h 1
      simp only [pair_start0, pair_start1, pair_window] at h0 h1
      constructor
      · omega
      · omega
    · rintro ⟨e0, e1⟩
      funext a
      refine Fin.ext ?_
      match a with
      | ⟨0, _⟩ =>
        show ((pairScatter N wf).start j idx 0 + ((pairScatter N wf).window j 0 : Int)).toNat = (i 0).val
        rw [pair_start0, pair_window, e0]; omega
      | ⟨1, _⟩ =>
        show ((pairScatter N wf).start j idx 1 + ((pairScatter N wf).window j 1 : Int)).toNat = (i 1).val
        rw [pair_start1, pair_window, e1]; omega
  · rename_i h
    constructor
    · intro e; exact absurd e (by simp)
    · rintro ⟨e0, e1⟩
      exfalso; apply h
      intro a
      match a with
      | ⟨0, _⟩ =>
        show 0 ≤ (pairScatter N wf).start j idx 0 + ((pairScatter N wf).window j 0 : Int) ∧
          (pairScatter N wf).start j idx 0 + ((pairScatter N wf).window j 0 : Int) < ((⟨2, ![N, N]⟩ : Shape).size 0 : Int)
        rw [pair_start0, pair_window, e0]
        refine ⟨by omega, ?_⟩
        show ((i 0).val : Int) + ((0 : Nat) : Int) < (N : Int)
        omega
      | ⟨1, _⟩ =>
        show 0 ≤ (pairScatter N wf).start j idx 1 + ((pairScatter N wf).window j 1 : Int) ∧
          (pairScatter N wf).start j idx 1 + ((pairScatter N wf).window j 1 : Int) < ((⟨2, ![N, N]⟩ : Shape).size 1 : Int)
        rw [pair_start1, pair_window, e1]
        refine ⟨by omega, ?_⟩
        show ((i 1).val : Int) + ((0 : Nat) : Int) < (N : Int)
        omega

/-- A row number below 2³¹ reads signed as itself. -/
theorem toInt_ofNat_of_lt {n : Nat} (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split
  · rfl
  · omega

/-- When the pairs' rows are the row numbers themselves, update `j` lands on `(r, k)` exactly when `j` is `r`
    and its column, read signed, is `k`. -/
theorem pair_lands_iff (hN : N ≤ 2147483648) (wf : ScatterDims.WF ⟨2, ![N, N]⟩ ⟨2, ![N, 2]⟩ ⟨1, ![N]⟩ [] [0, 1] [0, 1] 1)
    (idx : IVec ⟨2, ![N, 2]⟩ 32) (hrow : ∀ e : Fin N, idx (ix2 e (0 : Fin 2)) = BitVec.ofNat 32 e.val)
    (j : (⟨1, ![N]⟩ : Shape).Idx) (r k : Fin N) :
    (pairScatter N wf).resultIdx? j idx = some (ix2 r k) ↔ j = ix1 r ∧ (idx (ix2 r (1 : Fin 2))).toInt = (k.val : Int) := by
  rw [pair_resultIdx?_eq_some_iff]
  have hj : (j 0).val < N := (j 0).isLt
  constructor
  · rintro ⟨e0, e1⟩
    have e0' : (idx (ix2 (j 0) (0 : Fin 2))).toInt = ((j 0).val : Int) := by
      rw [hrow (j 0)]; exact toInt_ofNat_of_lt (by omega)
    have hjr : j 0 = r := Fin.ext (by
      have : ((j 0).val : Int) = (r.val : Int) := e0'.symm.trans e0
      omega)
    refine ⟨funext fun a => ?_, ?_⟩
    · obtain rfl : a = 0 := Subsingleton.elim _ _
      exact hjr
    · rw [← hjr]; exact e1
  · rintro ⟨rfl, e1⟩
    refine ⟨?_, e1⟩
    show (idx (ix2 r (0 : Fin 2))).toInt = (r.val : Int)
    rw [hrow r]; exact toInt_ofNat_of_lt (by have := r.isLt; omega)

/-- THE PAIR SCATTER OF ONE VALUE with the row numbers as rows, read at `(r, k)`: the value where row `r`'s
    column is `k`, the operand elsewhere. -/
theorem pair_scatter_const_apply (hN : N ≤ 2147483648)
    (wf : ScatterDims.WF ⟨2, ![N, N]⟩ ⟨2, ![N, 2]⟩ ⟨1, ![N]⟩ [] [0, 1] [0, 1] 1)
    (x : (⟨2, ![N, N]⟩ : Shape).Idx → α) (idx : IVec ⟨2, ![N, 2]⟩ 32) (upd : (⟨1, ![N]⟩ : Shape).Idx → α) (c : α)
    (hu : ∀ j, upd j = c) (hrow : ∀ e : Fin N, idx (ix2 e (0 : Fin 2)) = BitVec.ofNat 32 e.val) (r k : Fin N) :
    Host.scatter (pairScatter N wf) (fun _ b => b) x idx upd (ix2 r k)
      = if (idx (ix2 r (1 : Fin 2))).toInt = (k.val : Int) then c else x (ix2 r k) := by
  rw [scatter_const_apply _ x idx upd c hu]
  refine if_congr ⟨?_, ?_⟩ rfl rfl
  · rintro ⟨j, he⟩; exact ((pair_lands_iff hN wf idx hrow j r k).mp he).2
  · intro e; exact ⟨ix1 r, (pair_lands_iff hN wf idx hrow (ix1 r) r k).mpr ⟨rfl, e⟩⟩

/-- THE PAIR SCATTER with the row numbers as rows, read at `(r, k)`: update `r` where row `r`'s column is `k`, the
    operand elsewhere (the rows are distinct, so at most one update lands on any element). -/
theorem pair_scatter_apply (hN : N ≤ 2147483648)
    (wf : ScatterDims.WF ⟨2, ![N, N]⟩ ⟨2, ![N, 2]⟩ ⟨1, ![N]⟩ [] [0, 1] [0, 1] 1)
    (x : (⟨2, ![N, N]⟩ : Shape).Idx → α) (idx : IVec ⟨2, ![N, 2]⟩ 32) (upd : (⟨1, ![N]⟩ : Shape).Idx → α)
    (hrow : ∀ e : Fin N, idx (ix2 e (0 : Fin 2)) = BitVec.ofNat 32 e.val) (r k : Fin N) :
    Host.scatter (pairScatter N wf) (fun _ b => b) x idx upd (ix2 r k)
      = if (idx (ix2 r (1 : Fin 2))).toInt = (k.val : Int) then upd (ix1 r) else x (ix2 r k) := by
  by_cases e : (idx (ix2 r (1 : Fin 2))).toInt = (k.val : Int)
  · rw [if_pos e]
    exact scatter_apply_of_unique _ x idx upd _ (ix1 r) ((pair_lands_iff hN wf idx hrow (ix1 r) r k).mpr ⟨rfl, e⟩)
      fun j' hj' => ((pair_lands_iff hN wf idx hrow j' r k).mp hj').1
  · rw [if_neg e]
    exact scatter_apply_of_no_hit _ x idx upd _ fun j hj => e ((pair_lands_iff hN wf idx hrow j r k).mp hj).2

end Pair

end Cert.SetScatter

end
-- ==== Proof.GatherPairs.lean ====
import Idealize.ShloMosaic.PureOps.Ideal
import Idealize.ShloMosaic.Lib.ValueIdx

/-!
# A gather of one element per index pair

`x[rows, cols]` of a matrix `x : [N, C]` at `M` index pairs carried as `[M, 2]` lowers to a gather that collapses
both operand axes: result element `e` is the operand at the pair's row and column, each read signed and clamped into
its axis.
-/

noncomputable section

namespace Cert.GatherPairs

open Idealize.ShloMosaic Idealize.ShloMosaic.ValueIdx

variable {α : Type} {N C M w : Nat}

/-- The dimension numbers of `x[rows, cols]` with the index pairs along the last axis. -/
abbrev pairDims (N C M : Nat) (wf : GatherDims.WF ⟨2, ![N, C]⟩ ⟨2, ![M, 2]⟩ ⟨1, ![M]⟩ [] [0, 1] [] [0, 1] [] 1 ![1, 1]) :
    GatherDims ⟨2, ![N, C]⟩ ⟨2, ![M, 2]⟩ ⟨1, ![M]⟩ where
  offsetDims := []
  collapsedSliceDims := [0, 1]
  operandBatchingDims := []
  startIndicesBatchingDims := []
  startIndexMap := [0, 1]
  indexVectorDim := 1
  sliceSizes := ![1, 1]
  wf := wf

/-- The row pair `e` reads: its first component read signed, clamped into `[0, N − 1]`. -/
def clampFst (N : Nat) (hN : 0 < N) {M w : Nat} (idx : IVec ⟨2, ![M, 2]⟩ w) (e : Fin M) : Fin N :=
  ⟨min (idx (ix2 e (0 : Fin 2))).toInt.toNat (N - 1), by omega⟩
/-- The column pair `e` reads: its second component read signed, clamped into `[0, C − 1]`. -/
def clampSnd (C : Nat) (hC : 0 < C) {M w : Nat} (idx : IVec ⟨2, ![M, 2]⟩ w) (e : Fin M) : Fin C :=
  ⟨min (idx (ix2 e (1 : Fin 2))).toInt.toNat (C - 1), by omega⟩

/-- THE GATHER READ AT `e`: the operand at the pair's clamped row and column. -/
theorem gather_pairs_apply (hN : 0 < N) (hC : 0 < C)
    (wf : GatherDims.WF ⟨2, ![N, C]⟩ ⟨2, ![M, 2]⟩ ⟨1, ![M]⟩ [] [0, 1] [] [0, 1] [] 1 ![1, 1])
    (x : (⟨2, ![N, C]⟩ : Shape).Idx → α) (idx : IVec ⟨2, ![M, 2]⟩ w) (y : (⟨1, ![M]⟩ : Shape).Idx) :
    Host.gather (pairDims N C M wf) x idx y = x (ix2 (clampFst N hN idx (y 0)) (clampSnd C hC idx (y 0))) := by
  have h0 : (0 : Fin 2) ∈ ([0, 1] : List (Fin 2)) := by decide
  have h1 : (1 : Fin 2) ∈ ([0, 1] : List (Fin 2)) := by decide
  unfold Host.gather
  congr 1
  funext a
  refine Fin.ext ?_
  match a with
  | ⟨0, _⟩ =>
    show (pairDims N C M wf).start y idx 0 + (pairDims N C M wf).batchCoord y 0 + (pairDims N C M wf).offCoord y 0 = _
    rw [GatherDims.batchCoord_eq_zero _ _ _ List.not_mem_nil,
      GatherDims.offCoord_eq_zero _ _ _ (fun h => ((GatherDims.mem_sKept _ _).mp h).1 h0)]
    simp only [Nat.add_zero]
    unfold GatherDims.start
    rw [dif_pos (show (0 : Fin 2) ∈ (pairDims N C M wf).startIndexMap from h0)]
    have hsi : (pairDims N C M wf).siIdx y ⟨List.idxOf (0 : Fin 2) (pairDims N C M wf).startIndexMap,
        List.idxOf_lt_length_iff.2 h0⟩ = ix2 (y 0) (0 : Fin 2) := by
      funext b; refine Fin.ext ?_
      match b with
      | ⟨0, _⟩ => rfl
      | ⟨1, _⟩ => rfl
    rw [hsi]
    rfl
  | ⟨1, _⟩ =>
    show (pairDims N C M wf).start y idx 1 + (pairDims N C M wf).batchCoord y 1 + (pairDims N C M wf).offCoord y 1 = _
    rw [GatherDims.batchCoord_eq_zero _ _ _ List.not_mem_nil,
      GatherDims.offCoord_eq_zero _ _ _ (fun h => ((GatherDims.mem_sKept _ _).mp h).1 h1)]
    simp only [Nat.add_zero]
    unfold GatherDims.start
    rw [dif_pos (show (1 : Fin 2) ∈ (pairDims N C M wf).startIndexMap from h1)]
    have hsi : (pairDims N C M wf).siIdx y ⟨List.idxOf (1 : Fin 2) (pairDims N C M wf).startIndexMap,
        List.idxOf_lt_length_iff.2 h1⟩ = ix2 (y 0) (1 : Fin 2) := by
      funext b; refine Fin.ext ?_
      match b with
      | ⟨0, _⟩ => rfl
      | ⟨1, _⟩ => rfl
    rw [hsi]
    rfl

end Cert.GatherPairs

end
-- ==== Proof.Ref.MaskGather.lean ====
import proofs.«117435_j26147760898822_1_alg».proof.Proof.Ref.StageDefs
import proofs.«117435_j26147760898822_1_alg».proof.Proof.Ref.SetScatter
import proofs.«117435_j26147760898822_1_alg».proof.Proof.Spec
import proofs.«117435_j26147760898822_1_alg».proof.Proof.Words
import proofs.«117435_j26147760898822_1_alg».proof.Proof.GatherPairs
import proofs.«117435_j26147760898822_1_alg».proof.Proof.LibScatterGather
import Idealize.ShloMosaic.Lib.Pipeline.Value

/-!
# The reference's index stages, read at an index

Every index word the reference gathers or scatters with is first moved into `[0, 4096)` when negative; a word
already below 4096 is left alone. With the row numbers as rows:

* the two scatters of `false` leave, at `(q, k)`, `true` exactly when `k` is neither `q` nor row `q`'s positive;
* the pair gather reads the matrix at `(q, positive of q)`;
* the row gather reads row `positive of q` of the matrix.
-/

noncomputable section

namespace Cert.ReferenceIdeal.Hand

open Cert.ReferenceIdeal Cert.ReferenceIdeal.Gen Idealize.ShloMosaic Idealize.ShloMosaic.ValueIdx

/-! ## The index words -/

/-- The zero index vector reads `0` everywhere. -/
theorem zeroIdx_apply (i : S4096.Idx) : zeroIdx i = 0#32 := rfl

/-- The row numbers. -/
theorem iota_apply (e : Fin 4096) : iotaInDim S4096 32 0 (ix1 e) = BitVec.ofNat 32 e.val := rfl

/-- A word below 4096 is not moved. -/
theorem wrapIdxZ_apply (v : IVec S4096 32) (i : S4096.Idx) (h : (v i).toNat < 4096) : wrapIdxZ v zeroIdx i = v i := by
  unfold wrapIdxZ
  show Scalar.select (IntOp.cmpi .slt (v i) (zeroIdx i)) _ (v i) = v i
  rw [zeroIdx_apply, Cert.Words.slt_zero h]
  rfl

/-- Two index vectors side by side: the first column, -/
theorem pairIdx_fst (a b : IVec S4096 32) (e : Fin 4096) : pairIdx a b (ix2 e (0 : Fin 2)) = a (ix1 e) := by
  unfold pairIdx
  rw [concatenate_pair_apply_left (1 : Fin S4096x2.rank) _ _ concatenates_S4096x1_S4096x1_S4096x2_d1 (ix2 e (0 : Fin 2)) rfl
    (ix2 e (0 : Fin 1)) (fun b' => by match b' with | ⟨0, _⟩ => rfl | ⟨1, _⟩ => rfl)]
  exact broadcastInDim_apply _ _ a _ (ix1 e) (fun a' => by obtain rfl : a' = 0 := Subsingleton.elim _ _; rfl)

/-- and the second. -/
theorem pairIdx_snd (a b : IVec S4096 32) (e : Fin 4096) : pairIdx a b (ix2 e (1 : Fin 2)) = b (ix1 e) := by
  unfold pairIdx
  rw [concatenate_pair_apply_right (1 : Fin S4096x2.rank) _ _ concatenates_S4096x1_S4096x1_S4096x2_d1 (ix2 e (1 : Fin 2)) rfl rfl
    (ix2 e (0 : Fin 1)) (fun b' hb' => by
      match b' with
      | ⟨0, _⟩ => rfl
      | ⟨1, _⟩ => exact absurd rfl hb') rfl]
  exact broadcastInDim_apply _ _ b _ (ix1 e) (fun a' => by obtain rfl : a' = 0 := Subsingleton.elim _ _; rfl)

/-- A vector carried as a column. -/
theorem column_apply {α : Type} (v : S4096.Idx → α) (e : Fin 4096) :
    broadcastInDim S4096x1 ![0] bcast_S4096_S4096x1_0 v (ix2 e (0 : Fin 1)) = v (ix1 e) :=
  broadcastInDim_apply _ _ v _ (ix1 e) (fun a' => by obtain rfl : a' = 0 := Subsingleton.elim _ _; rfl)

/-- A row number as a word, read back. -/
theorem ofNat_row_toNat (q : Fin 4096) : (BitVec.ofNat 32 q.val).toNat = q.val := by
  rw [BitVec.toNat_ofNat]; exact Nat.mod_eq_of_lt (by have := q.isLt; omega)

/-! ## The two gathers -/

/-- `W[q, pos q]`: the pair gather at row `q` reads the matrix at `(q, pos q)`. -/
theorem wpos_apply {α : Type} (W : S4096x4096.Idx → α) (p : IVec S4096 32) (hp : ∀ q : Fin 4096, (p (ix1 q)).toNat < 4096)
    (q : Fin 4096) :
    Host.gather gather_S4096x4096_S4096x2_S4096_n_01_n_n_01_1_11 W
        (pairIdx (wrapIdxZ (iotaInDim S4096 32 0) zeroIdx) (wrapIdxZ p zeroIdx)) (ix1 q)
      = W (ix2 q (Cert.Spec.pidx (p (ix1 q)))) := by
  have hrec : gather_S4096x4096_S4096x2_S4096_n_01_n_n_01_1_11
      = Cert.GatherPairs.pairDims 4096 4096 4096 gather_S4096x4096_S4096x2_S4096_n_01_n_n_01_1_11_wf := rfl
  have hio : (iotaInDim S4096 32 0 (ix1 q)).toNat < 4096 := by rw [iota_apply, ofNat_row_toNat]; exact q.isLt
  rw [hrec, Cert.GatherPairs.gather_pairs_apply (by decide) (by decide)]
  have e1 : Cert.GatherPairs.clampFst 4096 (by decide) (pairIdx (wrapIdxZ (iotaInDim S4096 32 0) zeroIdx) (wrapIdxZ p zeroIdx)) q = q := by
    refine Fin.ext ?_
    show min (pairIdx (wrapIdxZ (iotaInDim S4096 32 0) zeroIdx) (wrapIdxZ p zeroIdx) (ix2 q (0 : Fin 2))).toInt.toNat (4096 - 1) = q.val
    rw [pairIdx_fst, wrapIdxZ_apply _ _ hio, Cert.Words.clamp hio, iota_apply, ofNat_row_toNat]
  have e2 : Cert.GatherPairs.clampSnd 4096 (by decide) (pairIdx (wrapIdxZ (iotaInDim S4096 32 0) zeroIdx) (wrapIdxZ p zeroIdx)) q
      = Cert.Spec.pidx (p (ix1 q)) := by
    refine Fin.ext ?_
    show min (pairIdx (wrapIdxZ (iotaInDim S4096 32 0) zeroIdx) (wrapIdxZ p zeroIdx) (ix2 q (1 : Fin 2))).toInt.toNat (4096 - 1) = _
    rw [pairIdx_snd, wrapIdxZ_apply _ _ (hp q), Cert.Words.clamp (hp q), Cert.Spec.pidx_val (hp q)]
  show W (ix2 (Cert.GatherPairs.clampFst 4096 _ _ q) (Cert.GatherPairs.clampSnd 4096 _ _ q)) = _
  rw [e1, e2]

/-- `W[pos q, ·]`: the row gather at `(q, k)` reads the matrix at `(pos q, k)`. -/
theorem wp_apply {α : Type} (W : S4096x4096.Idx → α) (p : IVec S4096 32) (hp : ∀ q : Fin 4096, (p (ix1 q)).toNat < 4096)
    (q k : Fin 4096) :
    Host.gather gather_S4096x4096_S4096x1_S4096x4096_1_0_n_n_0_1_14096 W
        (broadcastInDim S4096x1 ![0] bcast_S4096_S4096x1_0 (wrapIdxZ p zeroIdx)) (ix2 q k)
      = W (ix2 (Cert.Spec.pidx (p (ix1 q))) k) := by
  have hrec : gather_S4096x4096_S4096x1_S4096x4096_1_0_n_n_0_1_14096
      = Cert.ScatterGather.rowsDims 4096 4096 4096 gather_S4096x4096_S4096x1_S4096x4096_1_0_n_n_0_1_14096_wf := rfl
  rw [hrec, Cert.ScatterGather.gather_rows_apply (by decide)]
  have e1 : Cert.ScatterGather.clampRow 4096 (by decide) (broadcastInDim S4096x1 ![0] bcast_S4096_S4096x1_0 (wrapIdxZ p zeroIdx)) q
      = Cert.Spec.pidx (p (ix1 q)) := by
    refine Fin.ext ?_
    show min (broadcastInDim S4096x1 ![0] bcast_S4096_S4096x1_0 (wrapIdxZ p zeroIdx) (ix2 q (0 : Fin 1))).toInt.toNat (4096 - 1) = _
    rw [column_apply, wrapIdxZ_apply _ _ (hp q), Cert.Words.clamp (hp q), Cert.Spec.pidx_val (hp q)]
  show W (ix2 (Cert.ScatterGather.clampRow 4096 _ _ q) k) = _
  rw [e1]

/-! ## The mask -/

/-- Both scatters write `false`. -/
theorem falseUpd_apply (j : S4096.Idx) : falseUpd j = 0#1 := rfl

/-- `false` written at `(e, b e)` for every row `e`, read at `(q, k)`: `false` when `k` is row `q`'s column, the
    mask as it was elsewhere. -/
theorem clearAt_apply (m : IVec S4096x4096 1) (b : IVec S4096 32) (q k : Fin 4096) :
    clearAt m (wrapIdxZ (iotaInDim S4096 32 0) zeroIdx) b (ix2 q k)
      = if (b (ix1 q)).toInt = (k.val : Int) then 0#1 else m (ix2 q k) := by
  have hrec : scatter_S4096x4096_S4096x2_S4096_n_01_01_1
      = Cert.SetScatter.pairScatter 4096 scatter_S4096x4096_S4096x2_S4096_n_01_01_1_wf := rfl
  have hrow : ∀ e : Fin 4096, pairIdx (wrapIdxZ (iotaInDim S4096 32 0) zeroIdx) b (ix2 e (0 : Fin 2)) = BitVec.ofNat 32 e.val := fun e => by
    have hio : (iotaInDim S4096 32 0 (ix1 e)).toNat < 4096 := by rw [iota_apply, ofNat_row_toNat]; exact e.isLt
    rw [pairIdx_fst, wrapIdxZ_apply _ _ hio, iota_apply]
  unfold clearAt
  rw [hrec, Cert.SetScatter.pair_scatter_const_apply (by decide) _ m _ falseUpd 0#1 falseUpd_apply hrow q k, pairIdx_snd]

/-- THE MASK at `(q, k)`: `true` exactly when `k` is neither `q` nor row `q`'s positive. -/
theorem mask_apply (p : IVec S4096 32) (hp : ∀ q : Fin 4096, (p (ix1 q)).toNat < 4096) (q k : Fin 4096) :
    clearAt (stMask0 (iotaInDim S4096 32 0) zeroIdx) (wrapIdxZ (iotaInDim S4096 32 0) zeroIdx) (wrapIdxZ p zeroIdx) (ix2 q k)
      = if Cert.Spec.keepB q (p (ix1 q)) k then 1#1 else 0#1 := by
  have hio : (iotaInDim S4096 32 0 (ix1 q)).toNat < 4096 := by rw [iota_apply, ofNat_row_toNat]; exact q.isLt
  have hk : k.val < 4096 := k.isLt
  have hq : q.val < 4096 := q.isLt
  -- the row's positive, read signed, is `k` exactly when `k`'s word is the positive's
  have h1 : (p (ix1 q)).toInt = (k.val : Int) ↔ BitVec.ofNat 32 k.val = p (ix1 q) := by
    rw [Cert.Words.toInt_eq (hp q)]
    constructor
    · intro e
      have e' : (p (ix1 q)).toNat = k.val := by omega
      rw [← e']; exact Cert.Words.ofNat_toNat _
    · intro e
      have : (p (ix1 q)).toNat = k.val := by rw [← e, ofNat_row_toNat]
      omega
  -- the row number, read signed, is `k` exactly when `k = q`
  have h2 : (BitVec.ofNat 32 q.val).toInt = (k.val : Int) ↔ k = q := by
    rw [Cert.Words.toInt_eq (by rw [ofNat_row_toNat]; exact hq), ofNat_row_toNat]
    constructor
    · intro e; exact Fin.ext (by omega)
    · rintro rfl; rfl
  rw [clearAt_apply, wrapIdxZ_apply _ _ (hp q)]
  unfold stMask0
  rw [clearAt_apply, wrapIdxZ_apply _ _ hio, iota_apply]
  show (if (p (ix1 q)).toInt = (k.val : Int) then 0#1 else if (BitVec.ofNat 32 q.val).toInt = (k.val : Int) then 0#1 else 1#1)
    = if (decide (k ≠ q) && decide (BitVec.ofNat 32 k.val ≠ p (ix1 q))) = true then 1#1 else 0#1
  by_cases a : BitVec.ofNat 32 k.val = p (ix1 q)
  · rw [if_pos (h1.mpr a), if_neg (by simp [a])]
  · rw [if_neg (fun e => a (h1.mp e))]
    by_cases b : k = q
    · rw [if_pos (h2.mpr b), if_neg (by simp [b])]
    · rw [if_neg (fun e => b (h2.mp e)), if_pos (by simp [a, b])]

end Cert.ReferenceIdeal.Hand

end
-- ==== Proof.Ref.Value.lean ====
import proofs.«117435_j26147760898822_1_alg».proof.Proof.Ref.Stages
import proofs.«117435_j26147760898822_1_alg».proof.Proof.Ref.ValueRows
import proofs.«117435_j26147760898822_1_alg».proof.Proof.Ref.MaskGather
import proofs.«117435_j26147760898822_1_alg».proof.Proof.PosRange

/-!
# The reference's result is the closed-form loss

Each row's positive column is a word below 4096 (an arg-max over column numbers). Given that, every stage
read at an index is the closed form's: the mask is "not the row's own column and not its positive", the
gathered entry and row of the Gram matrix are the entries at the positive, the two masked exponential row
sums under `log (1 + ·)` are the closed form's rows, and the result is the sum of their means.
-/

noncomputable section

open scoped BigOperators

namespace Cert.ReferenceIdeal.Hand

open Cert.ReferenceIdeal Cert.ReferenceIdeal.Gen Idealize.ShloMosaic Idealize.ShloMosaic.ValueIdx Idealize.ShloMosaic.StableHlo

-- the reductions, gathers and scatters are folds and searches over full-size arrays: nothing below looks inside one
attribute [local irreducible] Host.reduce2 Host.scatter Host.gather

/-- A select on the bit of a Boolean is the `if` on the Boolean. -/
theorem ite_bit (b : Bool) (a c : EReal) :
    (if (if b then 1#1 else 0#1 : BitVec 1) = 1#1 then a else c) = if b then a else c := by
  cases b
  · rfl
  · rfl

section Rows
variable (x : FVec Ideal S4096x2048 .f32) (p : IVec S4096 32) (hp : ∀ q : Fin 4096, (p (ix1 q)).toNat < 4096)
include hp

/-- The first row loss is the closed form's. -/
theorem l1_eq (q : Fin 4096) :
    rowLoss (clearAt (stMask0 (iotaInDim S4096 32 0) zeroIdx) (wrapIdxZ (iotaInDim S4096 32 0) zeroIdx) (wrapIdxZ p zeroIdx))
        (expo1 (stW x) (stWpos (stW x) (iotaInDim S4096 32 0) zeroIdx p)) (ix1 q)
      = Cert.Spec.l1 x (fun q => p (ix1 q)) q := by
  rw [rowLoss_apply]
  show _ = Ideal.log1p (∑ k : Fin 4096, if Cert.Spec.keepB q (p (ix1 q)) k
    then Ideal.exp (Cert.Spec.simAt x q k - Cert.Spec.simAt x q (Cert.Spec.pidx (p (ix1 q)))) else 0)
  congr 1
  refine Finset.sum_congr rfl fun k _ => ?_
  rw [mask_apply p hp q k, expo1_apply, stW_apply]
  unfold stWpos
  rw [wpos_apply _ p hp q, stW_apply]
  exact ite_bit _ _ _

/-- The second row loss is the closed form's. -/
theorem l2_eq (q : Fin 4096) :
    rowLoss (clearAt (stMask0 (iotaInDim S4096 32 0) zeroIdx) (wrapIdxZ (iotaInDim S4096 32 0) zeroIdx) (wrapIdxZ p zeroIdx))
        (expo2 (stW x) (stWp (stW x) zeroIdx p) (stWpos (stW x) (iotaInDim S4096 32 0) zeroIdx p)) (ix1 q)
      = Cert.Spec.l2 x (fun q => p (ix1 q)) q := by
  rw [rowLoss_apply]
  show _ = Ideal.log1p (∑ k : Fin 4096, if Cert.Spec.keepB q (p (ix1 q)) k
    then Ideal.exp ((Cert.Spec.simAt x q k + Cert.Spec.simAt x (Cert.Spec.pidx (p (ix1 q))) k) * Cert.Spec.one
      - Cert.Spec.simAt x q (Cert.Spec.pidx (p (ix1 q))) * Cert.Spec.one) else 0)
  congr 1
  refine Finset.sum_congr rfl fun k _ => ?_
  rw [mask_apply p hp q k, expo2_apply, stW_apply]
  unfold stWpos stWp
  rw [wpos_apply _ p hp q, wp_apply _ p hp q k, stW_apply, stW_apply]
  exact ite_bit _ _ _

/-- The loss of the Gram matrix and in-range positives is the closed form. -/
theorem stLoss_eq :
    stLoss (stW x) (iotaInDim S4096 32 0) zeroIdx p = fun _ => Cert.Spec.loss x (fun q => p (ix1 q)) := by
  funext j
  unfold stLoss Cert.Spec.loss
  rw [addf_apply, mulf_apply, constant_apply, meanOf_apply, meanOf_apply]
  show Cert.Spec.mean _ + Cert.Spec.one * Cert.Spec.mean _ = _
  rw [show (fun q : Fin 4096 => rowLoss (clearAt (stMask0 (iotaInDim S4096 32 0) zeroIdx)
        (wrapIdxZ (iotaInDim S4096 32 0) zeroIdx) (wrapIdxZ p zeroIdx))
        (expo1 (stW x) (stWpos (stW x) (iotaInDim S4096 32 0) zeroIdx p)) (ix1 q))
      = Cert.Spec.l1 x (fun q => p (ix1 q)) from funext (l1_eq x p hp),
    show (fun q : Fin 4096 => rowLoss (clearAt (stMask0 (iotaInDim S4096 32 0) zeroIdx)
        (wrapIdxZ (iotaInDim S4096 32 0) zeroIdx) (wrapIdxZ p zeroIdx))
        (expo2 (stW x) (stWp (stW x) zeroIdx p) (stWpos (stW x) (iotaInDim S4096 32 0) zeroIdx p)) (ix1 q))
      = Cert.Spec.l2 x (fun q => p (ix1 q)) from funext (l2_eq x p hp)]

end Rows

/-- THE REFERENCE'S VALUE, given that every row's positive is a column: the fold of its operations at the result buffer
    is the closed-form loss of the first argument's contents and the positives computed from the second argument's. -/
theorem result_eq (V : Valuation τ sig (Elt Ideal))
    (hp : ∀ q : Fin 4096, (stPos (V (Proc.devRef .tc main_arg1)) (ix1 q)).toNat < 4096) :
    after ops V (Proc.devRef .tc main_v93)
      = fun _ => Cert.Spec.loss (V (Proc.devRef .tc main_arg0)) (fun q => stPos (V (Proc.devRef .tc main_arg1)) (ix1 q)) := by
  rw [fold_eq]
  generalize stPos (V (Proc.devRef .tc main_arg1)) = p at hp ⊢
  exact stLoss_eq _ p hp

end Cert.ReferenceIdeal.Hand

end
-- ==== Proof.lean ====
import proofs.«117435_j26147760898822_1_alg».proof.Defs
import proofs.«117435_j26147760898822_1_alg».proof.Proof.Gen.Kernel
import proofs.«117435_j26147760898822_1_alg».proof.Proof.Gen.KernelIdeal
import proofs.«117435_j26147760898822_1_alg».proof.Proof.Gen.ReferenceIdeal
import proofs.«117435_j26147760898822_1_alg».proof.Proof.Gen.Pre_finite_inputs
import proofs.«117435_j26147760898822_1_alg».proof.Proof.KB.Run
import proofs.«117435_j26147760898822_1_alg».proof.Proof.KI.Run
import proofs.«117435_j26147760898822_1_alg».proof.Proof.Ref.Run
import proofs.«117435_j26147760898822_1_alg».proof.Proof.KI.Value
import proofs.«117435_j26147760898822_1_alg».proof.Proof.Ref.Value
import proofs.«117435_j26147760898822_1_alg».proof.Proof.Spec

/-!
# The certificate: an N-pair and angular loss in two kernels against its jnp reference

The kernel program computes the scaled Gram matrix `W = γ · x xᵀ` of the bf16-cast input in one region (a matrix
product per 1024×1024 tile), picks each row's positive column on the host (the first other row with the same label: an
arg-max over a boolean matrix), gathers `W` along it, computes the two masked exp-sum `log1p` row losses in a second
region, and takes the two means on the host. The reference does the same on the host alone, with the mask built by two
scatters into a matrix of ones and the positives read by plain gathers.

At the ideal instance the cast is the identity, the tile products are the one contraction, a lane sum is the row's
sum; the positive column is always a column (the arg-max folds column numbers from `0`), so the bounds checks and
clamps around the gathers are identities and the scattered mask is the compared one: both programs compute
`Cert.Spec.loss`.

The three frames come from the runs: each program's run ends with its argument arrays as launched.
-/

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- The two programs pick the same positives: the two arg-max chains are one term. -/
theorem pos_agree (t : (⟨1, ![4096]⟩ : Shape).Idx → BitVec 32) :
    Cert.KernelIdeal.Glue.posK t = Cert.ReferenceIdeal.Hand.stPos t := by
  rw [Cert.KernelIdeal.Glue.posK_def]
  unfold Cert.ReferenceIdeal.Hand.stPos Cert.ReferenceIdeal.Hand.stSame Cert.ReferenceIdeal.Hand.colOf Cert.ReferenceIdeal.Hand.rowOf
    Cert.KernelIdeal.reducer_argmax_i1_i32 Cert.ReferenceIdeal.reducer_argmax_i1_i32
  rfl

/-- Both programs end at the loss of the specification, of the same input and the same positives. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (fun _ => Cert.Spec.loss (m ((c.tc : Thread Cert.KernelIdeal.nD Cert.KernelIdeal.τ).loc Cert.KernelIdeal.main_arg0)) (Cert.KernelIdeal.Hand.pw m c)), ?_, ?_⟩
  · exact (θ_run Cert.KernelIdeal.defs _ _).mono (fun r h c =>
      ⟨(h c _ (Cert.KernelIdeal.Hand.mem_uc Cert.KernelIdeal.main_v25 (by decide))).trans (Cert.KernelIdeal.Hand.result m ρ c),
        (h c _ (Cert.KernelIdeal.Hand.mem_uc Cert.KernelIdeal.main_arg0 (by decide))).trans (Cert.KernelIdeal.Hand.W10_arg0 m ρ c),
        (h c _ (Cert.KernelIdeal.Hand.mem_uc Cert.KernelIdeal.main_arg1 (by decide))).trans (Cert.KernelIdeal.Hand.W10_arg1 m ρ c)⟩)
      (Cert.KernelIdeal.Hand.run_all m ρ)
  · refine (θ_run Cert.ReferenceIdeal.defs _ _).mono (fun r h c => ⟨(h c).1.trans ?_, (h c).2⟩)
      (Cert.ReferenceIdeal.Hand.run (F := Ideal) m' ρ')
    have hp : ∀ q : Fin 4096, (Cert.ReferenceIdeal.Hand.stPos ((fun b => m' (c, b)) (Proc.devRef .tc Cert.ReferenceIdeal.main_arg1))
        (Idealize.ShloMosaic.ValueIdx.ix1 q)).toNat < 4096 := fun q => by
      rw [← pos_agree]; exact Cert.KernelIdeal.Glue.posK_lt _ _
    refine (Cert.ReferenceIdeal.Hand.result_eq (fun b => m' (c, b)) hp).trans ?_
    have h0 : m' (c, Proc.devRef .tc Cert.ReferenceIdeal.main_arg0) = m ((c.tc : Thread Cert.KernelIdeal.nD Cert.KernelIdeal.τ).loc Cert.KernelIdeal.main_arg0) := (hagree c).1
    have h1 : m' (c, Proc.devRef .tc Cert.ReferenceIdeal.main_arg1) = m ((c.tc : Thread Cert.KernelIdeal.nD Cert.KernelIdeal.τ).loc Cert.KernelIdeal.main_arg1) := (hagree c).2
    show (fun _ => Cert.Spec.loss (m' (c, Proc.devRef .tc Cert.ReferenceIdeal.main_arg0))
        (fun q => Cert.ReferenceIdeal.Hand.stPos (m' (c, Proc.devRef .tc Cert.ReferenceIdeal.main_arg1)) (Idealize.ShloMosaic.ValueIdx.ix1 q))) = _
    rw [h0, h1, ← pos_agree]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
